-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x10x1x1 : Shape := ⟨4, ![32, 10, 1, 1]⟩
abbrev S32x240x56x56 : Shape := ⟨4, ![32, 240, 56, 56]⟩
abbrev S240x10 : Shape := ⟨2, ![240, 10]⟩
abbrev S240 : Shape := ⟨1, ![240]⟩
abbrev S40x240 : Shape := ⟨2, ![40, 240]⟩
abbrev S40 : Shape := ⟨1, ![40]⟩
abbrev S_ : Shape := ⟨0, ![]⟩

class Facts : Prop where
  bcast_S_S32x10x1x1 : S_.BroadcastsInDim S32x10x1x1 (![] : Fin 0 → Fin S32x10x1x1.rank)
  reducesTo_S32x10x1x1_S_d0_1_2_3 : S32x10x1x1.ReducesTo [0, 1, 2, 3] S_
  h_S_ : 0 < S_.numel
  bcast_S_S32x240x56x56 : S_.BroadcastsInDim S32x240x56x56 (![] : Fin 0 → Fin S32x240x56x56.rank)
  reducesTo_S32x240x56x56_S_d0_1_2_3 : S32x240x56x56.ReducesTo [0, 1, 2, 3] S_
  bcast_S_S240x10 : S_.BroadcastsInDim S240x10 (![] : Fin 0 → Fin S240x10.rank)
  reducesTo_S240x10_S_d0_1 : S240x10.ReducesTo [0, 1] S_
  bcast_S_S240 : S_.BroadcastsInDim S240 (![] : Fin 0 → Fin S240.rank)
  reducesTo_S240_S_d0 : S240.ReducesTo [0] S_
  bcast_S_S40x240 : S_.BroadcastsInDim S40x240 (![] : Fin 0 → Fin S40x240.rank)
  reducesTo_S40x240_S_d0_1 : S40x240.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S40x240 .f32) (main_arg5 : FVec F S40 .f32) (main_arg6 : FVec F S40 .f32) (main_v13 : IVec S_ 1) (main_v16 : IVec S240 1) : IVec S_ 1 :=
  let main_c_5 : IVec S_ 1 := constantI S_ 1 1#1
  let main_v17 : IVec S_ 1 := (fun x v => Host.reduce IntOp.andi x v reducesTo_S240_S_d0 h_S_) main_v16 main_c_5
  let main_v18 : IVec S_ 1 := andi main_v13 main_v17
  let main_v19 : FVec F S40x240 .f32 := Host.absf main_arg4
  let main_cst_6 : FVec F S_ .f32 := constant S_ .f32 0x7F800000#32
  let main_v20 : FVec F S40x240 .f32 := broadcastInDim S40x240 ![] bcast_S_S40x240 main_cst_6
  let main_v21 : IVec S40x240 1 := cmpf .olt main_v19 main_v20
  let main_c_7 : IVec S_ 1 := constantI S_ 1 1#1
  let main_v22 : IVec S_ 1 := (fun x v => Host.reduce IntOp.andi x v reducesTo_S40x240_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S40 .f32 := Host.absf main_arg6
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S32x10x1x1 .f32) (main_arg1 : FVec F S32x240x56x56 .f32) (main_arg2 : FVec F S240x10 .f32) (main_arg3 : FVec F S240 .f32) (main_arg4 : FVec F S40x240 .f32) (main_arg5 : FVec F S40 .f32) (main_arg6 : FVec F S40 .f32) : IVec S_ 1 :=
  let main_v0 : FVec F S32x10x1x1 .f32 := Host.absf main_arg0
  let main_cst : FVec F S_ .f32 := constant S_ .f32 0x7F800000#32
  let main_v1 : FVec F S32x10x1x1 .f32 := broadcastInDim S32x10x1x1 ![] bcast_S_S32x10x1x1 main_cst
  let main_v2 : IVec S32x10x1x1 1 := cmpf .olt main_v0 main_v1
  let main_c : IVec S_ 1 := constantI S_ 1 1#1
  let main_v3 : IVec S_ 1 := (fun x v => Host.reduce IntOp.andi x v reducesTo_S32x10x1x1_S_d0_1_2_3 h_S_) main_v2 main_c
  let main_v4 : FVec F S32x240x56x56 .f32 := Host.absf main_arg1
  let main_cst_0 : FVec F S_ .f32 := constant S_ .f32 0x7F800000#32
  let main_v5 : FVec F S32x240x56x56 .f32 := broadcastInDim S32x240x56x56 ![] bcast_S_S32x240x56x56 main_cst_0
  let main_v6 : IVec S32x240x56x56 1 := cmpf .olt main_v4 main_v5
  let main_c_1 : IVec S_ 1 := constantI S_ 1 1#1
  let main_v7 : IVec S_ 1 := (fun x v => Host.reduce IntOp.andi x v reducesTo_S32x240x56x56_S_d0_1_2_3 h_S_) main_v6 main_c_1
  let main_v8 : IVec S_ 1 := andi main_v3 main_v7
  let main_v9 : FVec F S240x10 .f32 := Host.absf main_arg2
  let main_cst_2 : FVec F S_ .f32 := constant S_ .f32 0x7F800000#32
  let main_v10 : FVec F S240x10 .f32 := broadcastInDim S240x10 ![] bcast_S_S240x10 main_cst_2
  let main_v11 : IVec S240x10 1 := cmpf .olt main_v9 main_v10
  let main_c_3 : IVec S_ 1 := constantI S_ 1 1#1
  let main_v12 : IVec S_ 1 := (fun x v => Host.reduce IntOp.andi x v reducesTo_S240x10_S_d0_1 h_S_) main_v11 main_c_3
  let main_v13 : IVec S_ 1 := andi main_v8 main_v12
  let main_v14 : FVec F S240 .f32 := Host.absf main_arg3
  let main_cst_4 : FVec F S_ .f32 := constant S_ .f32 0x7F800000#32
  let main_v15 : FVec F S240 .f32 := broadcastInDim S240 ![] bcast_S_S240 main_cst_4
  let main_v16 : IVec S240 1 := cmpf .olt main_v14 main_v15
  fn_part1 (F := F) main_arg4 main_arg5 main_arg6 main_v13 main_v16
-- ==== Kernel.lean ====
abbrev S32x10x1x1 : Shape := ⟨4, ![32, 10, 1, 1]⟩
abbrev S32x240x56x56 : Shape := ⟨4, ![32, 240, 56, 56]⟩
abbrev S240x10 : Shape := ⟨2, ![240, 10]⟩
abbrev S240 : Shape := ⟨1, ![240]⟩
abbrev S40x240 : Shape := ⟨2, ![40, 240]⟩
abbrev S40 : Shape := ⟨1, ![40]⟩
abbrev S32x56x56x240 : Shape := ⟨4, ![32, 56, 56, 240]⟩
abbrev S32x3136x240 : Shape := ⟨3, ![32, 3136, 240]⟩
abbrev S32x1x10 : Shape := ⟨3, ![32, 1, 10]⟩
abbrev S_ : Shape := ⟨0, ![]⟩
abbrev S32x1x128 : Shape := ⟨3, ![32, 1, 128]⟩
abbrev S10x240 : Shape := ⟨2, ![10, 240]⟩
abbrev S128x240 : Shape := ⟨2, ![128, 240]⟩
abbrev S1x240 : Shape := ⟨2, ![1, 240]⟩
abbrev S240x40 : Shape := ⟨2, ![240, 40]⟩
abbrev S32x3136x40 : Shape := ⟨3, ![32, 3136, 40]⟩
abbrev S1x1x40 : Shape := ⟨3, ![1, 1, 40]⟩
abbrev S4x3136x240 : Shape := ⟨3, ![4, 3136, 240]⟩
abbrev S4x3136x40 : Shape := ⟨3, ![4, 3136, 40]⟩
abbrev S1x1x128 : Shape := ⟨3, ![1, 1, 128]⟩
abbrev S1x128 : Shape := ⟨2, ![1, 128]⟩
abbrev S240x1 : Shape := ⟨2, ![240, 1]⟩
abbrev S1x3136x240 : Shape := ⟨3, ![1, 3136, 240]⟩
abbrev S3136x240 : Shape := ⟨2, ![3136, 240]⟩
abbrev S3136x40 : Shape := ⟨2, ![3136, 40]⟩
abbrev S1x3136x40 : Shape := ⟨3, ![1, 3136, 40]⟩
abbrev S1x40 : Shape := ⟨2, ![1, 40]⟩
abbrev S32x40x3136 : Shape := ⟨3, ![32, 40, 3136]⟩
abbrev S40x1 : Shape := ⟨2, ![40, 1]⟩
abbrev S1x40x1 : Shape := ⟨3, ![1, 40, 1]⟩
abbrev S32x40x56x56 : Shape := ⟨4, ![32, 40, 56, 56]⟩
abbrev S4x40x3136 : Shape := ⟨3, ![4, 40, 3136]⟩
abbrev S4x40x56x56 : Shape := ⟨4, ![4, 40, 56, 56]⟩
abbrev S1x40x3136 : Shape := ⟨3, ![1, 40, 3136]⟩
abbrev S40x3136 : Shape := ⟨2, ![40, 3136]⟩
abbrev S40x56x56 : Shape := ⟨3, ![40, 56, 56]⟩
abbrev S1x40x56x56 : Shape := ⟨4, ![1, 40, 56, 56]⟩

abbrev nBuf : Space → Nat
  | .hbm => 49
  | .vmem => 16
  | .smem => 0
  | _ => 0

abbrev bufTy : (tb : Table) → Fin (tcTables nBuf tb) → BufTy
  | .hbm, ⟨0, _⟩ => ⟨S32x10x1x1, .f32⟩
  | .hbm, ⟨1, _⟩ => ⟨S32x240x56x56, .f32⟩
  | .hbm, ⟨2, _⟩ => ⟨S240x10, .f32⟩
  | .hbm, ⟨3, _⟩ => ⟨S240, .f32⟩
  | .hbm, ⟨4, _⟩ => ⟨S40x240, .f32⟩
  | .hbm, ⟨5, _⟩ => ⟨S40, .f32⟩
  | .hbm, ⟨6, _⟩ => ⟨S40, .f32⟩
  | .hbm, ⟨7, _⟩ => ⟨S32x56x56x240, .f32⟩
  | .hbm, ⟨8, _⟩ => ⟨S32x3136x240, .f32⟩
  | .hbm, ⟨9, _⟩ => ⟨S32x1x10, .f32⟩
  | .hbm, ⟨10, _⟩ => ⟨S_, .i32⟩
  | .hbm, ⟨11, _⟩ => ⟨S_, .f32⟩
  | .hbm, ⟨12, _⟩ => ⟨S32x1x128, .f32⟩
  | .hbm, ⟨13, _⟩ => ⟨S10x240, .f32⟩
  | .hbm, ⟨14, _⟩ => ⟨S_, .i32⟩
  | .hbm, ⟨15, _⟩ => ⟨S_, .f32⟩
  | .hbm, ⟨16, _⟩ => ⟨S128x240, .f32⟩
  | .hbm, ⟨17, _⟩ => ⟨S1x240, .f32⟩
  | .hbm, ⟨18, _⟩ => ⟨S240x40, .f32⟩
  | .hbm, ⟨19, _⟩ => ⟨S32x3136x40, .bf16⟩
  | .hbm, ⟨20, _⟩ => ⟨S1x1x40, .f32⟩
  | .hbm, ⟨21, _⟩ => ⟨S1x1x40, .f32⟩
  | .hbm, ⟨22, _⟩ => ⟨S32x40x3136, .bf16⟩
  | .hbm, ⟨23, _⟩ => ⟨S40x1, .f32⟩
  | .hbm, ⟨24, _⟩ => ⟨S_, .f32⟩
  | .hbm, ⟨25, _⟩ => ⟨S40x1, .f32⟩
  | .hbm, ⟨26, _⟩ => ⟨S40x1, .f32⟩
  | .hbm, ⟨27, _⟩ => ⟨S40x1, .f32⟩
  | .hbm, ⟨28, _⟩ => ⟨S_, .f32⟩
  | .hbm, ⟨29, _⟩ => ⟨S40x1, .f32⟩
  | .hbm, ⟨30, _⟩ => ⟨S40x1, .f32⟩
  | .hbm, ⟨31, _⟩ => ⟨S40x1, .f32⟩
  | .hbm, ⟨32, _⟩ => ⟨S40x1, .f32⟩
  | .hbm, ⟨33, _⟩ => ⟨S_, .f32⟩
  | .hbm, ⟨34, _⟩ => ⟨S40x1, .f32⟩
  | .hbm, ⟨35, _⟩ => ⟨S40x1, .f32⟩
  | .hbm, ⟨36, _⟩ => ⟨S_, .f32⟩
  | .hbm, ⟨37, _⟩ => ⟨S40x1, .f32⟩
  | .hbm, ⟨38, _⟩ => ⟨S40x1, .f32⟩
  | .hbm, ⟨39, _⟩ => ⟨S40x1, .f32⟩
  | .hbm, ⟨40, _⟩ => ⟨S40x1, .f32⟩
  | .hbm, ⟨41, _⟩ => ⟨S40x1, .f32⟩
  | .hbm, ⟨42, _⟩ => ⟨S1x40x1, .f32⟩
  | .hbm, ⟨43, _⟩ => ⟨S40x1, .f32⟩
  | .hbm, ⟨44, _⟩ => ⟨S40x1, .f32⟩
  | .hbm, ⟨45, _⟩ => ⟨S40x1, .f32⟩
  | .hbm, ⟨46, _⟩ => ⟨S40x1, .f32⟩
  | .hbm, ⟨47, _⟩ => ⟨S1x40x1, .f32⟩
  | .hbm, ⟨48, _⟩ => ⟨S32x40x56x56, .f32⟩
  | .local _ .vmem, ⟨0, _⟩ => ⟨S32x1x128, .f32⟩
  | .local _ .vmem, ⟨1, _⟩ => ⟨S128x240, .f32⟩
  | .local _ .vmem, ⟨2, _⟩ => ⟨S1x240, .f32⟩
  | .local _ .vmem, ⟨3, _⟩ => ⟨S240x40, .f32⟩
  | .local _ .vmem, ⟨4, _⟩ => ⟨S4x3136x240, .f32⟩
  | .local _ .vmem, ⟨5, _⟩ => ⟨S4x3136x240, .f32⟩
  | .local _ .vmem, ⟨6, _⟩ => ⟨S4x3136x40, .bf16⟩
  | .local _ .vmem, ⟨7, _⟩ => ⟨S4x3136x40, .bf16⟩
  | .local _ .vmem, ⟨8, _⟩ => ⟨S1x1x40, .f32⟩
  | .local _ .vmem, ⟨9, _⟩ => ⟨S1x1x40, .f32⟩
  | .local _ .vmem, ⟨10, _⟩ => ⟨S4x40x3136, .bf16⟩
  | .local _ .vmem, ⟨11, _⟩ => ⟨S4x40x3136, .bf16⟩
  | .local _ .vmem, ⟨12, _⟩ => ⟨S1x40x1, .f32⟩
  | .local _ .vmem, ⟨13, _⟩ => ⟨S1x40x1, .f32⟩
  | .local _ .vmem, ⟨14, _⟩ => ⟨S4x40x56x56, .f32⟩
  | .local _ .vmem, ⟨15, _⟩ => ⟨S4x40x56x56, .f32⟩
  | _, _ => ⟨S32x10x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![8], ![false]⟩

def k0_off1 (i : grid0.Coords) (c0_i32_1 : BitVec 32) : Fin 3 → Nat :=
  let arg0 : BitVec 32 := BitVec.ofNat 32 (i 0).val
  let c4_i32 : BitVec 32 := 4#32
  let v3 : BitVec 32 := Scalar.muli arg0 c4_i32
  let v4 : BitVec 32 := Scalar.addi v3 c0_i32_1
  let v5 : Index := Scalar.indexCast v4
  let c0 : Index := 0#32
  let c0_2 : Index := 0#32
  ![v5.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S32x1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S240x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x3136x240 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x3136x40 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S4x40x3136 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x40x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x40x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4x40x56x56 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S32x240x56x56_S32x56x56x240_0_2_3_1 : S32x240x56x56.Transposes [0, 2, 3, 1] S32x56x56x240
  shapeCasts_S32x56x56x240_S32x3136x240 : S32x56x56x240.ShapeCasts S32x3136x240
  shapeCasts_S32x10x1x1_S32x1x10 : S32x10x1x1.ShapeCasts S32x1x10
  pads_S32x1x10_S32x1x128_000_000_01180 : S32x1x10.Pads (![0, 0, 0] : Fin 3 → Nat) ![0, 0, 118] ![0, 0, 0] S32x1x128
  h_S_ : 0 < S_.numel
  transposes_S240x10_S10x240_1_0 : S240x10.Transposes [1, 0] S10x240
  pads_S10x240_S128x240_01180_000 : S10x240.Pads (![0, 0] : Fin 2 → Nat) ![118, 0] ![0, 0] S128x240
  shapeCasts_S240_S1x240 : S240.ShapeCasts S1x240
  transposes_S40x240_S240x40_1_0 : S40x240.Transposes [1, 0] S240x40
  inb_S1x1x40_S1x1x40_0_0_0 : ∀ a, (![0, 0, 0] : Fin 3 → Nat) a + S1x1x40.size a ≤ S1x1x40.size a
  h_S1x1x40 : 0 < S1x1x40.numel
  h_S1x1x128 : 0 < S1x1x128.numel
  shapeCasts_S1x1x128_S1x128 : S1x1x128.ShapeCasts S1x128
  inb_S128x240_S128x240_0_0 : ∀ a, (![0, 0] : Fin 2 → Nat) a + S128x240.size a ≤ S128x240.size a
  h_S128x240 : 0 < S128x240.numel
  shapeCasts_S128x240_S128x240 : S128x240.ShapeCasts S128x240
  inb_S1x240_S1x240_0_0 : ∀ a, (![0, 0] : Fin 2 → Nat) a + S1x240.size a ≤ S1x240.size a
  h_S1x240 : 0 < S1x240.numel
  shapeCasts_S1x240_S1x240 : S1x240.ShapeCasts S1x240
  inb_S240x40_S240x40_0_0 : ∀ a, (![0, 0] : Fin 2 → Nat) a + S240x40.size a ≤ S240x40.size a
  h_S240x40 : 0 < S240x40.numel
  shapeCasts_S240x40_S240x40 : S240x40.ShapeCasts S240x40
  transposes_S1x240_p1_0_S240x1 : S1x240.Transposes [1, 0] S240x1
  broadcasts_S240x1_S240x40 : S240x1.Broadcasts S240x40
  inb_S4x3136x240_S1x3136x240_0_0_0 : ∀ a, (![0, 0, 0] : Fin 3 → Nat) a + S1x3136x240.size a ≤ S4x3136x240.size a
  h_S1x3136x240 : 0 < S1x3136x240.numel
  shapeCasts_S1x3136x240_S3136x240 : S1x3136x240.ShapeCasts S3136x240
  bitsLt_bf16_f32 : FTy.bits .bf16 < FTy.bits .f32
  inb_S4x3136x40_S1x3136x40_0_0_0 : ∀ a, (![0, 0, 0] : Fin 3 → Nat) a + S1x3136x40.size a ≤ S4x3136x40.size a
  h_S1x3136x40 : 0 < S1x3136x40.numel
  shapeCasts_S1x3136x40_S3136x40 : S1x3136x40.ShapeCasts S3136x40
  shapeCasts_S3136x40_S1x3136x40 : S3136x40.ShapeCasts S1x3136x40
  packedbf16_S4x3136x40_S1x3136x40_0_0_0 : (Rect.unit (s := S4x3136x40) ![0, 0, 0] S1x3136x40.size inb_S4x3136x40_S1x3136x40_0_0_0).PackedRows (EltTy.packing .bf16)
  shapeCasts_S1x1x40_S1x40 : S1x1x40.ShapeCasts S1x40
  reduces_S3136x40_S40 : S3136x40.Reduces [0] S40
  shapeCasts_S40_S1x40 : S40.ShapeCasts S1x40
  shapeCasts_S1x40_S1x1x40 : S1x40.ShapeCasts S1x1x40
  inb_S4x3136x240_S1x3136x240_1_0_0 : ∀ a, (![1, 0, 0] : Fin 3 → Nat) a + S1x3136x240.size a ≤ S4x3136x240.size a
  inb_S4x3136x40_S1x3136x40_1_0_0 : ∀ a, (![1, 0, 0] : Fin 3 → Nat) a + S1x3136x40.size a ≤ S4x3136x40.size a
  packedbf16_S4x3136x40_S1x3136x40_1_0_0 : (Rect.unit (s := S4x3136x40) ![1, 0, 0] S1x3136x40.size inb_S4x3136x40_S1x3136x40_1_0_0).PackedRows (EltTy.packing .bf16)
  inb_S4x3136x240_S1x3136x240_2_0_0 : ∀ a, (![2, 0, 0] : Fin 3 → Nat) a + S1x3136x240.size a ≤ S4x3136x240.size a
  inb_S4x3136x40_S1x3136x40_2_0_0 : ∀ a, (![2, 0, 0] : Fin 3 → Nat) a + S1x3136x40.size a ≤ S4x3136x40.size a
  packedbf16_S4x3136x40_S1x3136x40_2_0_0 : (Rect.unit (s := S4x3136x40) ![2, 0, 0] S1x3136x40.size inb_S4x3136x40_S1x3136x40_2_0_0).PackedRows (EltTy.packing .bf16)
  inb_S4x3136x240_S1x3136x240_3_0_0 : ∀ a, (![3, 0, 0] : Fin 3 → Nat) a + S1x3136x240.size a ≤ S4x3136x240.size a
  inb_S4x3136x40_S1x3136x40_3_0_0 : ∀ a, (![3, 0, 0] : Fin 3 → Nat) a + S1x3136x40.size a ≤ S4x3136x40.size a
  packedbf16_S4x3136x40_S1x3136x40_3_0_0 : (Rect.unit (s := S4x3136x40) ![3, 0, 0] S1x3136x40.size inb_S4x3136x40_S1x3136x40_3_0_0).PackedRows (EltTy.packing .bf16)
  transposes_S32x3136x40_S32x40x3136_0_2_1 : S32x3136x40.Transposes [0, 2, 1] S32x40x3136
  shapeCasts_S1x1x40_S40x1 : S1x1x40.ShapeCasts S40x1
  bcast_S_S40x1 : S_.BroadcastsInDim S40x1 (![] : Fin 0 → Fin S40x1.rank)
  shapeCasts_S40_S40x1 : S40.ShapeCasts S40x1
  shapeCasts_S40x1_S1x40x1 : S40x1.ShapeCasts S1x40x1
  inb_S4x40x3136_S1x40x3136_0_0_0 : ∀ a, (![0, 0, 0] : Fin 3 → Nat) a + S1x40x3136.size a ≤ S4x40x3136.size a
  h_S1x40x3136 : 0 < S1x40x3136.numel
  shapeCasts_S1x40x3136_S40x3136 : S1x40x3136.ShapeCasts S40x3136
  inb_S1x40x1_S1x40x1_0_0_0 : ∀ a, (![0, 0, 0] : Fin 3 → Nat) a + S1x40x1.size a ≤ S1x40x1.size a
  h_S1x40x1 : 0 < S1x40x1.numel
  shapeCasts_S1x40x1_S40x1 : S1x40x1.ShapeCasts S40x1
  broadcasts_S40x1_S40x3136 : S40x1.Broadcasts S40x3136
  shapeCasts_S40x3136_S40x56x56 : S40x3136.ShapeCasts S40x56x56
  inb_S4x40x56x56_S1x40x56x56_0_0_0_0 : ∀ a, (![0, 0, 0, 0] : Fin 4 → Nat) a + S1x40x56x56.size a ≤ S4x40x56x56.size a
  h_S1x40x56x56 : 0 < S1x40x56x56.numel
  shapeCasts_S1x40x56x56_S40x56x56 : S1x40x56x56.ShapeCasts S40x56x56
  shapeCasts_S40x56x56_S1x40x56x56 : S40x56x56.ShapeCasts S1x40x56x56
  inb_S4x40x3136_S1x40x3136_1_0_0 : ∀ a, (![1, 0, 0] : Fin 3 → Nat) a + S1x40x3136.size a ≤ S4x40x3136.size a
  inb_S4x40x56x56_S1x40x56x56_1_0_0_0 : ∀ a, (![1, 0, 0, 0] : Fin 4 → Nat) a + S1x40x56x56.size a ≤ S4x40x56x56.size a
  inb_S4x40x3136_S1x40x3136_2_0_0 : ∀ a, (![2, 0, 0] : Fin 3 → Nat) a + S1x40x3136.size a ≤ S4x40x3136.size a
  inb_S4x40x56x56_S1x40x56x56_2_0_0_0 : ∀ a, (![2, 0, 0, 0] : Fin 4 → Nat) a + S1x40x56x56.size a ≤ S4x40x56x56.size a
  inb_S4x40x3136_S1x40x3136_3_0_0 : ∀ a, (![3, 0, 0] : Fin 3 → Nat) a + S1x40x3136.size a ≤ S4x40x3136.size a
  inb_S4x40x56x56_S1x40x56x56_3_0_0_0 : ∀ a, (![3, 0, 0, 0] : Fin 4 → Nat) a + S1x40x56x56.size a ≤ S4x40x56x56.size a
  dot_S1x128_S128x240_S1x240_1_0_0_1_n_n_wf : DotDims.WF S1x128 S128x240 S1x240 [1] [0] [0] [1] [] []
  dot_S3136x240_S240x40_S3136x40_1_0_0_1_n_n_wf : DotDims.WF S3136x240 S240x40 S3136x40 [1] [0] [0] [1] [] []
  hrank0 : 0 < grid0.rank
  k0_off1_inb : ∀ i : grid0.Coords, ∀ (r : Fin 4), ∀ a, (k0_off1 i (BitVec.ofNat 32 r.val)) a + S1x1x128.size a ≤ S32x1x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x1x128.size a ≤ S32x1x128.size a
  hwx0_0 : ∀ i : grid0.Coords, EltTy.bits .f32 = 32 ∨ (Rect.block (s := S32x1x128) S32x1x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x240.size a ≤ S128x240.size a
  hwx0_1 : ∀ i : grid0.Coords, EltTy.bits .f32 = 32 ∨ (Rect.block (s := S128x240) S128x240.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x240.size a ≤ S1x240.size a
  hwx0_2 : ∀ i : grid0.Coords, EltTy.bits .f32 = 32 ∨ (Rect.block (s := S1x240) S1x240.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S240x40.size a ≤ S240x40.size a
  hwx0_3 : ∀ i : grid0.Coords, EltTy.bits .f32 = 32 ∨ (Rect.block (s := S240x40) S240x40.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x3136x240.size a ≤ S32x3136x240.size a
  hwx0_4 : ∀ i : grid0.Coords, EltTy.bits .f32 = 32 ∨ (Rect.block (s := S32x3136x240) S4x3136x240.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x3136x40.size a ≤ S32x3136x40.size a
  hwx0_5 : ∀ i : grid0.Coords, EltTy.bits .bf16 = 32 ∨ (Rect.block (s := S32x3136x40) S4x3136x40.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1x40.size a ≤ S1x1x40.size a
  hwx0_6 : ∀ i : grid0.Coords, EltTy.bits .f32 = 32 ∨ (Rect.block (s := S1x1x40) S1x1x40.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1x40.size a ≤ S1x1x40.size a
  hwx0_7 : ∀ i : grid0.Coords, EltTy.bits .f32 = 32 ∨ (Rect.block (s := S1x1x40) S1x1x40.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x40x3136.size a ≤ S32x40x3136.size a
  hwx1_0 : ∀ i : grid1.Coords, EltTy.bits .bf16 = 32 ∨ (Rect.block (s := S32x40x3136) S4x40x3136.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x40x1.size a ≤ S1x40x1.size a
  hwx1_1 : ∀ i : grid1.Coords, EltTy.bits .f32 = 32 ∨ (Rect.block (s := S1x40x1) S1x40x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x40x1.size a ≤ S1x40x1.size a
  hwx1_2 : ∀ i : grid1.Coords, EltTy.bits .f32 = 32 ∨ (Rect.block (s := S1x40x1) S1x40x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x40x56x56.size a ≤ S32x40x56x56.size a
  hwx1_3 : ∀ i : grid1.Coords, EltTy.bits .f32 = 32 ∨ (Rect.block (s := S32x40x56x56) S4x40x56x56.size (cc1_transform_3 i) (hinb1_3 i)).WholeWords (EltTy.packing .f32)

variable [Facts₀]

def dot_S1x128_S128x240_S1x240_1_0_0_1_n_n : DotDims S1x128 S128x240 S1x240 where
  lhsContracting := [1]
  rhsContracting := [0]
  lhsNonContracting := [0]
  rhsNonContracting := [1]
  lhsBatch := []
  rhsBatch := []
  wf := dot_S1x128_S128x240_S1x240_1_0_0_1_n_n_wf
def dot_S3136x240_S240x40_S3136x40_1_0_0_1_n_n : DotDims S3136x240 S240x40 S3136x40 where
  lhsContracting := [1]
  rhsContracting := [0]
  lhsNonContracting := [0]
  rhsNonContracting := [1]
  lhsBatch := []
  rhsBatch := []
  wf := dot_S3136x240_S240x40_S3136x40_1_0_0_1_n_n_wf

abbrev win0_0 : Pipeline.Window sig grid0 :=
  Pipeline.Window.ofSpec (Memref.whole main_v3) S32x1x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x240.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x240.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S240x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4x3136x240.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S4x3136x40.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S1x1x40.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_2) S1x1x40.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v9) S4x40x3136.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x40x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x40x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S4x40x56x56.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x10x1x1 : Shape := ⟨4, ![32, 10, 1, 1]⟩
abbrev S32x240x56x56 : Shape := ⟨4, ![32, 240, 56, 56]⟩
abbrev S240x10 : Shape := ⟨2, ![240, 10]⟩
abbrev S240 : Shape := ⟨1, ![240]⟩
abbrev S40x240 : Shape := ⟨2, ![40, 240]⟩
abbrev S40 : Shape := ⟨1, ![40]⟩
abbrev S32x56x56x240 : Shape := ⟨4, ![32, 56, 56, 240]⟩
abbrev S32x3136x240 : Shape := ⟨3, ![32, 3136, 240]⟩
abbrev S_ : Shape := ⟨0, ![]⟩
abbrev S32x3584x256 : Shape := ⟨3, ![32, 3584, 256]⟩
abbrev S32x1x10 : Shape := ⟨3, ![32, 1, 10]⟩
abbrev S256x10 : Shape := ⟨2, ![256, 10]⟩
abbrev S240x1 : Shape := ⟨2, ![240, 1]⟩
abbrev S256x1 : Shape := ⟨2, ![256, 1]⟩
abbrev S240x40 : Shape := ⟨2, ![240, 40]⟩
abbrev S256x128 : Shape := ⟨2, ![256, 128]⟩
abbrev S128 : Shape := ⟨1, ![128]⟩
abbrev S1x128 : Shape := ⟨2, ![1, 128]⟩
abbrev S32x3584x128 : Shape := ⟨3, ![32, 3584, 128]⟩
abbrev S1x1x10 : Shape := ⟨3, ![1, 1, 10]⟩
abbrev S1x512x256 : Shape := ⟨3, ![1, 512, 256]⟩
abbrev S1x512x128 : Shape := ⟨3, ![1, 512, 128]⟩
abbrev S1x10 : Shape := ⟨2, ![1, 10]⟩
abbrev S256 : Shape := ⟨1, ![256]⟩
abbrev S512x256 : Shape := ⟨2, ![512, 256]⟩
abbrev S512x128 : Shape := ⟨2, ![512, 128]⟩
abbrev S114688x128 : Shape := ⟨2, ![114688, 128]⟩
abbrev S32x3136x40 : Shape := ⟨3, ![32, 3136, 40]⟩
abbrev S32x56x56x40 : Shape := ⟨4, ![32, 56, 56, 40]⟩
abbrev S32x40x56x56 : Shape := ⟨4, ![32, 40, 56, 56]⟩

abbrev nBuf : Space → Nat
  | .hbm => 59
  | .vmem => 18
  | .smem => 0
  | _ => 0

abbrev bufTy : (tb : Table) → Fin (tcTables nBuf tb) → BufTy
  | .hbm, ⟨0, _⟩ => ⟨S32x10x1x1, .f32⟩
  | .hbm, ⟨1, _⟩ => ⟨S32x240x56x56, .f32⟩
  | .hbm, ⟨2, _⟩ => ⟨S240x10, .f32⟩
  | .hbm, ⟨3, _⟩ => ⟨S240, .f32⟩
  | .hbm, ⟨4, _⟩ => ⟨S40x240, .f32⟩
  | .hbm, ⟨5, _⟩ => ⟨S40, .f32⟩
  | .hbm, ⟨6, _⟩ => ⟨S40, .f32⟩
  | .hbm, ⟨7, _⟩ => ⟨S32x56x56x240, .f32⟩
  | .hbm, ⟨8, _⟩ => ⟨S32x3136x240, .f32⟩
  | .hbm, ⟨9, _⟩ => ⟨S_, .i32⟩
  | .hbm, ⟨10, _⟩ => ⟨S_, .f32⟩
  | .hbm, ⟨11, _⟩ => ⟨S32x3584x256, .f32⟩
  | .hbm, ⟨12, _⟩ => ⟨S32x1x10, .f32⟩
  | .hbm, ⟨13, _⟩ => ⟨S_, .i32⟩
  | .hbm, ⟨14, _⟩ => ⟨S_, .f32⟩
  | .hbm, ⟨15, _⟩ => ⟨S256x10, .f32⟩
  | .hbm, ⟨16, _⟩ => ⟨S240x1, .f32⟩
  | .hbm, ⟨17, _⟩ => ⟨S_, .i32⟩
  | .hbm, ⟨18, _⟩ => ⟨S_, .f32⟩
  | .hbm, ⟨19, _⟩ => ⟨S256x1, .f32⟩
  | .hbm, ⟨20, _⟩ => ⟨S240x40, .f32⟩
  | .hbm, ⟨21, _⟩ => ⟨S_, .i32⟩
  | .hbm, ⟨22, _⟩ => ⟨S_, .f32⟩
  | .hbm, ⟨23, _⟩ => ⟨S256x128, .f32⟩
  | .hbm, ⟨24, _⟩ => ⟨S_, .i32⟩
  | .hbm, ⟨25, _⟩ => ⟨S_, .f32⟩
  | .hbm, ⟨26, _⟩ => ⟨S128, .f32⟩
  | .hbm, ⟨27, _⟩ => ⟨S1x128, .f32⟩
  | .hbm, ⟨28, _⟩ => ⟨S_, .i32⟩
  | .hbm, ⟨29, _⟩ => ⟨S_, .f32⟩
  | .hbm, ⟨30, _⟩ => ⟨S128, .f32⟩
  | .hbm, ⟨31, _⟩ => ⟨S1x128, .f32⟩
  | .hbm, ⟨32, _⟩ => ⟨S32x3584x128, .f32⟩
  | .hbm, ⟨33, _⟩ => ⟨S1x128, .f32⟩
  | .hbm, ⟨34, _⟩ => ⟨S1x128, .f32⟩
  | .hbm, ⟨35, _⟩ => ⟨S_, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S114688x128, .f32⟩
  | .hbm, ⟨54, _⟩ => ⟨S114688x128, .f32⟩
  | .hbm, ⟨55, _⟩ => ⟨S32x3584x128, .f32⟩
  | .hbm, ⟨56, _⟩ => ⟨S32x3136x40, .f32⟩
  | .hbm, ⟨57, _⟩ => ⟨S32x56x56x40, .f32⟩
  | .hbm, ⟨58, _⟩ => ⟨S32x40x56x56, .f32⟩
  | .local _ .vmem, ⟨0, _⟩ => ⟨S1x1x10, .f32⟩
  | .local _ .vmem, ⟨1, _⟩ => ⟨S1x1x10, .f32⟩
  | .local _ .vmem, ⟨2, _⟩ => ⟨S256x10, .f32⟩
  | .local _ .vmem, ⟨3, _⟩ => ⟨S256x1, .f32⟩
  | .local _ .vmem, ⟨4, _⟩ => ⟨S1x512x256, .f32⟩
  | .local _ .vmem, ⟨5, _⟩ => ⟨S1x512x256, .f32⟩
  | .local _ .vmem, ⟨6, _⟩ => ⟨S256x128, .f32⟩
  | .local _ .vmem, ⟨7, _⟩ => ⟨S1x512x128, .f32⟩
  | .local _ .vmem, ⟨8, _⟩ => ⟨S1x512x128, .f32⟩
  | .local _ .vmem, ⟨9, _⟩ => ⟨S1x128, .f32⟩
  | .local _ .vmem, ⟨10, _⟩ => ⟨S1x128, .f32⟩
  | .local _ .vmem, ⟨11, _⟩ => ⟨S256x128, .f32⟩
  | .local _ .vmem, ⟨12, _⟩ => ⟨S512x128, .f32⟩
  | .local _ .vmem, ⟨13, _⟩ => ⟨S512x128, .f32⟩
  | .local _ .vmem, ⟨14, _⟩ => ⟨S1x128, .f32⟩
  | .local _ .vmem, ⟨15, _⟩ => ⟨S1x128, .f32⟩
  | .local _ .vmem, ⟨16, _⟩ => ⟨S512x128, .f32⟩
  | .local _ .vmem, ⟨17, _⟩ => ⟨S512x128, .f32⟩
  | _, _ => ⟨S32x10x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_call2_v0 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_call3_v0 : Ref sig .tc := ⟨.hbm, 22, rfl⟩
abbrev main_v8 : Ref sig .tc := ⟨.hbm, 23, rfl⟩
abbrev main_c_3 : Ref sig .tc := ⟨.hbm, 24, rfl⟩
abbrev main_call4_v0 : Ref sig .tc := ⟨.hbm, 25, rfl⟩
abbrev main_v9 : Ref sig .tc := ⟨.hbm, 26, rfl⟩
abbrev main_v10 : Ref sig .tc := ⟨.hbm, 27, rfl⟩
abbrev main_c_4 : Ref sig .tc := ⟨.hbm, 28, rfl⟩
abbrev main_call5_v0 : Ref sig .tc := ⟨.hbm, 29, rfl⟩
abbrev main_v11 : Ref sig .tc := ⟨.hbm, 30, rfl⟩
abbrev main_v12 : Ref sig .tc := ⟨.hbm, 31, rfl⟩
abbrev main_v13_0 : Ref sig .tc := ⟨.hbm, 32, rfl⟩
abbrev main_v13_1 : Ref sig .tc := ⟨.hbm, 33, rfl⟩
abbrev main_v13_2 : Ref sig .tc := ⟨.hbm, 34, rfl⟩
abbrev main_cst : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_6 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![32, 7], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev grid1 : Pipeline.Grid := ⟨1, ![224], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S32x240x56x56_S32x56x56x240_0_2_3_1 : S32x240x56x56.Transposes [0, 2, 3, 1] S32x56x56x240
  shapeCasts_S32x56x56x240_S32x3136x240 : S32x56x56x240.ShapeCasts S32x3136x240
  pads_S32x3136x240_S32x3584x256_000_04480_0160 : S32x3136x240.Pads (![0, 0, 0] : Fin 3 → Nat) ![0, 448, 16] ![0, 0, 0] S32x3584x256
  h_S_ : 0 < S_.numel
  shapeCasts_S32x10x1x1_S32x1x10 : S32x10x1x1.ShapeCasts S32x1x10
  pads_S240x10_S256x10_0160_000 : S240x10.Pads (![0, 0] : Fin 2 → Nat) ![16, 0] ![0, 0] S256x10
  shapeCasts_S240_S240x1 : S240.ShapeCasts S240x1
  pads_S240x1_S256x1_0160_000 : S240x1.Pads (![0, 0] : Fin 2 → Nat) ![16, 0] ![0, 0] S256x1
  transposes_S40x240_S240x40_1_0 : S40x240.Transposes [1, 0] S240x40
  pads_S240x40_S256x128_0160_0880 : S240x40.Pads (![0, 0] : Fin 2 → Nat) ![16, 88] ![0, 0] S256x128
  pads_S40_S128_0880 : S40.Pads (![0] : Fin 1 → Nat) ![88] ![0] S128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S256x10_S256x10_0_0 : ∀ a, (![0, 0] : Fin 2 → Nat) a + S256x10.size a ≤ S256x10.size a
  h_S256x10 : 0 < S256x10.numel
  shapeCasts_S256x10_S256x10 : S256x10.ShapeCasts S256x10
  inb_S1x1x10_S1x1x10_0_0_0 : ∀ a, (![0, 0, 0] : Fin 3 → Nat) a + S1x1x10.size a ≤ S1x1x10.size a
  h_S1x1x10 : 0 < S1x1x10.numel
  shapeCasts_S1x1x10_S1x10 : S1x1x10.ShapeCasts S1x10
  broadcasts_S1x10_S256x10 : S1x10.Broadcasts S256x10
  reduces_S256x10_S256 : S256x10.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S256x1_S256x128 : S256x1.Broadcasts S256x128
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  shapeCasts_S1x128_S1x128 : S1x128.ShapeCasts S1x128
  reduces_S512x128_S128 : S512x128.Reduces [0] S128
  bcast_S_S1x128 : S_.BroadcastsInDim S1x128 (![] : Fin 0 → Fin S1x128.rank)
  shapeCasts_S32x3584x128_S114688x128 : S32x3584x128.ShapeCasts S114688x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  shapeCasts_S114688x128_S32x3584x128 : S114688x128.ShapeCasts S32x3584x128
  slices_S32x3584x128_S32x3136x40_0_0_0 : S32x3584x128.Slices ![0, 0, 0] S32x3136x40
  shapeCasts_S32x3136x40_S32x56x56x40 : S32x3136x40.ShapeCasts S32x56x56x40
  transposes_S32x56x56x40_S32x40x56x56_0_3_1_2 : S32x56x56x40.Transposes [0, 3, 1, 2] S32x40x56x56
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x10.size a ≤ S32x1x10.size a
  hwx0_0 : ∀ i : grid0.Coords, EltTy.bits .f32 = 32 ∨ (Rect.block (s := S32x1x10) S1x1x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x10.size a ≤ S256x10.size a
  hwx0_1 : ∀ i : grid0.Coords, EltTy.bits .f32 = 32 ∨ (Rect.block (s := S256x10) S256x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S32x3584x256.size a
  hwx0_3 : ∀ i : grid0.Coords, EltTy.bits .f32 = 32 ∨ (Rect.block (s := S32x3584x256) S1x512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x128.size a ≤ S32x3584x128.size a
  hwx0_5 : ∀ i : grid0.Coords, EltTy.bits .f32 = 32 ∨ (Rect.block (s := S32x3584x128) S1x512x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S114688x128.size a
  hwx1_0 : ∀ i : grid1.Coords, EltTy.bits .f32 = 32 ∨ (Rect.block (s := S114688x128) S512x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S114688x128.size a
  hwx1_3 : ∀ i : grid1.Coords, EltTy.bits .f32 = 32 ∨ (Rect.block (s := S114688x128) S512x128.size (cc1_transform_3 i) (hinb1_3 i)).WholeWords (EltTy.packing .f32)

variable [Facts₀]

def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_v3) S1x1x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13_0) S1x512x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v28) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.KernelRun.lean ====
import proofs.«134701_g2000104339650780_pallasbulk_589_17_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the kernel's @main, with the result named

The launch rule the frame certificate is proved by, read at the result buffer as well as at the arguments: every
unscoped buffer ends at the last boundary's contents. -/

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v31) = W8 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v31 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Hand

end
-- ==== Proof.KerPay0.lean ====
import proofs.«134701_g2000104339650780_pallasbulk_589_17_alg».proof.Proof.Gen.KernelIdeal.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel's first launch: what each case leaves, as the body's own arithmetic

Four images per point: the product block holds the four images' products, each statistic row what it held (zero at the
first point) plus the four images' column sums, added one image after the other. -/

theorem hz2 : (![0, 0] : Fin 2 → Nat) = fun _ => 0 := by funext a; fin_cases a <;> rfl
theorem hz3 : (![0, 0, 0] : Fin 3 → Nat) = fun _ => 0 := by funext a; fin_cases a <;> rfl

/-- A load through the whole-buffer rectangle after a whole-buffer store, whatever was stored before, reads the store. -/
theorem readCov_cons_unit_zero {S : Shape} {e : EltTy} {Val : EltTy → Type} [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

theorem out0_A_6_eq (c : Dev nD) (i : grid0.Coords) (arg1 : Memref sig .tc .vmem S32x1x128 .f32) (harg1 : arg1.IsWhole) (arg2 : Memref sig .tc .vmem S128x240 .f32) (harg2 : arg2.IsWhole) (arg3 : Memref sig .tc .vmem S1x240 .f32) (harg3 : arg3.IsWhole) (arg4 : Memref sig .tc .vmem S240x40 .f32) (harg4 : arg4.IsWhole) (arg5 : Memref sig .tc .vmem S4x3136x240 .f32) (harg5 : arg5.IsWhole) (arg6 : Memref sig .tc .vmem S4x3136x40 .bf16) (harg6 : arg6.IsWhole) (arg7 : Memref sig .tc .vmem S1x1x40 .f32) (harg7 : arg7.IsWhole) (arg8 : Memref sig .tc .vmem S1x1x40 .f32) (harg8 : arg8.IsWhole) (hc0 : cond0_0 i)
    (x0 : Vec F S32x1x128 .f32) (x1 : Vec F S128x240 .f32) (x2 : Vec F S1x240 .f32) (x3 : Vec F S240x40 .f32) (x4 : Vec F S4x3136x240 .f32) :
    out0_A_6 c i arg1 harg1 arg2 harg2 arg3 harg3 arg4 harg4 arg5 harg5 arg6 harg6 arg7 harg7 arg8 harg8 hc0 x0 x1 x2 x3 x4 = (k0_pay12 (k0_pay4 (View.ld x0 (Rect.unit (s := S32x1x128) (k0_off1 i 3#32) S1x1x128.size (k0_off1_inb i 3))) x1 x2 x3 (View.ld x4 (Rect.unit (s := S4x3136x240) ![3, 0, 0] S1x3136x240.size inb_S4x3136x240_S1x3136x240_3_0_0))) (k0_pay12 (k0_pay4 (View.ld x0 (Rect.unit (s := S32x1x128) (k0_off1 i 2#32) S1x1x128.size (k0_off1_inb i 2))) x1 x2 x3 (View.ld x4 (Rect.unit (s := S4x3136x240) ![2, 0, 0] S1x3136x240.size inb_S4x3136x240_S1x3136x240_2_0_0))) (k0_pay12 (k0_pay4 (View.ld x0 (Rect.unit (s := S32x1x128) (k0_off1 i 1#32) S1x1x128.size (k0_off1_inb i 1))) x1 x2 x3 (View.ld x4 (Rect.unit (s := S4x3136x240) ![1, 0, 0] S1x3136x240.size inb_S4x3136x240_S1x3136x240_1_0_0))) (k0_pay12 (k0_pay4 (View.ld x0 (Rect.unit (s := S32x1x128) (k0_off1 i 0#32) S1x1x128.size (k0_off1_inb i 0))) x1 x2 x3 (View.ld x4 (Rect.unit (s := S4x3136x240) ![0, 0, 0] S1x3136x240.size inb_S4x3136x240_S1x3136x240_0_0_0))) (k0_pay2 (F := F)))))) := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A
  dsimp only
  sl_unfold_words
  refine (View.canon_cons_unit_zero (S := S1x1x40) hz3 _ _ _).trans ?_
  simp only [View.readAt_eq_ld, harg1.read_unread, harg2.read_unread, harg3.read_unread, harg4.read_unread, harg5.read_unread, harg7.read_unread, harg8.read_unread,
    readCov_cons_unit_zero (S := S1x1x40) _ hz3, View.ld_unit_zero (S := S128x240) hz2, View.ld_unit_zero (S := S1x240) hz2, View.ld_unit_zero (S := S240x40) hz2, View.ld_unit_zero (S := S1x1x40) hz3]
  rfl

theorem out0_A_7_eq (c : Dev nD) (i : grid0.Coords) (arg1 : Memref sig .tc .vmem S32x1x128 .f32) (harg1 : arg1.IsWhole) (arg2 : Memref sig .tc .vmem S128x240 .f32) (harg2 : arg2.IsWhole) (arg3 : Memref sig .tc .vmem S1x240 .f32) (harg3 : arg3.IsWhole) (arg4 : Memref sig .tc .vmem S240x40 .f32) (harg4 : arg4.IsWhole) (arg5 : Memref sig .tc .vmem S4x3136x240 .f32) (harg5 : arg5.IsWhole) (arg6 : Memref sig .tc .vmem S4x3136x40 .bf16) (harg6 : arg6.IsWhole) (arg7 : Memref sig .tc .vmem S1x1x40 .f32) (harg7 : arg7.IsWhole) (arg8 : Memref sig .tc .vmem S1x1x40 .f32) (harg8 : arg8.IsWhole) (hc0 : cond0_0 i)
    (x0 : Vec F S32x1x128 .f32) (x1 : Vec F S128x240 .f32) (x2 : Vec F S1x240 .f32) (x3 : Vec F S240x40 .f32) (x4 : Vec F S4x3136x240 .f32) :
    out0_A_7 c i arg1 harg1 arg2 harg2 arg3 harg3 arg4 harg4 arg5 harg5 arg6 harg6 arg7 harg7 arg8 harg8 hc0 x0 x1 x2 x3 x4 = (k0_pay13 (k0_pay4 (View.ld x0 (Rect.unit (s := S32x1x128) (k0_off1 i 3#32) S1x1x128.size (k0_off1_inb i 3))) x1 x2 x3 (View.ld x4 (Rect.unit (s := S4x3136x240) ![3, 0, 0] S1x3136x240.size inb_S4x3136x240_S1x3136x240_3_0_0))) (k0_pay13 (k0_pay4 (View.ld x0 (Rect.unit (s := S32x1x128) (k0_off1 i 2#32) S1x1x128.size (k0_off1_inb i 2))) x1 x2 x3 (View.ld x4 (Rect.unit (s := S4x3136x240) ![2, 0, 0] S1x3136x240.size inb_S4x3136x240_S1x3136x240_2_0_0))) (k0_pay13 (k0_pay4 (View.ld x0 (Rect.unit (s := S32x1x128) (k0_off1 i 1#32) S1x1x128.size (k0_off1_inb i 1))) x1 x2 x3 (View.ld x4 (Rect.unit (s := S4x3136x240) ![1, 0, 0] S1x3136x240.size inb_S4x3136x240_S1x3136x240_1_0_0))) (k0_pay13 (k0_pay4 (View.ld x0 (Rect.unit (s := S32x1x128) (k0_off1 i 0#32) S1x1x128.size (k0_off1_inb i 0))) x1 x2 x3 (View.ld x4 (Rect.unit (s := S4x3136x240) ![0, 0, 0] S1x3136x240.size inb_S4x3136x240_S1x3136x240_0_0_0))) (k0_pay3 (F := F)))))) := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4)]
  unfold kernelRun0_A
  dsimp only
  sl_unfold_words
  refine (View.canon_cons_unit_zero (S := S1x1x40) hz3 _ _ _).trans ?_
  simp only [View.readAt_eq_ld, harg1.read_unread, harg2.read_unread, harg3.read_unread, harg4.read_unread, harg5.read_unread, harg7.read_unread, harg8.read_unread,
    readCov_cons_unit_zero (S := S1x1x40) _ hz3, View.ld_unit_zero (S := S128x240) hz2, View.ld_unit_zero (S := S1x240) hz2, View.ld_unit_zero (S := S240x40) hz2, View.ld_unit_zero (S := S1x1x40) hz3]
  rfl

theorem out0_B_6_eq (c : Dev nD) (i : grid0.Coords) (arg1 : Memref sig .tc .vmem S32x1x128 .f32) (harg1 : arg1.IsWhole) (arg2 : Memref sig .tc .vmem S128x240 .f32) (harg2 : arg2.IsWhole) (arg3 : Memref sig .tc .vmem S1x240 .f32) (harg3 : arg3.IsWhole) (arg4 : Memref sig .tc .vmem S240x40 .f32) (harg4 : arg4.IsWhole) (arg5 : Memref sig .tc .vmem S4x3136x240 .f32) (harg5 : arg5.IsWhole) (arg6 : Memref sig .tc .vmem S4x3136x40 .bf16) (harg6 : arg6.IsWhole) (arg7 : Memref sig .tc .vmem S1x1x40 .f32) (harg7 : arg7.IsWhole) (arg8 : Memref sig .tc .vmem S1x1x40 .f32) (harg8 : arg8.IsWhole) (hc0 : ¬cond0_0 i)
    (x0 : Vec F S32x1x128 .f32) (x1 : Vec F S128x240 .f32) (x2 : Vec F S1x240 .f32) (x3 : Vec F S240x40 .f32) (x4 : Vec F S4x3136x240 .f32) (xo6 : Vec F S1x1x40 .f32) (xo7 : Vec F S1x1x40 .f32) :
    out0_B_6 c i arg1 harg1 arg2 harg2 arg3 harg3 arg4 harg4 arg5 harg5 arg6 harg6 arg7 harg7 arg8 harg8 hc0 x0 x1 x2 x3 x4 xo6 xo7 = (k0_pay12 (k0_pay4 (View.ld x0 (Rect.unit (s := S32x1x128) (k0_off1 i 3#32) S1x1x128.size (k0_off1_inb i 3))) x1 x2 x3 (View.ld x4 (Rect.unit (s := S4x3136x240) ![3, 0, 0] S1x3136x240.size inb_S4x3136x240_S1x3136x240_3_0_0))) (k0_pay12 (k0_pay4 (View.ld x0 (Rect.unit (s := S32x1x128) (k0_off1 i 2#32) S1x1x128.size (k0_off1_inb i 2))) x1 x2 x3 (View.ld x4 (Rect.unit (s := S4x3136x240) ![2, 0, 0] S1x3136x240.size inb_S4x3136x240_S1x3136x240_2_0_0))) (k0_pay12 (k0_pay4 (View.ld x0 (Rect.unit (s := S32x1x128) (k0_off1 i 1#32) S1x1x128.size (k0_off1_inb i 1))) x1 x2 x3 (View.ld x4 (Rect.unit (s := S4x3136x240) ![1, 0, 0] S1x3136x240.size inb_S4x3136x240_S1x3136x240_1_0_0))) (k0_pay12 (k0_pay4 (View.ld x0 (Rect.unit (s := S32x1x128) (k0_off1 i 0#32) S1x1x128.size (k0_off1_inb i 0))) x1 x2 x3 (View.ld x4 (Rect.unit (s := S4x3136x240) ![0, 0, 0] S1x3136x240.size inb_S4x3136x240_S1x3136x240_0_0_0))) xo6)))) := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 xo6 xo7)]
  unfold kernelRun0_B
  dsimp only
  sl_unfold_words
  refine (View.canon_cons_unit_zero (S := S1x1x40) hz3 _ _ _).trans ?_
  simp only [View.readAt_eq_ld, harg1.read_unread, harg2.read_unread, harg3.read_unread, harg4.read_unread, harg5.read_unread, harg7.read_unread, harg8.read_unread,
    readCov_cons_unit_zero (S := S1x1x40) _ hz3, View.ld_unit_zero (S := S128x240) hz2, View.ld_unit_zero (S := S1x240) hz2, View.ld_unit_zero (S := S240x40) hz2, View.ld_unit_zero (S := S1x1x40) hz3]
  rfl

theorem out0_B_7_eq (c : Dev nD) (i : grid0.Coords) (arg1 : Memref sig .tc .vmem S32x1x128 .f32) (harg1 : arg1.IsWhole) (arg2 : Memref sig .tc .vmem S128x240 .f32) (harg2 : arg2.IsWhole) (arg3 : Memref sig .tc .vmem S1x240 .f32) (harg3 : arg3.IsWhole) (arg4 : Memref sig .tc .vmem S240x40 .f32) (harg4 : arg4.IsWhole) (arg5 : Memref sig .tc .vmem S4x3136x240 .f32) (harg5 : arg5.IsWhole) (arg6 : Memref sig .tc .vmem S4x3136x40 .bf16) (harg6 : arg6.IsWhole) (arg7 : Memref sig .tc .vmem S1x1x40 .f32) (harg7 : arg7.IsWhole) (arg8 : Memref sig .tc .vmem S1x1x40 .f32) (harg8 : arg8.IsWhole) (hc0 : ¬cond0_0 i)
    (x0 : Vec F S32x1x128 .f32) (x1 : Vec F S128x240 .f32) (x2 : Vec F S1x240 .f32) (x3 : Vec F S240x40 .f32) (x4 : Vec F S4x3136x240 .f32) (xo6 : Vec F S1x1x40 .f32) (xo7 : Vec F S1x1x40 .f32) :
    out0_B_7 c i arg1 harg1 arg2 harg2 arg3 harg3 arg4 harg4 arg5 harg5 arg6 harg6 arg7 harg7 arg8 harg8 hc0 x0 x1 x2 x3 x4 xo6 xo7 = (k0_pay13 (k0_pay4 (View.ld x0 (Rect.unit (s := S32x1x128) (k0_off1 i 3#32) S1x1x128.size (k0_off1_inb i 3))) x1 x2 x3 (View.ld x4 (Rect.unit (s := S4x3136x240) ![3, 0, 0] S1x3136x240.size inb_S4x3136x240_S1x3136x240_3_0_0))) (k0_pay13 (k0_pay4 (View.ld x0 (Rect.unit (s := S32x1x128) (k0_off1 i 2#32) S1x1x128.size (k0_off1_inb i 2))) x1 x2 x3 (View.ld x4 (Rect.unit (s := S4x3136x240) ![2, 0, 0] S1x3136x240.size inb_S4x3136x240_S1x3136x240_2_0_0))) (k0_pay13 (k0_pay4 (View.ld x0 (Rect.unit (s := S32x1x128) (k0_off1 i 1#32) S1x1x128.size (k0_off1_inb i 1))) x1 x2 x3 (View.ld x4 (Rect.unit (s := S4x3136x240) ![1, 0, 0] S1x3136x240.size inb_S4x3136x240_S1x3136x240_1_0_0))) (k0_pay13 (k0_pay4 (View.ld x0 (Rect.unit (s := S32x1x128) (k0_off1 i 0#32) S1x1x128.size (k0_off1_inb i 0))) x1 x2 x3 (View.ld x4 (Rect.unit (s := S4x3136x240) ![0, 0, 0] S1x3136x240.size inb_S4x3136x240_S1x3136x240_0_0_0))) xo7)))) := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 xo6 xo7)]
  unfold kernelRun0_B
  dsimp only
  sl_unfold_words
  refine (View.canon_cons_unit_zero (S := S1x1x40) hz3 _ _ _).trans ?_
  simp only [View.readAt_eq_ld, harg1.read_unread, harg2.read_unread, harg3.read_unread, harg4.read_unread, harg5.read_unread, harg7.read_unread, harg8.read_unread,
    readCov_cons_unit_zero (S := S1x1x40) _ hz3, View.ld_unit_zero (S := S128x240) hz2, View.ld_unit_zero (S := S1x240) hz2, View.ld_unit_zero (S := S240x40) hz2, View.ld_unit_zero (S := S1x1x40) hz3]
  rfl

theorem out0_A_5_eq (c : Dev nD) (i : grid0.Coords) (arg1 : Memref sig .tc .vmem S32x1x128 .f32) (harg1 : arg1.IsWhole) (arg2 : Memref sig .tc .vmem S128x240 .f32) (harg2 : arg2.IsWhole) (arg3 : Memref sig .tc .vmem S1x240 .f32) (harg3 : arg3.IsWhole) (arg4 : Memref sig .tc .vmem S240x40 .f32) (harg4 : arg4.IsWhole) (arg5 : Memref sig .tc .vmem S4x3136x240 .f32) (harg5 : arg5.IsWhole) (arg6 : Memref sig .tc .vmem S4x3136x40 .bf16) (harg6 : arg6.IsWhole) (arg7 : Memref sig .tc .vmem S1x1x40 .f32) (harg7 : arg7.IsWhole) (arg8 : Memref sig .tc .vmem S1x1x40 .f32) (harg8 : arg8.IsWhole) (hc0 : cond0_0 i)
    (x0 : Vec F S32x1x128 .f32) (x1 : Vec F S128x240 .f32) (x2 : Vec F S1x240 .f32) (x3 : Vec F S240x40 .f32) (x4 : Vec F S4x3136x240 .f32) :
    out0_A_5 c i arg1 harg1 arg2 harg2 arg3 harg3 arg4 harg4 arg5 harg5 arg6 harg6 arg7 harg7 arg8 harg8 hc0 x0 x1 x2 x3 x4 = View.canon [⟨Rect.unit (s := S4x3136x40) ![3, 0, 0] S1x3136x40.size inb_S4x3136x40_S1x3136x40_3_0_0, (k0_pay5 (View.ld x0 (Rect.unit (s := S32x1x128) (k0_off1 i 3#32) S1x1x128.size (k0_off1_inb i 3))) x1 x2 x3 (View.ld x4 (Rect.unit (s := S4x3136x240) ![3, 0, 0] S1x3136x240.size inb_S4x3136x240_S1x3136x240_3_0_0)))⟩,
      ⟨Rect.unit (s := S4x3136x40) ![2, 0, 0] S1x3136x40.size inb_S4x3136x40_S1x3136x40_2_0_0, (k0_pay5 (View.ld x0 (Rect.unit (s := S32x1x128) (k0_off1 i 2#32) S1x1x128.size (k0_off1_inb i 2))) x1 x2 x3 (View.ld x4 (Rect.unit (s := S4x3136x240) ![2, 0, 0] S1x3136x240.size inb_S4x3136x240_S1x3136x240_2_0_0)))⟩,
      ⟨Rect.unit (s := S4x3136x40) ![1, 0, 0] S1x3136x40.size inb_S4x3136x40_S1x3136x40_1_0_0, (k0_pay5 (View.ld x0 (Rect.unit (s := S32x1x128) (k0_off1 i 1#32) S1x1x128.size (k0_off1_inb i 1))) x1 x2 x3 (View.ld x4 (Rect.unit (s := S4x3136x240) ![1, 0, 0] S1x3136x240.size inb_S4x3136x240_S1x3136x240_1_0_0)))⟩,
      ⟨Rect.unit (s := S4x3136x40) ![0, 0, 0] S1x3136x40.size inb_S4x3136x40_S1x3136x40_0_0_0, (k0_pay5 (View.ld x0 (Rect.unit (s := S32x1x128) (k0_off1 i 0#32) S1x1x128.size (k0_off1_inb i 0))) x1 x2 x3 (View.ld x4 (Rect.unit (s := S4x3136x240) ![0, 0, 0] S1x3136x240.size inb_S4x3136x240_S1x3136x240_0_0_0)))⟩] := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  sl_unfold_words
  simp only [View.readAt_eq_ld, harg1.read_unread, harg2.read_unread, harg3.read_unread, harg4.read_unread, harg5.read_unread, harg7.read_unread, harg8.read_unread,
    readCov_cons_unit_zero (S := S1x1x40) _ hz3, View.ld_unit_zero (S := S128x240) hz2, View.ld_unit_zero (S := S1x240) hz2, View.ld_unit_zero (S := S240x40) hz2, View.ld_unit_zero (S := S1x1x40) hz3]
  rfl

theorem out0_B_5_eq (c : Dev nD) (i : grid0.Coords) (arg1 : Memref sig .tc .vmem S32x1x128 .f32) (harg1 : arg1.IsWhole) (arg2 : Memref sig .tc .vmem S128x240 .f32) (harg2 : arg2.IsWhole) (arg3 : Memref sig .tc .vmem S1x240 .f32) (harg3 : arg3.IsWhole) (arg4 : Memref sig .tc .vmem S240x40 .f32) (harg4 : arg4.IsWhole) (arg5 : Memref sig .tc .vmem S4x3136x240 .f32) (harg5 : arg5.IsWhole) (arg6 : Memref sig .tc .vmem S4x3136x40 .bf16) (harg6 : arg6.IsWhole) (arg7 : Memref sig .tc .vmem S1x1x40 .f32) (harg7 : arg7.IsWhole) (arg8 : Memref sig .tc .vmem S1x1x40 .f32) (harg8 : arg8.IsWhole) (hc0 : ¬cond0_0 i)
    (x0 : Vec F S32x1x128 .f32) (x1 : Vec F S128x240 .f32) (x2 : Vec F S1x240 .f32) (x3 : Vec F S240x40 .f32) (x4 : Vec F S4x3136x240 .f32) (xo6 : Vec F S1x1x40 .f32) (xo7 : Vec F S1x1x40 .f32) :
    out0_B_5 c i arg1 harg1 arg2 harg2 arg3 harg3 arg4 harg4 arg5 harg5 arg6 harg6 arg7 harg7 arg8 harg8 hc0 x0 x1 x2 x3 x4 xo6 xo7 = View.canon [⟨Rect.unit (s := S4x3136x40) ![3, 0, 0] S1x3136x40.size inb_S4x3136x40_S1x3136x40_3_0_0, (k0_pay5 (View.ld x0 (Rect.unit (s := S32x1x128) (k0_off1 i 3#32) S1x1x128.size (k0_off1_inb i 3))) x1 x2 x3 (View.ld x4 (Rect.unit (s := S4x3136x240) ![3, 0, 0] S1x3136x240.size inb_S4x3136x240_S1x3136x240_3_0_0)))⟩,
      ⟨Rect.unit (s := S4x3136x40) ![2, 0, 0] S1x3136x40.size inb_S4x3136x40_S1x3136x40_2_0_0, (k0_pay5 (View.ld x0 (Rect.unit (s := S32x1x128) (k0_off1 i 2#32) S1x1x128.size (k0_off1_inb i 2))) x1 x2 x3 (View.ld x4 (Rect.unit (s := S4x3136x240) ![2, 0, 0] S1x3136x240.size inb_S4x3136x240_S1x3136x240_2_0_0)))⟩,
      ⟨Rect.unit (s := S4x3136x40) ![1, 0, 0] S1x3136x40.size inb_S4x3136x40_S1x3136x40_1_0_0, (k0_pay5 (View.ld x0 (Rect.unit (s := S32x1x128) (k0_off1 i 1#32) S1x1x128.size (k0_off1_inb i 1))) x1 x2 x3 (View.ld x4 (Rect.unit (s := S4x3136x240) ![1, 0, 0] S1x3136x240.size inb_S4x3136x240_S1x3136x240_1_0_0)))⟩,
      ⟨Rect.unit (s := S4x3136x40) ![0, 0, 0] S1x3136x40.size inb_S4x3136x40_S1x3136x40_0_0_0, (k0_pay5 (View.ld x0 (Rect.unit (s := S32x1x128) (k0_off1 i 0#32) S1x1x128.size (k0_off1_inb i 0))) x1 x2 x3 (View.ld x4 (Rect.unit (s := S4x3136x240) ![0, 0, 0] S1x3136x240.size inb_S4x3136x240_S1x3136x240_0_0_0)))⟩] := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xo6 xo7)]
  unfold kernelRun0_B
  dsimp only
  sl_unfold_words
  simp only [View.readAt_eq_ld, harg1.read_unread, harg2.read_unread, harg3.read_unread, harg4.read_unread, harg5.read_unread, harg7.read_unread, harg8.read_unread,
    readCov_cons_unit_zero (S := S1x1x40) _ hz3, View.ld_unit_zero (S := S128x240) hz2, View.ld_unit_zero (S := S1x240) hz2, View.ld_unit_zero (S := S240x40) hz2, View.ld_unit_zero (S := S1x1x40) hz3]
  rfl

end Cert.KernelIdeal.Hand

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.KerPayIdx.lean ====
import proofs.«134701_g2000104339650780_pallasbulk_589_17_alg».proof.Proof.Gen.KernelIdeal.Skeleton
import proofs.«134701_g2000104339650780_pallasbulk_589_17_alg».proof.Proof.LibColRowBroadcast
import proofs.«134701_g2000104339650780_pallasbulk_589_17_alg».proof.Proof.LibPlainMatmul
import Idealize.ShloMosaic.PureOps.Ideal.Laws
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

/-! # The kernel's bodies read at one entry, on the extended reals

The first launch handles four images per grid point, unrolled; the four copies of the arithmetic are one function each
(the image's product with the gate-scaled weights, a statistic row plus the image's column sums), spelt four times. -/

/-- One image's product at (p, o): pixel row p against the weights scaled by the image's gate. -/
theorem pay4_apply (v6 : Vec Ideal S1x1x128 .f32) (v8 : Vec Ideal S128x240 .f32) (v11 : Vec Ideal S1x240 .f32) (v15 : Vec Ideal S240x40 .f32) (v20 : Vec Ideal S1x3136x240 .f32)
    (p : Fin 3136) (o : Fin 40) :
    k0_pay4 v6 v8 v11 v15 v20 (ix2 p o)
      = ∑ k : Fin 240, v20 (ix3 (0 : Fin 1) p k) * (v15 (ix2 k o) * Ideal.logistic ((∑ q : Fin 128, v6 (ix3 (0 : Fin 1) (0 : Fin 1) q) * v8 (ix2 q k)) + v11 (ix2 (0 : Fin 1) k))) := by
  unfold k0_pay4
  simp only [shapeCast_self]
  refine (Cert.PlainMatmul.matmul_zero_apply 3136 240 40 none _ _ p o).trans ?_
  refine Finset.sum_congr rfl fun (k : Fin 240) _ => ?_
  rw [mulf_apply, Cert.ColRowBroadcast.colBroadcast_apply]
  refine congrArg₂ (· * ·) ?_ (congrArg (v15 (ix2 k o) * ·) ?_)
  · refine shapeCast_apply v20 shapeCasts_S1x3136x240_S3136x240 (ix2 p k) (ix3 (0 : Fin 1) p k) ?_
    rw [Shape.rowMajor_val_three, Shape.rowMajor_val_two]
    show (0 * 3136 + p.val) * 240 + k.val = p.val * 240 + k.val
    omega
  · refine (transpose_apply [1, 0] _ transposes_S1x240_p1_0_S240x1 (ix2 k (0 : Fin 1)) (ix2 (0 : Fin 1) k) (fun b => by
      match b with
      | ⟨0, _⟩ => rfl
      | ⟨1, _⟩ => rfl)).trans ?_
    show Ideal.logistic _ = _
    refine congrArg Ideal.logistic ?_
    rw [addf_apply]
    refine congrArg (· + v11 (ix2 (0 : Fin 1) k)) ?_
    refine (Cert.PlainMatmul.matmul_zero_apply 1 128 240 none _ _ (0 : Fin 1) k).trans ?_
    refine Finset.sum_congr rfl fun (q : Fin 128) _ => ?_
    refine congrArg (· * v8 (ix2 q k)) ?_
    refine shapeCast_apply v6 shapeCasts_S1x1x128_S1x128 (ix2 (0 : Fin 1) q) (ix3 (0 : Fin 1) (0 : Fin 1) q) ?_
    rw [Shape.rowMajor_val_three, Shape.rowMajor_val_two]
    show (0 * 1 + 0) * 128 + q.val = 0 * 128 + q.val
    omega

/-- The stored form of an image's product (narrowed, with a leading unit axis): the product itself. -/
theorem pay5_apply (v6 : Vec Ideal S1x1x128 .f32) (v8 : Vec Ideal S128x240 .f32) (v11 : Vec Ideal S1x240 .f32) (v15 : Vec Ideal S240x40 .f32) (v20 : Vec Ideal S1x3136x240 .f32)
    (z : Fin 1) (p : Fin 3136) (o : Fin 40) :
    k0_pay5 v6 v8 v11 v15 v20 (ix3 z p o) = k0_pay4 v6 v8 v11 v15 v20 (ix2 p o) := by
  unfold k0_pay5
  refine (shapeCast_apply _ shapeCasts_S3136x40_S1x3136x40 (ix3 z p o) (ix2 p o) ?_).trans (truncf_apply _ _ _)
  rw [Shape.rowMajor_val_three, Shape.rowMajor_val_two]
  show p.val * 40 + o.val = (z.val * 3136 + p.val) * 40 + o.val
  have := z.isLt; omega

/-- A statistic row plus an image's column sums. -/
theorem pay12_apply (v63 : FVec Ideal S3136x40 .f32) (v68 : Vec Ideal S1x1x40 .f32) (z1 z2 : Fin 1) (o : Fin 40) :
    k0_pay12 v63 v68 (ix3 z1 z2 o) = v68 (ix3 z1 z2 o) + ∑ p : Fin 3136, v63 (ix2 p o) := by
  unfold k0_pay12
  refine (shapeCast_apply _ shapeCasts_S1x40_S1x1x40 (ix3 z1 z2 o) (ix2 z2 o) (by
    rw [Shape.rowMajor_val_three, Shape.rowMajor_val_two]
    show z2.val * 40 + o.val = (z1.val * 1 + z2.val) * 40 + o.val
    have := z1.isLt; omega)).trans ?_
  rw [addf_apply]
  refine congrArg₂ (· + ·) ?_ ?_
  · refine shapeCast_apply v68 shapeCasts_S1x1x40_S1x40 (ix2 z2 o) (ix3 z1 z2 o) ?_
    rw [Shape.rowMajor_val_three, Shape.rowMajor_val_two]
    show (z1.val * 1 + z2.val) * 40 + o.val = z2.val * 40 + o.val
    have := z1.isLt; omega
  · rw [Cert.ColRowBroadcast.rowCast_apply]
    refine (Ideal.multiReduction_add_single _ 0x00000000#32 reduces_S3136x40_S40 (.inl rfl) rfl (ix1 o)).trans ?_
    refine Finset.sum_congr rfl fun (p : Fin 3136) _ => ?_
    have hl : reduces_S3136x40_S40.lift (ix1 o) p = ix2 p o := by
      funext a; match a with | ⟨0, _⟩ => rfl | ⟨1, _⟩ => rfl
    exact congrArg v63 hl

/-- A statistic row plus an image's column sums of squares. -/
theorem pay13_apply (v63 : FVec Ideal S3136x40 .f32) (v76 : Vec Ideal S1x1x40 .f32) (z1 z2 : Fin 1) (o : Fin 40) :
    k0_pay13 v63 v76 (ix3 z1 z2 o) = v76 (ix3 z1 z2 o) + ∑ p : Fin 3136, v63 (ix2 p o) * v63 (ix2 p o) := by
  unfold k0_pay13
  refine (shapeCast_apply _ shapeCasts_S1x40_S1x1x40 (ix3 z1 z2 o) (ix2 z2 o) (by
    rw [Shape.rowMajor_val_three, Shape.rowMajor_val_two]
    show z2.val * 40 + o.val = (z1.val * 1 + z2.val) * 40 + o.val
    have := z1.isLt; omega)).trans ?_
  rw [addf_apply]
  refine congrArg₂ (· + ·) ?_ ?_
  · refine shapeCast_apply v76 shapeCasts_S1x1x40_S1x40 (ix2 z2 o) (ix3 z1 z2 o) ?_
    rw [Shape.rowMajor_val_three, Shape.rowMajor_val_two]
    show (z1.val * 1 + z2.val) * 40 + o.val = z2.val * 40 + o.val
    have := z1.isLt; omega
  · rw [Cert.ColRowBroadcast.rowCast_apply]
    refine (Ideal.multiReduction_add_single _ 0x00000000#32 reduces_S3136x40_S40 (.inl rfl) rfl (ix1 o)).trans ?_
    refine Finset.sum_congr rfl fun (p : Fin 3136) _ => ?_
    have hl : reduces_S3136x40_S40.lift (ix1 o) p = ix2 p o := by
      funext a; match a with | ⟨0, _⟩ => rfl | ⟨1, _⟩ => rfl
    rw [hl, mulf_apply]

theorem pay2_apply (j : S1x1x40.Idx) : k0_pay2 (F := Ideal) j = 0 := by
  unfold k0_pay2
  show Ideal.ofBits .f32 0x00000000#32 = 0
  exact Ideal.ofBits_zero_f32
theorem pay3_apply (j : S1x1x40.Idx) : k0_pay3 (F := Ideal) j = 0 := by
  unfold k0_pay3
  show Ideal.ofBits .f32 0x00000000#32 = 0
  exact Ideal.ofBits_zero_f32

/-! The four spellings of each function are one function. -/
section Bridges
variable {F : FTy → Type} [FloatOps F]
theorem pay9_eq : @k0_pay9 F _ = k0_pay4 := rfl
theorem pay19_eq : @k0_pay19 F _ = k0_pay4 := rfl
theorem pay15_eq (v88 : Vec F S1x1x128 .f32) (v90 : Vec F S128x240 .f32) (v93 : Vec F S1x240 .f32) (v97 : Vec F S240x40 .f32) (v102 : Vec F S1x3136x240 .f32) :
    k0_pay15 (k0_pay14 v88 v90 v93) v97 v102 = k0_pay4 v88 v90 v93 v97 v102 := rfl
theorem pay11_eq (v47 : Vec F S1x1x128 .f32) (v49 : Vec F S128x240 .f32) (v52 : Vec F S1x240 .f32) (v56 : Vec F S240x40 .f32) (v61 : Vec F S1x3136x240 .f32) :
    k0_pay11 (k0_pay10 v47 v49 v52 v56 v61) = k0_pay5 v47 v49 v52 v56 v61 := rfl
theorem pay16_eq (v88 : Vec F S1x1x128 .f32) (v90 : Vec F S128x240 .f32) (v93 : Vec F S1x240 .f32) (v97 : Vec F S240x40 .f32) (v102 : Vec F S1x3136x240 .f32) :
    k0_pay16 (k0_pay14 v88 v90 v93) v97 v102 = k0_pay5 v88 v90 v93 v97 v102 := rfl
theorem pay20_eq : @k0_pay20 F _ = k0_pay5 := rfl
theorem pay7_eq (v6 : Vec F S1x1x128 .f32) (v8 : Vec F S128x240 .f32) (v11 : Vec F S1x240 .f32) (v15 : Vec F S240x40 .f32) (v20 : Vec F S1x3136x240 .f32) (v27 : Vec F S1x1x40 .f32) :
    k0_pay7 (k0_pay6 v6 v8 v11 v15 v20 v27) = k0_pay12 (k0_pay4 v6 v8 v11 v15 v20) v27 := rfl
theorem pay17_eq (v96 : FVec F S1x240 .f32) (v97 : Vec F S240x40 .f32) (v102 : Vec F S1x3136x240 .f32) (v109 : Vec F S1x1x40 .f32) :
    k0_pay17 v96 v97 v102 v109 = k0_pay12 (k0_pay15 v96 v97 v102) v109 := rfl
theorem pay21_eq (v129 : Vec F S1x1x128 .f32) (v131 : Vec F S128x240 .f32) (v134 : Vec F S1x240 .f32) (v138 : Vec F S240x40 .f32) (v143 : Vec F S1x3136x240 .f32) (v150 : Vec F S1x1x40 .f32) :
    k0_pay21 v129 v131 v134 v138 v143 v150 = k0_pay12 (k0_pay4 v129 v131 v134 v138 v143) v150 := rfl
theorem pay8_eq : @k0_pay8 F _ = k0_pay13 := rfl
theorem pay18_eq (v96 : FVec F S1x240 .f32) (v97 : Vec F S240x40 .f32) (v102 : Vec F S1x3136x240 .f32) (v117 : Vec F S1x1x40 .f32) :
    k0_pay18 v96 v97 v102 v117 = k0_pay13 (k0_pay15 v96 v97 v102) v117 := rfl
theorem pay1_eq (v129 : Vec F S1x1x128 .f32) (v131 : Vec F S128x240 .f32) (v134 : Vec F S1x240 .f32) (v138 : Vec F S240x40 .f32) (v143 : Vec F S1x3136x240 .f32) (v158 : Vec F S1x1x40 .f32) :
    k0_pay1 (k0_pay22 v158) (k0_pay23 v129 v131 v134 v138 v143) = k0_pay13 (k0_pay4 v129 v131 v134 v138 v143) v158 := rfl
end Bridges

/-- The second launch at (z, o, h, w): the entry of channel o at pixel 56 h + w, times the channel's scale, plus its shift. -/
theorem k1_pay3_apply (v0 : Vec Ideal S1x40x3136 .bf16) (v3 v7 : Vec Ideal S1x40x1 .f32) (z : Fin 1) (o : Fin 40) (h w : Fin 56) :
    k1_pay3 v0 v3 v7 (ix4 z o h w)
      = v0 (ix3 (0 : Fin 1) o ⟨h.val * 56 + w.val, by have := h.isLt; have := w.isLt; omega⟩) * v3 (ix3 (0 : Fin 1) o (0 : Fin 1)) + v7 (ix3 (0 : Fin 1) o (0 : Fin 1)) := by
  unfold k1_pay3
  refine (shapeCast_apply _ shapeCasts_S40x56x56_S1x40x56x56 (ix4 z o h w) (ix3 o h w) (by
    rw [Shape.rowMajor_val_three, Shape.rowMajor_val_four]
    show (o.val * 56 + h.val) * 56 + w.val = ((z.val * 40 + o.val) * 56 + h.val) * 56 + w.val
    have := z.isLt; omega)).trans ?_
  refine (shapeCast_apply _ shapeCasts_S40x3136_S40x56x56 (ix3 o h w) (ix2 o ⟨h.val * 56 + w.val, by have := h.isLt; have := w.isLt; omega⟩) (by
    rw [Shape.rowMajor_val_three, Shape.rowMajor_val_two]
    show o.val * 3136 + (h.val * 56 + w.val) = (o.val * 56 + h.val) * 56 + w.val
    omega)).trans ?_
  rw [addf_apply, mulf_apply, Cert.ColRowBroadcast.colBroadcast_apply, Cert.ColRowBroadcast.colBroadcast_apply, extf_apply]
  refine congrArg₂ (· + ·) (congrArg₂ (· * ·) ?_ ?_) ?_
  · refine shapeCast_apply v0 shapeCasts_S1x40x3136_S40x3136 _ _ ?_
    rw [Shape.rowMajor_val_three, Shape.rowMajor_val_two]
    show (0 * 40 + o.val) * 3136 + (h.val * 56 + w.val) = o.val * 3136 + (h.val * 56 + w.val)
    omega
  · refine shapeCast_apply v3 shapeCasts_S1x40x1_S40x1 _ _ ?_
    rw [Shape.rowMajor_val_three, Shape.rowMajor_val_two]
    show (0 * 40 + o.val) * 1 + 0 = o.val * 1 + 0
    omega
  · refine shapeCast_apply v7 shapeCasts_S1x40x1_S40x1 _ _ ?_
    rw [Shape.rowMajor_val_three, Shape.rowMajor_val_two]
    show (0 * 40 + o.val) * 1 + 0 = o.val * 1 + 0
    omega
section Bridges1
variable {F : FTy → Type} [FloatOps F]
theorem k1_pay1_eq : @k1_pay1 F _ = k1_pay3 := rfl
theorem k1_pay2_eq : @k1_pay2 F _ = k1_pay3 := rfl
theorem k1_pay4_eq : @k1_pay4 F _ = k1_pay3 := rfl
end Bridges1

end Cert.KernelIdeal.Hand

end
-- ==== Proof.KerVal0.lean ====
import proofs.«134701_g2000104339650780_pallasbulk_589_17_alg».proof.Proof.KerPay0
import proofs.«134701_g2000104339650780_pallasbulk_589_17_alg».proof.Proof.KerPayIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # The kernel's first launch: every buffer after every point, as sums over the operand arrays

Point `t` handles images `4 t … 4 t + 3`. With the product of image `n` written `yK n p o`: after point `t` the product
block holds `yK` on the point's four images, and each statistic row the sum over the images met so far of their column
sums (of squares). -/

theorem idx_facts0 : ∀ t : Fin cfg0.N,
    win0_0.index t (0 : Fin 3) = 0 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0
    ∧ win0_6.index t (0 : Fin 3) = 0 ∧ win0_6.index t (1 : Fin 3) = 0 ∧ win0_6.index t (2 : Fin 3) = 0
    ∧ win0_7.index t (0 : Fin 3) = 0 ∧ win0_7.index t (1 : Fin 3) = 0 ∧ win0_7.index t (2 : Fin 3) = 0 :=
  (by decide +kernel : ∀ t : Fin grid0.N, _)

/-- The row of the squeeze table the body loads for its `j`-th image. -/
theorem off_facts : ∀ t : Fin cfg0.N,
    k0_off1 (grid0.coords t) 0#32 = ![4 * t.val + 0, 0, 0] ∧ k0_off1 (grid0.coords t) 1#32 = ![4 * t.val + 1, 0, 0]
    ∧ k0_off1 (grid0.coords t) 2#32 = ![4 * t.val + 2, 0, 0] ∧ k0_off1 (grid0.coords t) 3#32 = ![4 * t.val + 3, 0, 0] :=
  (by decide +kernel : ∀ t : Fin grid0.N, _)

/-- The `j`-th image of point `t`. -/
def imgOf (t : Fin cfg0.N) (j : Fin 4) : Fin 32 := ⟨4 * t.val + j.val, by
  have : t.val < 8 := lt_of_lt_of_eq t.isLt (show cfg0.N = 8 from N_0); have := j.isLt; omega⟩

section Blocks
variable {F : FTy → Type} [FloatOps F]
variable (V : (c : Dev nD) → (b : Ref sig .tc) → Buf (Elt F) ((c : Thread nD τ).loc b))

theorem iblk0_0_eq (c : Dev nD) (t : Fin cfg0.N) : iblk0 V c 0 t = V c main_v3 := by
  funext y
  show V c main_v3 (((cfg0.win 0).blk t).view.emb y) = V c main_v3 y
  refine congrArg (V c main_v3) (funext fun a => Fin.ext ?_)
  obtain ⟨e0, e1, e2, -⟩ := idx_facts0 t
  match a with
  | ⟨0, _⟩ => show win0_0.index t (0 : Fin 3) * 32 + 1 * (y 0).val = (y 0).val; omega
  | ⟨1, _⟩ => show win0_0.index t (1 : Fin 3) * 1 + 1 * (y 1).val = (y 1).val; omega
  | ⟨2, _⟩ => show win0_0.index t (2 : Fin 3) * 128 + 1 * (y 2).val = (y 2).val; omega
theorem iblk0_1_eq (c : Dev nD) (t : Fin cfg0.N) : iblk0 V c 1 t = V c main_v5 := by
  funext y
  show V c main_v5 (((cfg0.win 1).blk t).view.emb y) = V c main_v5 y
  refine congrArg (V c main_v5) (funext fun a => Fin.ext ?_)
  obtain ⟨-, -, -, e0, e1, -⟩ := idx_facts0 t
  match a with
  | ⟨0, _⟩ => show win0_1.index t (0 : Fin 2) * 128 + 1 * (y 0).val = (y 0).val; omega
  | ⟨1, _⟩ => show win0_1.index t (1 : Fin 2) * 240 + 1 * (y 1).val = (y 1).val; omega
theorem iblk0_2_eq (c : Dev nD) (t : Fin cfg0.N) : iblk0 V c 2 t = V c main_v6 := by
  funext y
  show V c main_v6 (((cfg0.win 2).blk t).view.emb y) = V c main_v6 y
  refine congrArg (V c main_v6) (funext fun a => Fin.ext ?_)
  obtain ⟨-, -, -, -, -, e0, e1, -⟩ := idx_facts0 t
  match a with
  | ⟨0, _⟩ => show win0_2.index t (0 : Fin 2) * 1 + 1 * (y 0).val = (y 0).val; omega
  | ⟨1, _⟩ => show win0_2.index t (1 : Fin 2) * 240 + 1 * (y 1).val = (y 1).val; omega
theorem iblk0_3_eq (c : Dev nD) (t : Fin cfg0.N) : iblk0 V c 3 t = V c main_v7 := by
  funext y
  show V c main_v7 (((cfg0.win 3).blk t).view.emb y) = V c main_v7 y
  refine congrArg (V c main_v7) (funext fun a => Fin.ext ?_)
  obtain ⟨-, -, -, -, -, -, -, e0, e1, -⟩ := idx_facts0 t
  match a with
  | ⟨0, _⟩ => show win0_3.index t (0 : Fin 2) * 240 + 1 * (y 0).val = (y 0).val; omega
  | ⟨1, _⟩ => show win0_3.index t (1 : Fin 2) * 40 + 1 * (y 1).val = (y 1).val; omega
theorem iblk0_4_apply (c : Dev nD) (t : Fin cfg0.N) (j : Fin 4) (p : Fin 3136) (k : Fin 240) :
    iblk0 V c 4 t (ix3 j p k) = V c main_v1 (ix3 (imgOf t j) p k) := by
  show V c main_v1 (((cfg0.win 4).blk t).view.emb (ix3 j p k)) = V c main_v1 (ix3 (imgOf t j) p k)
  refine congrArg (V c main_v1) (funext fun a => Fin.ext ?_)
  obtain ⟨-, -, -, -, -, -, -, -, -, e0, e1, e2, -⟩ := idx_facts0 t
  match a with
  | ⟨0, _⟩ => show win0_4.index t (0 : Fin 3) * 4 + 1 * j.val = 4 * t.val + j.val; omega
  | ⟨1, _⟩ => show win0_4.index t (1 : Fin 3) * 3136 + 1 * p.val = p.val; omega
  | ⟨2, _⟩ => show win0_4.index t (2 : Fin 3) * 240 + 1 * k.val = k.val; omega

/-- The row of the squeeze table loaded for the `j`-th image. -/
theorem ldX0_apply (x0 : Vec F S32x1x128 .f32) (t : Fin cfg0.N) (j : Fin 4) (inb) (z1 z2 : Fin 1) (q : Fin 128) :
    View.ld x0 (Rect.unit (s := S32x1x128) (k0_off1 (grid0.coords t) (BitVec.ofNat 32 j.val)) S1x1x128.size inb) (ix3 z1 z2 q)
      = x0 (ix3 (imgOf t j) (0 : Fin 1) q) := by
  show x0 ((Rect.unit (s := S32x1x128) (k0_off1 (grid0.coords t) (BitVec.ofNat 32 j.val)) S1x1x128.size inb).emb (ix3 z1 z2 q)) = _
  refine congrArg x0 (funext fun a => Fin.ext ?_)
  obtain ⟨o0, o1, o2, o3⟩ := off_facts t
  have h1 := z1.isLt; have h2 := z2.isLt
  have hoff : k0_off1 (grid0.coords t) (BitVec.ofNat 32 j.val) = ![4 * t.val + j.val, 0, 0] := by
    match j with
    | ⟨0, _⟩ => exact o0
    | ⟨1, _⟩ => exact o1
    | ⟨2, _⟩ => exact o2
    | ⟨3, _⟩ => exact o3
  match a with
  | ⟨0, _⟩ => show (k0_off1 (grid0.coords t) (BitVec.ofNat 32 j.val)) 0 + 1 * z1.val = 4 * t.val + j.val; rw [hoff]; show 4 * t.val + j.val + 1 * z1.val = _; omega
  | ⟨1, _⟩ => show (k0_off1 (grid0.coords t) (BitVec.ofNat 32 j.val)) 1 + 1 * z2.val = 0; rw [hoff]; show 0 + 1 * z2.val = 0; omega
  | ⟨2, _⟩ => show (k0_off1 (grid0.coords t) (BitVec.ofNat 32 j.val)) 2 + 1 * q.val = q.val; rw [hoff]; show 0 + 1 * q.val = q.val; omega

/-- The `j`-th image of a block. -/
theorem ldX4_apply (x4 : Vec F S4x3136x240 .f32) (j : Fin 4) (inb) (z : Fin 1) (p : Fin 3136) (k : Fin 240) :
    View.ld x4 (Rect.unit (s := S4x3136x240) ![j.val, 0, 0] S1x3136x240.size inb) (ix3 z p k) = x4 (ix3 j p k) := by
  show x4 ((Rect.unit (s := S4x3136x240) ![j.val, 0, 0] S1x3136x240.size inb).emb (ix3 z p k)) = _
  refine congrArg x4 (funext fun a => Fin.ext ?_)
  have h1 := z.isLt
  match a with
  | ⟨0, _⟩ => show j.val + 1 * z.val = j.val; omega
  | ⟨1, _⟩ => show 0 + 1 * p.val = p.val; omega
  | ⟨2, _⟩ => show 0 + 1 * k.val = k.val; omega

end Blocks

section Region0
variable (V : (c : Dev nD) → (b : Ref sig .tc) → Buf (Elt Ideal) ((c : Thread nD τ).loc b))

abbrev kX63 (c : Dev nD) : S32x1x128.Idx → EReal := V c main_v3
abbrev kW1 (c : Dev nD) : S128x240.Idx → EReal := V c main_v5
abbrev kB1 (c : Dev nD) : S1x240.Idx → EReal := V c main_v6
abbrev kW2 (c : Dev nD) : S240x40.Idx → EReal := V c main_v7
abbrev kXt (c : Dev nD) : S32x3136x240.Idx → EReal := V c main_v1

/-- The gate of image `n`, channel `k`; the product of image `n` at pixel `p`, output channel `o`. -/
def gateK (c : Dev nD) (n : Fin 32) (k : Fin 240) : EReal :=
  Ideal.logistic ((∑ q : Fin 128, kX63 V c (ix3 n (0 : Fin 1) q) * kW1 V c (ix2 q k)) + kB1 V c (ix2 (0 : Fin 1) k))
def yK (c : Dev nD) (n : Fin 32) (p : Fin 3136) (o : Fin 40) : EReal :=
  ∑ k : Fin 240, kXt V c (ix3 n p k) * (kW2 V c (ix2 k o) * gateK V c n k)

/-- The body's `j`-th product at point `t` is the product of image `4 t + j`. -/
theorem pay4_at (c : Dev nD) (t : Fin cfg0.N) (j : Fin 4) (inb0) (inb4) (p : Fin 3136) (o : Fin 40) :
    k0_pay4 (View.ld (iblk0 V c 0 t) (Rect.unit (s := S32x1x128) (k0_off1 (grid0.coords t) (BitVec.ofNat 32 j.val)) S1x1x128.size inb0))
        (iblk0 V c 1 t) (iblk0 V c 2 t) (iblk0 V c 3 t)
        (View.ld (iblk0 V c 4 t) (Rect.unit (s := S4x3136x240) ![j.val, 0, 0] S1x3136x240.size inb4)) (ix2 p o)
      = yK V c (imgOf t j) p o := by
  rw [pay4_apply]
  unfold yK gateK
  refine Finset.sum_congr rfl fun k _ => congrArg₂ (· * ·) ?_ (congrArg₂ (· * ·) ?_ (congrArg Ideal.logistic (congrArg₂ (· + ·) (Finset.sum_congr rfl fun q _ => congrArg₂ (· * ·) ?_ ?_) ?_)))
  · exact (ldX4_apply _ j inb4 0 p k).trans (iblk0_4_apply V c t j p k)
  · exact congrFun (iblk0_3_eq V c t) _
  · exact (ldX0_apply _ t j inb0 0 0 q).trans (congrFun (iblk0_0_eq V c t) _)
  · exact congrFun (iblk0_1_eq V c t) _
  · exact congrFun (iblk0_2_eq V c t) _

/-- An image's column sums (zero past the batch). -/
def A1 (c : Dev nD) (s : ℕ) (o : Fin 40) : EReal := if h : s < 32 then ∑ p : Fin 3136, yK V c ⟨s, h⟩ p o else 0
def A2 (c : Dev nD) (s : ℕ) (o : Fin 40) : EReal := if h : s < 32 then ∑ p : Fin 3136, yK V c ⟨s, h⟩ p o * yK V c ⟨s, h⟩ p o else 0

theorem A1_img (c : Dev nD) (t : Fin cfg0.N) (j : Fin 4) (o : Fin 40) : A1 V c (4 * t.val + j.val) o = ∑ p : Fin 3136, yK V c (imgOf t j) p o := by
  unfold A1; exact dif_pos (show 4 * t.val + j.val < 32 from (imgOf t j).isLt)
theorem A2_img (c : Dev nD) (t : Fin cfg0.N) (j : Fin 4) (o : Fin 40) : A2 V c (4 * t.val + j.val) o = ∑ p : Fin 3136, yK V c (imgOf t j) p o * yK V c (imgOf t j) p o := by
  unfold A2; exact dif_pos (show 4 * t.val + j.val < 32 from (imgOf t j).isLt)

/-- One point's four additions to a statistic row. -/
theorem step6 (c : Dev nD) (t : Fin cfg0.N) (acc : Vec Ideal S1x1x40 .f32) (z1 z2 : Fin 1) (o : Fin 40) :
    (k0_pay12 (k0_pay4 (View.ld (iblk0 V c 0 t) (Rect.unit (s := S32x1x128) (k0_off1 (grid0.coords t) 3#32) S1x1x128.size (k0_off1_inb (grid0.coords t) 3))) (iblk0 V c 1 t) (iblk0 V c 2 t) (iblk0 V c 3 t) (View.ld (iblk0 V c 4 t) (Rect.unit (s := S4x3136x240) ![3, 0, 0] S1x3136x240.size inb_S4x3136x240_S1x3136x240_3_0_0))) (k0_pay12 (k0_pay4 (View.ld (iblk0 V c 0 t) (Rect.unit (s := S32x1x128) (k0_off1 (grid0.coords t) 2#32) S1x1x128.size (k0_off1_inb (grid0.coords t) 2))) (iblk0 V c 1 t) (iblk0 V c 2 t) (iblk0 V c 3 t) (View.ld (iblk0 V c 4 t) (Rect.unit (s := S4x3136x240) ![2, 0, 0] S1x3136x240.size inb_S4x3136x240_S1x3136x240_2_0_0))) (k0_pay12 (k0_pay4 (View.ld (iblk0 V c 0 t) (Rect.unit (s := S32x1x128) (k0_off1 (grid0.coords t) 1#32) S1x1x128.size (k0_off1_inb (grid0.coords t) 1))) (iblk0 V c 1 t) (iblk0 V c 2 t) (iblk0 V c 3 t) (View.ld (iblk0 V c 4 t) (Rect.unit (s := S4x3136x240) ![1, 0, 0] S1x3136x240.size inb_S4x3136x240_S1x3136x240_1_0_0))) (k0_pay12 (k0_pay4 (View.ld (iblk0 V c 0 t) (Rect.unit (s := S32x1x128) (k0_off1 (grid0.coords t) 0#32) S1x1x128.size (k0_off1_inb (grid0.coords t) 0))) (iblk0 V c 1 t) (iblk0 V c 2 t) (iblk0 V c 3 t) (View.ld (iblk0 V c 4 t) (Rect.unit (s := S4x3136x240) ![0, 0, 0] S1x3136x240.size inb_S4x3136x240_S1x3136x240_0_0_0))) acc)))) (ix3 z1 z2 o)
      = acc (ix3 z1 z2 o) + A1 V c (4 * t.val + 0) o + A1 V c (4 * t.val + 1) o + A1 V c (4 * t.val + 2) o + A1 V c (4 * t.val + 3) o := by
  have e0 : ∀ p : Fin 3136, (k0_pay4 (View.ld (iblk0 V c 0 t) (Rect.unit (s := S32x1x128) (k0_off1 (grid0.coords t) 0#32) S1x1x128.size (k0_off1_inb (grid0.coords t) 0))) (iblk0 V c 1 t) (iblk0 V c 2 t) (iblk0 V c 3 t) (View.ld (iblk0 V c 4 t) (Rect.unit (s := S4x3136x240) ![0, 0, 0] S1x3136x240.size inb_S4x3136x240_S1x3136x240_0_0_0))) (ix2 p o) = yK V c (imgOf t 0) p o := fun p => pay4_at V c t (0 : Fin 4) _ _ p o
  have e1 : ∀ p : Fin 3136, (k0_pay4 (View.ld (iblk0 V c 0 t) (Rect.unit (s := S32x1x128) (k0_off1 (grid0.coords t) 1#32) S1x1x128.size (k0_off1_inb (grid0.coords t) 1))) (iblk0 V c 1 t) (iblk0 V c 2 t) (iblk0 V c 3 t) (View.ld (iblk0 V c 4 t) (Rect.unit (s := S4x3136x240) ![1, 0, 0] S1x3136x240.size inb_S4x3136x240_S1x3136x240_1_0_0))) (ix2 p o) = yK V c (imgOf t 1) p o := fun p => pay4_at V c t (1 : Fin 4) _ _ p o
  have e2 : ∀ p : Fin 3136, (k0_pay4 (View.ld (iblk0 V c 0 t) (Rect.unit (s := S32x1x128) (k0_off1 (grid0.coords t) 2#32) S1x1x128.size (k0_off1_inb (grid0.coords t) 2))) (iblk0 V c 1 t) (iblk0 V c 2 t) (iblk0 V c 3 t) (View.ld (iblk0 V c 4 t) (Rect.unit (s := S4x3136x240) ![2, 0, 0] S1x3136x240.size inb_S4x3136x240_S1x3136x240_2_0_0))) (ix2 p o) = yK V c (imgOf t 2) p o := fun p => pay4_at V c t (2 : Fin 4) _ _ p o
  have e3 : ∀ p : Fin 3136, (k0_pay4 (View.ld (iblk0 V c 0 t) (Rect.unit (s := S32x1x128) (k0_off1 (grid0.coords t) 3#32) S1x1x128.size (k0_off1_inb (grid0.coords t) 3))) (iblk0 V c 1 t) (iblk0 V c 2 t) (iblk0 V c 3 t) (View.ld (iblk0 V c 4 t) (Rect.unit (s := S4x3136x240) ![3, 0, 0] S1x3136x240.size inb_S4x3136x240_S1x3136x240_3_0_0))) (ix2 p o) = yK V c (imgOf t 3) p o := fun p => pay4_at V c t (3 : Fin 4) _ _ p o
  rw [pay12_apply, pay12_apply, pay12_apply, pay12_apply]
  simp only [e0, e1, e2, e3]
  rw [show A1 V c (4 * t.val + 0) o = _ from A1_img V c t 0 o, show A1 V c (4 * t.val + 1) o = _ from A1_img V c t 1 o,
    show A1 V c (4 * t.val + 2) o = _ from A1_img V c t 2 o, show A1 V c (4 * t.val + 3) o = _ from A1_img V c t 3 o]
theorem step7 (c : Dev nD) (t : Fin cfg0.N) (acc : Vec Ideal S1x1x40 .f32) (z1 z2 : Fin 1) (o : Fin 40) :
    (k0_pay13 (k0_pay4 (View.ld (iblk0 V c 0 t) (Rect.unit (s := S32x1x128) (k0_off1 (grid0.coords t) 3#32) S1x1x128.size (k0_off1_inb (grid0.coords t) 3))) (iblk0 V c 1 t) (iblk0 V c 2 t) (iblk0 V c 3 t) (View.ld (iblk0 V c 4 t) (Rect.unit (s := S4x3136x240) ![3, 0, 0] S1x3136x240.size inb_S4x3136x240_S1x3136x240_3_0_0))) (k0_pay13 (k0_pay4 (View.ld (iblk0 V c 0 t) (Rect.unit (s := S32x1x128) (k0_off1 (grid0.coords t) 2#32) S1x1x128.size (k0_off1_inb (grid0.coords t) 2))) (iblk0 V c 1 t) (iblk0 V c 2 t) (iblk0 V c 3 t) (View.ld (iblk0 V c 4 t) (Rect.unit (s := S4x3136x240) ![2, 0, 0] S1x3136x240.size inb_S4x3136x240_S1x3136x240_2_0_0))) (k0_pay13 (k0_pay4 (View.ld (iblk0 V c 0 t) (Rect.unit (s := S32x1x128) (k0_off1 (grid0.coords t) 1#32) S1x1x128.size (k0_off1_inb (grid0.coords t) 1))) (iblk0 V c 1 t) (iblk0 V c 2 t) (iblk0 V c 3 t) (View.ld (iblk0 V c 4 t) (Rect.unit (s := S4x3136x240) ![1, 0, 0] S1x3136x240.size inb_S4x3136x240_S1x3136x240_1_0_0))) (k0_pay13 (k0_pay4 (View.ld (iblk0 V c 0 t) (Rect.unit (s := S32x1x128) (k0_off1 (grid0.coords t) 0#32) S1x1x128.size (k0_off1_inb (grid0.coords t) 0))) (iblk0 V c 1 t) (iblk0 V c 2 t) (iblk0 V c 3 t) (View.ld (iblk0 V c 4 t) (Rect.unit (s := S4x3136x240) ![0, 0, 0] S1x3136x240.size inb_S4x3136x240_S1x3136x240_0_0_0))) acc)))) (ix3 z1 z2 o)
      = acc (ix3 z1 z2 o) + A2 V c (4 * t.val + 0) o + A2 V c (4 * t.val + 1) o + A2 V c (4 * t.val + 2) o + A2 V c (4 * t.val + 3) o := by
  have e0 : ∀ p : Fin 3136, (k0_pay4 (View.ld (iblk0 V c 0 t) (Rect.unit (s := S32x1x128) (k0_off1 (grid0.coords t) 0#32) S1x1x128.size (k0_off1_inb (grid0.coords t) 0))) (iblk0 V c 1 t) (iblk0 V c 2 t) (iblk0 V c 3 t) (View.ld (iblk0 V c 4 t) (Rect.unit (s := S4x3136x240) ![0, 0, 0] S1x3136x240.size inb_S4x3136x240_S1x3136x240_0_0_0))) (ix2 p o) = yK V c (imgOf t 0) p o := fun p => pay4_at V c t (0 : Fin 4) _ _ p o
  have e1 : ∀ p : Fin 3136, (k0_pay4 (View.ld (iblk0 V c 0 t) (Rect.unit (s := S32x1x128) (k0_off1 (grid0.coords t) 1#32) S1x1x128.size (k0_off1_inb (grid0.coords t) 1))) (iblk0 V c 1 t) (iblk0 V c 2 t) (iblk0 V c 3 t) (View.ld (iblk0 V c 4 t) (Rect.unit (s := S4x3136x240) ![1, 0, 0] S1x3136x240.size inb_S4x3136x240_S1x3136x240_1_0_0))) (ix2 p o) = yK V c (imgOf t 1) p o := fun p => pay4_at V c t (1 : Fin 4) _ _ p o
  have e2 : ∀ p : Fin 3136, (k0_pay4 (View.ld (iblk0 V c 0 t) (Rect.unit (s := S32x1x128) (k0_off1 (grid0.coords t) 2#32) S1x1x128.size (k0_off1_inb (grid0.coords t) 2))) (iblk0 V c 1 t) (iblk0 V c 2 t) (iblk0 V c 3 t) (View.ld (iblk0 V c 4 t) (Rect.unit (s := S4x3136x240) ![2, 0, 0] S1x3136x240.size inb_S4x3136x240_S1x3136x240_2_0_0))) (ix2 p o) = yK V c (imgOf t 2) p o := fun p => pay4_at V c t (2 : Fin 4) _ _ p o
  have e3 : ∀ p : Fin 3136, (k0_pay4 (View.ld (iblk0 V c 0 t) (Rect.unit (s := S32x1x128) (k0_off1 (grid0.coords t) 3#32) S1x1x128.size (k0_off1_inb (grid0.coords t) 3))) (iblk0 V c 1 t) (iblk0 V c 2 t) (iblk0 V c 3 t) (View.ld (iblk0 V c 4 t) (Rect.unit (s := S4x3136x240) ![3, 0, 0] S1x3136x240.size inb_S4x3136x240_S1x3136x240_3_0_0))) (ix2 p o) = yK V c (imgOf t 3) p o := fun p => pay4_at V c t (3 : Fin 4) _ _ p o
  rw [pay13_apply, pay13_apply, pay13_apply, pay13_apply]
  simp only [e0, e1, e2, e3]
  rw [show A2 V c (4 * t.val + 0) o = _ from A2_img V c t 0 o, show A2 V c (4 * t.val + 1) o = _ from A2_img V c t 1 o,
    show A2 V c (4 * t.val + 2) o = _ from A2_img V c t 2 o, show A2 V c (4 * t.val + 3) o = _ from A2_img V c t 3 o]

theorem range4 {M : Type} [AddCommMonoid M] (f : ℕ → M) (n : ℕ) :
    ∑ s ∈ Finset.range (4 * (n + 1)), f s = (∑ s ∈ Finset.range (4 * n), f s) + f (4 * n + 0) + f (4 * n + 1) + f (4 * n + 2) + f (4 * n + 3) := by
  rw [show 4 * (n + 1) = 4 * n + 0 + 1 + 1 + 1 + 1 from by ring, Finset.sum_range_succ, Finset.sum_range_succ, Finset.sum_range_succ, Finset.sum_range_succ]
  rfl

end Region0

end Cert.KernelIdeal.Hand

end
-- ==== Proof.KerVal0b.lean ====
import proofs.«134701_g2000104339650780_pallasbulk_589_17_alg».proof.Proof.KerVal0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # The kernel's first launch: its three output arrays after the run -/

section Region0
variable (V : (c : Dev nD) → (b : Ref sig .tc) → Buf (Elt Ideal) ((c : Thread nD τ).loc b))

/-- The product block of point `t`: four stores, one image each. -/
def blockY (c : Dev nD) (t : Fin cfg0.N) : Vec Ideal S4x3136x40 .bf16 :=
  View.canon [⟨Rect.unit (s := S4x3136x40) ![3, 0, 0] S1x3136x40.size inb_S4x3136x40_S1x3136x40_3_0_0, (k0_pay5 (View.ld (iblk0 V c 0 t) (Rect.unit (s := S32x1x128) (k0_off1 (grid0.coords t) 3#32) S1x1x128.size (k0_off1_inb (grid0.coords t) 3))) (iblk0 V c 1 t) (iblk0 V c 2 t) (iblk0 V c 3 t) (View.ld (iblk0 V c 4 t) (Rect.unit (s := S4x3136x240) ![3, 0, 0] S1x3136x240.size inb_S4x3136x240_S1x3136x240_3_0_0)))⟩,
    ⟨Rect.unit (s := S4x3136x40) ![2, 0, 0] S1x3136x40.size inb_S4x3136x40_S1x3136x40_2_0_0, (k0_pay5 (View.ld (iblk0 V c 0 t) (Rect.unit (s := S32x1x128) (k0_off1 (grid0.coords t) 2#32) S1x1x128.size (k0_off1_inb (grid0.coords t) 2))) (iblk0 V c 1 t) (iblk0 V c 2 t) (iblk0 V c 3 t) (View.ld (iblk0 V c 4 t) (Rect.unit (s := S4x3136x240) ![2, 0, 0] S1x3136x240.size inb_S4x3136x240_S1x3136x240_2_0_0)))⟩,
    ⟨Rect.unit (s := S4x3136x40) ![1, 0, 0] S1x3136x40.size inb_S4x3136x40_S1x3136x40_1_0_0, (k0_pay5 (View.ld (iblk0 V c 0 t) (Rect.unit (s := S32x1x128) (k0_off1 (grid0.coords t) 1#32) S1x1x128.size (k0_off1_inb (grid0.coords t) 1))) (iblk0 V c 1 t) (iblk0 V c 2 t) (iblk0 V c 3 t) (View.ld (iblk0 V c 4 t) (Rect.unit (s := S4x3136x240) ![1, 0, 0] S1x3136x240.size inb_S4x3136x240_S1x3136x240_1_0_0)))⟩,
    ⟨Rect.unit (s := S4x3136x40) ![0, 0, 0] S1x3136x40.size inb_S4x3136x40_S1x3136x40_0_0_0, (k0_pay5 (View.ld (iblk0 V c 0 t) (Rect.unit (s := S32x1x128) (k0_off1 (grid0.coords t) 0#32) S1x1x128.size (k0_off1_inb (grid0.coords t) 0))) (iblk0 V c 1 t) (iblk0 V c 2 t) (iblk0 V c 3 t) (View.ld (iblk0 V c 4 t) (Rect.unit (s := S4x3136x240) ![0, 0, 0] S1x3136x240.size inb_S4x3136x240_S1x3136x240_0_0_0)))⟩]

theorem pay5_at (c : Dev nD) (t : Fin cfg0.N) (j : Fin 4) (inb0) (inb4) (z : Fin 1) (p : Fin 3136) (o : Fin 40) :
    k0_pay5 (View.ld (iblk0 V c 0 t) (Rect.unit (s := S32x1x128) (k0_off1 (grid0.coords t) (BitVec.ofNat 32 j.val)) S1x1x128.size inb0))
        (iblk0 V c 1 t) (iblk0 V c 2 t) (iblk0 V c 3 t)
        (View.ld (iblk0 V c 4 t) (Rect.unit (s := S4x3136x240) ![j.val, 0, 0] S1x3136x240.size inb4)) (ix3 z p o)
      = yK V c (imgOf t j) p o := by
  rw [pay5_apply]; exact pay4_at V c t j inb0 inb4 p o

theorem emb_piece (j : Fin 4) (inb) (z : Fin 1) (p : Fin 3136) (o : Fin 40) :
    (Rect.unit (s := S4x3136x40) ![j.val, 0, 0] S1x3136x40.size inb).emb (ix3 z p o) = ix3 j p o := by
  funext a; apply Fin.ext
  have := z.isLt
  match a with
  | ⟨0, _⟩ => show j.val + 1 * z.val = j.val; omega
  | ⟨1, _⟩ => show 0 + 1 * p.val = p.val; omega
  | ⟨2, _⟩ => show 0 + 1 * o.val = o.val; omega

theorem blockY_apply (c : Dev nD) (t : Fin cfg0.N) (j : Fin 4) (p : Fin 3136) (o : Fin 40) :
    blockY V c t (ix3 j p o) = yK V c (imgOf t j) p o := by
  unfold blockY
  refine (View.canon_apply_of_pieces (fun y : S4x3136x40.Idx => yK V c (imgOf t (y 0)) (y 1) (y 2)) _ (fun pc hp x => ?_) (ix3 j p o) ?_).trans rfl
  · simp only [List.mem_cons, List.mem_nil_iff, or_false] at hp
    rcases hp with rfl | rfl | rfl | rfl <;>
      obtain ⟨z, p', o', rfl⟩ : ∃ (z : Fin 1) (p' : Fin 3136) (o' : Fin 40), x = ix3 z p' o' := ⟨x 0, x 1, x 2, eq_ix3 x⟩
    · show (k0_pay5 (View.ld (iblk0 V c 0 t) (Rect.unit (s := S32x1x128) (k0_off1 (grid0.coords t) 3#32) S1x1x128.size (k0_off1_inb (grid0.coords t) 3))) (iblk0 V c 1 t) (iblk0 V c 2 t) (iblk0 V c 3 t) (View.ld (iblk0 V c 4 t) (Rect.unit (s := S4x3136x240) ![3, 0, 0] S1x3136x240.size inb_S4x3136x240_S1x3136x240_3_0_0))) (ix3 z p' o') = _
      rw [show (k0_pay5 (View.ld (iblk0 V c 0 t) (Rect.unit (s := S32x1x128) (k0_off1 (grid0.coords t) 3#32) S1x1x128.size (k0_off1_inb (grid0.coords t) 3))) (iblk0 V c 1 t) (iblk0 V c 2 t) (iblk0 V c 3 t) (View.ld (iblk0 V c 4 t) (Rect.unit (s := S4x3136x240) ![3, 0, 0] S1x3136x240.size inb_S4x3136x240_S1x3136x240_3_0_0))) (ix3 z p' o') = yK V c (imgOf t 3) p' o' from pay5_at V c t (3 : Fin 4) _ _ z p' o']
      exact (congrArg (fun y : S4x3136x40.Idx => yK V c (imgOf t (y 0)) (y 1) (y 2)) (emb_piece (3 : Fin 4) inb_S4x3136x40_S1x3136x40_3_0_0 z p' o')).symm
    · show (k0_pay5 (View.ld (iblk0 V c 0 t) (Rect.unit (s := S32x1x128) (k0_off1 (grid0.coords t) 2#32) S1x1x128.size (k0_off1_inb (grid0.coords t) 2))) (iblk0 V c 1 t) (iblk0 V c 2 t) (iblk0 V c 3 t) (View.ld (iblk0 V c 4 t) (Rect.unit (s := S4x3136x240) ![2, 0, 0] S1x3136x240.size inb_S4x3136x240_S1x3136x240_2_0_0))) (ix3 z p' o') = _
      rw [show (k0_pay5 (View.ld (iblk0 V c 0 t) (Rect.unit (s := S32x1x128) (k0_off1 (grid0.coords t) 2#32) S1x1x128.size (k0_off1_inb (grid0.coords t) 2))) (iblk0 V c 1 t) (iblk0 V c 2 t) (iblk0 V c 3 t) (View.ld (iblk0 V c 4 t) (Rect.unit (s := S4x3136x240) ![2, 0, 0] S1x3136x240.size inb_S4x3136x240_S1x3136x240_2_0_0))) (ix3 z p' o') = yK V c (imgOf t 2) p' o' from pay5_at V c t (2 : Fin 4) _ _ z p' o']
      exact (congrArg (fun y : S4x3136x40.Idx => yK V c (imgOf t (y 0)) (y 1) (y 2)) (emb_piece (2 : Fin 4) inb_S4x3136x40_S1x3136x40_2_0_0 z p' o')).symm
    · show (k0_pay5 (View.ld (iblk0 V c 0 t) (Rect.unit (s := S32x1x128) (k0_off1 (grid0.coords t) 1#32) S1x1x128.size (k0_off1_inb (grid0.coords t) 1))) (iblk0 V c 1 t) (iblk0 V c 2 t) (iblk0 V c 3 t) (View.ld (iblk0 V c 4 t) (Rect.unit (s := S4x3136x240) ![1, 0, 0] S1x3136x240.size inb_S4x3136x240_S1x3136x240_1_0_0))) (ix3 z p' o') = _
      rw [show (k0_pay5 (View.ld (iblk0 V c 0 t) (Rect.unit (s := S32x1x128) (k0_off1 (grid0.coords t) 1#32) S1x1x128.size (k0_off1_inb (grid0.coords t) 1))) (iblk0 V c 1 t) (iblk0 V c 2 t) (iblk0 V c 3 t) (View.ld (iblk0 V c 4 t) (Rect.unit (s := S4x3136x240) ![1, 0, 0] S1x3136x240.size inb_S4x3136x240_S1x3136x240_1_0_0))) (ix3 z p' o') = yK V c (imgOf t 1) p' o' from pay5_at V c t (1 : Fin 4) _ _ z p' o']
      exact (congrArg (fun y : S4x3136x40.Idx => yK V c (imgOf t (y 0)) (y 1) (y 2)) (emb_piece (1 : Fin 4) inb_S4x3136x40_S1x3136x40_1_0_0 z p' o')).symm
    · show (k0_pay5 (View.ld (iblk0 V c 0 t) (Rect.unit (s := S32x1x128) (k0_off1 (grid0.coords t) 0#32) S1x1x128.size (k0_off1_inb (grid0.coords t) 0))) (iblk0 V c 1 t) (iblk0 V c 2 t) (iblk0 V c 3 t) (View.ld (iblk0 V c 4 t) (Rect.unit (s := S4x3136x240) ![0, 0, 0] S1x3136x240.size inb_S4x3136x240_S1x3136x240_0_0_0))) (ix3 z p' o') = _
      rw [show (k0_pay5 (View.ld (iblk0 V c 0 t) (Rect.unit (s := S32x1x128) (k0_off1 (grid0.coords t) 0#32) S1x1x128.size (k0_off1_inb (grid0.coords t) 0))) (iblk0 V c 1 t) (iblk0 V c 2 t) (iblk0 V c 3 t) (View.ld (iblk0 V c 4 t) (Rect.unit (s := S4x3136x240) ![0, 0, 0] S1x3136x240.size inb_S4x3136x240_S1x3136x240_0_0_0))) (ix3 z p' o') = yK V c (imgOf t 0) p' o' from pay5_at V c t (0 : Fin 4) _ _ z p' o']
      exact (congrArg (fun y : S4x3136x40.Idx => yK V c (imgOf t (y 0)) (y 1) (y 2)) (emb_piece (0 : Fin 4) inb_S4x3136x40_S1x3136x40_0_0_0 z p' o')).symm
  · have hj := j.isLt
    have hp := p.isLt
    have ho := o.isLt
    have key : ∀ (k : Fin 4) (inb), k = j → ix3 j p o ∈ (Rect.unit (s := S4x3136x40) ![k.val, 0, 0] S1x3136x40.size inb).set := by
      intro k inb hk
      subst hk
      rw [Rect.mem_set_unit]
      intro a
      match a with
      | ⟨0, _⟩ => show k.val ≤ k.val ∧ k.val < k.val + 1; omega
      | ⟨1, _⟩ => show 0 ≤ p.val ∧ p.val < 0 + 3136; omega
      | ⟨2, _⟩ => show 0 ≤ o.val ∧ o.val < 0 + 40; omega
    match j with
    | ⟨0, _⟩ => exact ⟨_, List.mem_cons_of_mem _ (List.mem_cons_of_mem _ (List.mem_cons_of_mem _ List.mem_cons_self)), key (0 : Fin 4) inb_S4x3136x40_S1x3136x40_0_0_0 rfl⟩
    | ⟨1, _⟩ => exact ⟨_, List.mem_cons_of_mem _ (List.mem_cons_of_mem _ List.mem_cons_self), key (1 : Fin 4) inb_S4x3136x40_S1x3136x40_1_0_0 rfl⟩
    | ⟨2, _⟩ => exact ⟨_, List.mem_cons_of_mem _ List.mem_cons_self, key (2 : Fin 4) inb_S4x3136x40_S1x3136x40_2_0_0 rfl⟩
    | ⟨3, _⟩ => exact ⟨_, List.mem_cons_self, key (3 : Fin 4) inb_S4x3136x40_S1x3136x40_3_0_0 rfl⟩

/-- The product block after each point. -/
theorem outs_1 (c : Dev nD) (t : Fin cfg0.N) : (outsAt0 V c t.val t.isLt).1 = blockY V c t := by
  by_cases h0 : t.val % 8 = 0
  · rw [outsAt0_A V c t h0]
    dsimp only
    rw [out0_A_5_eq]
    rfl
  · rw [outsAt0_B V c t h0]
    dsimp only
    rw [out0_B_5_eq]
    rfl

/-- The statistic rows after each point: the sums over the images met so far. -/
theorem outs_2 (c : Dev nD) : ∀ (n : ℕ) (hn : n < cfg0.N) (z1 z2 : Fin 1) (o : Fin 40),
    (outsAt0 V c n hn).2.1 (ix3 z1 z2 o) = ∑ s ∈ Finset.range (4 * (n + 1)), A1 V c s o
  | 0, hn, z1, z2, o => by
    rw [outsAt0_A V c ⟨0, hn⟩ (Nat.zero_mod _)]
    dsimp only
    rw [out0_A_6_eq]
    refine (step6 V c ⟨0, hn⟩ (k0_pay2 (F := Ideal)) z1 z2 o).trans ?_
    rw [pay2_apply]
    show (0 : EReal) + A1 V c (4 * 0 + 0) o + A1 V c (4 * 0 + 1) o + A1 V c (4 * 0 + 2) o + A1 V c (4 * 0 + 3) o = ∑ s ∈ Finset.range (4 * (0 + 1)), A1 V c s o
    rw [range4 (fun s => A1 V c s o) 0, Nat.mul_zero, Finset.range_zero, Finset.sum_empty]
  | n + 1, hn, z1, z2, o => by
    have hN : n + 1 < 8 := lt_of_lt_of_eq hn (show cfg0.N = 8 from N_0)
    have h0 : ¬(n + 1) % 8 = 0 := by omega
    rw [outsAt0_B V c ⟨n + 1, hn⟩ h0]
    dsimp only
    rw [out0_B_6_eq]
    refine (step6 V c ⟨n + 1, hn⟩ (outsAt0 V c n (Nat.lt_of_succ_lt hn)).2.1 z1 z2 o).trans ?_
    rw [outs_2 c n (Nat.lt_of_succ_lt hn) z1 z2 o]
    exact (range4 (fun s => A1 V c s o) (n + 1)).symm
theorem outs_3 (c : Dev nD) : ∀ (n : ℕ) (hn : n < cfg0.N) (z1 z2 : Fin 1) (o : Fin 40),
    (outsAt0 V c n hn).2.2 (ix3 z1 z2 o) = ∑ s ∈ Finset.range (4 * (n + 1)), A2 V c s o
  | 0, hn, z1, z2, o => by
    rw [outsAt0_A V c ⟨0, hn⟩ (Nat.zero_mod _)]
    dsimp only
    rw [out0_A_7_eq]
    refine (step7 V c ⟨0, hn⟩ (k0_pay3 (F := Ideal)) z1 z2 o).trans ?_
    rw [pay3_apply]
    show (0 : EReal) + A2 V c (4 * 0 + 0) o + A2 V c (4 * 0 + 1) o + A2 V c (4 * 0 + 2) o + A2 V c (4 * 0 + 3) o = ∑ s ∈ Finset.range (4 * (0 + 1)), A2 V c s o
    rw [range4 (fun s => A2 V c s o) 0, Nat.mul_zero, Finset.range_zero, Finset.sum_empty]
  | n + 1, hn, z1, z2, o => by
    have hN : n + 1 < 8 := lt_of_lt_of_eq hn (show cfg0.N = 8 from N_0)
    have h0 : ¬(n + 1) % 8 = 0 := by omega
    rw [outsAt0_B V c ⟨n + 1, hn⟩ h0]
    dsimp only
    rw [out0_B_7_eq]
    refine (step7 V c ⟨n + 1, hn⟩ (outsAt0 V c n (Nat.lt_of_succ_lt hn)).2.2 z1 z2 o).trans ?_
    rw [outs_3 c n (Nat.lt_of_succ_lt hn) z1 z2 o]
    exact (range4 (fun s => A2 V c s o) (n + 1)).symm

/-- The product array and the two statistic rows after the run. -/
def GK5 (c : Dev nD) : S32x3136x40.Idx → EReal := fun i => yK V c (i 0) (i 1) (i 2)
def GK6 (c : Dev nD) : S1x1x40.Idx → EReal := fun i => ∑ s ∈ Finset.range 32, A1 V c s (i 2)
def GK7 (c : Dev nD) : S1x1x40.Idx → EReal := fun i => ∑ s ∈ Finset.range 32, A2 V c s (i 2)

theorem flushedK_5 (c : Dev nD) (t : Fin cfg0.N) :
    (dat0 V c).flushed 5 t = ((cfg0.win 5).blk t).view.read (Elt Ideal) (GK5 V c) := by
  show (cfg0.win 5).cut (grid0.coords t) ((dat0 V c).after 5 t) = _
  rw [after0_5, outs_1]
  funext y
  obtain ⟨j, p, o, rfl⟩ : ∃ (j : Fin 4) (p : Fin 3136) (o : Fin 40), y = ix3 j p o := ⟨y 0, y 1, y 2, eq_ix3 y⟩
  show blockY V c t (ix3 j p o) = GK5 V c (((cfg0.win 5).blk t).view.emb (ix3 j p o))
  rw [blockY_apply]
  obtain ⟨-, -, -, -, -, -, -, -, -, -, -, -, e0, e1, e2, -⟩ := idx_facts0 t
  unfold GK5
  have h0 : (((cfg0.win 5).blk t).view.emb (ix3 j p o)) 0 = imgOf t j := Fin.ext (by
    show win0_5.index t (0 : Fin 3) * 4 + 1 * j.val = 4 * t.val + j.val; omega)
  have h1 : (((cfg0.win 5).blk t).view.emb (ix3 j p o)) 1 = p := Fin.ext (by
    show win0_5.index t (1 : Fin 3) * 3136 + 1 * p.val = p.val; omega)
  have h2 : (((cfg0.win 5).blk t).view.emb (ix3 j p o)) 2 = o := Fin.ext (by
    show win0_5.index t (2 : Fin 3) * 40 + 1 * o.val = o.val; omega)
  rw [h0, h1, h2]

theorem coverK_5 (i : S32x3136x40.Idx) :
    ∃ t : Fin cfg0.N, (cfg0.win 5).flush t = true ∧ i ∈ ((cfg0.win 5).blk t).view.set := by
  have h0 : (i 0).val < 32 := (i 0).isLt
  have h1 : (i 1).val < 3136 := (i 1).isLt
  have h2 : (i 2).val < 40 := (i 2).isLt
  let t : Fin cfg0.N := ⟨(i 0).val / 4, by rw [show cfg0.N = 8 from N_0]; omega⟩
  refine ⟨t, flush0_5 t, ?_⟩
  show i ∈ ((View.whole main_v8_0).slice (win0_5.rect t)).set
  rw [View.set_slice_whole, Rect.mem_set_unit]
  obtain ⟨-, -, -, -, -, -, -, -, -, -, -, -, e0, e1, e2, -⟩ := idx_facts0 t
  have ht : t.val = (i 0).val / 4 := rfl
  intro a
  match a with
  | ⟨0, _⟩ => show win0_5.index t (0 : Fin 3) * 4 ≤ (i 0).val ∧ (i 0).val < win0_5.index t (0 : Fin 3) * 4 + 4; omega
  | ⟨1, _⟩ => show win0_5.index t (1 : Fin 3) * 3136 ≤ (i 1).val ∧ (i 1).val < win0_5.index t (1 : Fin 3) * 3136 + 3136; omega
  | ⟨2, _⟩ => show win0_5.index t (2 : Fin 3) * 40 ≤ (i 2).val ∧ (i 2).val < win0_5.index t (2 : Fin 3) * 40 + 40; omega

theorem finalK_5 (c : Dev nD) : (dat0 V c).arrAt 5 cfg0.N = GK5 V c :=
  (dat0 V c).arrAt_eq_of_cover 5 (GK5 V c) (fun t _ => flushedK_5 V c t) coverK_5

theorem lastK_6 (t : Fin cfg0.N) (hf : (cfg0.win 6).flush t = true) : t.val = 7 := by
  have hN : t.val < 8 := lt_of_lt_of_eq t.isLt (show cfg0.N = 8 from N_0)
  have := (flush0_6 t).mp hf; omega
theorem lastK_7 (t : Fin cfg0.N) (hf : (cfg0.win 7).flush t = true) : t.val = 7 := by
  have hN : t.val < 8 := lt_of_lt_of_eq t.isLt (show cfg0.N = 8 from N_0)
  have := (flush0_7 t).mp hf; omega

theorem flushedK_6 (c : Dev nD) (t : Fin cfg0.N) (hf : (cfg0.win 6).flush t = true) :
    (dat0 V c).flushed 6 t = ((cfg0.win 6).blk t).view.read (Elt Ideal) (GK6 V c) := by
  show (cfg0.win 6).cut (grid0.coords t) ((dat0 V c).after 6 t) = _
  rw [after0_6]
  funext y
  obtain ⟨z1, z2, o, rfl⟩ : ∃ (z1 z2 : Fin 1) (o : Fin 40), y = ix3 z1 z2 o := ⟨y 0, y 1, y 2, eq_ix3 y⟩
  show (outsAt0 V c t.val t.isLt).2.1 (ix3 z1 z2 o) = GK6 V c (((cfg0.win 6).blk t).view.emb (ix3 z1 z2 o))
  rw [outs_2 V c t.val t.isLt z1 z2 o, lastK_6 t hf]
  obtain ⟨-, -, -, -, -, -, -, -, -, -, -, -, -, -, -, e0, e1, e2, -⟩ := idx_facts0 t
  unfold GK6
  have h2 : (((cfg0.win 6).blk t).view.emb (ix3 z1 z2 o)) 2 = o := Fin.ext (by
    show win0_6.index t (2 : Fin 3) * 40 + 1 * o.val = o.val; omega)
  rw [h2]
theorem flushedK_7 (c : Dev nD) (t : Fin cfg0.N) (hf : (cfg0.win 7).flush t = true) :
    (dat0 V c).flushed 7 t = ((cfg0.win 7).blk t).view.read (Elt Ideal) (GK7 V c) := by
  show (cfg0.win 7).cut (grid0.coords t) ((dat0 V c).after 7 t) = _
  rw [after0_7]
  funext y
  obtain ⟨z1, z2, o, rfl⟩ : ∃ (z1 z2 : Fin 1) (o : Fin 40), y = ix3 z1 z2 o := ⟨y 0, y 1, y 2, eq_ix3 y⟩
  show (outsAt0 V c t.val t.isLt).2.2 (ix3 z1 z2 o) = GK7 V c (((cfg0.win 7).blk t).view.emb (ix3 z1 z2 o))
  rw [outs_3 V c t.val t.isLt z1 z2 o, lastK_7 t hf]
  obtain ⟨-, -, -, -, -, -, -, -, -, -, -, -, -, -, -, -, -, -, e0, e1, e2⟩ := idx_facts0 t
  unfold GK7
  have h2 : (((cfg0.win 7).blk t).view.emb (ix3 z1 z2 o)) 2 = o := Fin.ext (by
    show win0_7.index t (2 : Fin 3) * 40 + 1 * o.val = o.val; omega)
  rw [h2]

theorem coverK_6 (i : S1x1x40.Idx) :
    ∃ t : Fin cfg0.N, (cfg0.win 6).flush t = true ∧ i ∈ ((cfg0.win 6).blk t).view.set := by
  let t : Fin cfg0.N := ⟨7, by rw [show cfg0.N = 8 from N_0]; omega⟩
  refine ⟨t, (flush0_6 t).mpr rfl, ?_⟩
  show i ∈ ((View.whole main_v8_1).slice (win0_6.rect t)).set
  rw [View.set_slice_whole, Rect.mem_set_unit]
  obtain ⟨-, -, -, -, -, -, -, -, -, -, -, -, -, -, -, e0, e1, e2, -⟩ := idx_facts0 t
  have h0 : (i 0).val < 1 := (i 0).isLt
  have h1 : (i 1).val < 1 := (i 1).isLt
  have h2 : (i 2).val < 40 := (i 2).isLt
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1 ≤ (i 1).val ∧ (i 1).val < win0_6.index t (1 : Fin 3) * 1 + 1; omega
  | ⟨2, _⟩ => show win0_6.index t (2 : Fin 3) * 40 ≤ (i 2).val ∧ (i 2).val < win0_6.index t (2 : Fin 3) * 40 + 40; omega
theorem coverK_7 (i : S1x1x40.Idx) :
    ∃ t : Fin cfg0.N, (cfg0.win 7).flush t = true ∧ i ∈ ((cfg0.win 7).blk t).view.set := by
  let t : Fin cfg0.N := ⟨7, by rw [show cfg0.N = 8 from N_0]; omega⟩
  refine ⟨t, (flush0_7 t).mpr rfl, ?_⟩
  show i ∈ ((View.whole main_v8_2).slice (win0_7.rect t)).set
  rw [View.set_slice_whole, Rect.mem_set_unit]
  obtain ⟨-, -, -, -, -, -, -, -, -, -, -, -, -, -, -, -, -, -, e0, e1, e2⟩ := idx_facts0 t
  have h0 : (i 0).val < 1 := (i 0).isLt
  have h1 : (i 1).val < 1 := (i 1).isLt
  have h2 : (i 2).val < 40 := (i 2).isLt
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1 ≤ (i 1).val ∧ (i 1).val < win0_7.index t (1 : Fin 3) * 1 + 1; omega
  | ⟨2, _⟩ => show win0_7.index t (2 : Fin 3) * 40 ≤ (i 2).val ∧ (i 2).val < win0_7.index t (2 : Fin 3) * 40 + 40; omega

theorem finalK_6 (c : Dev nD) : (dat0 V c).arrAt 6 cfg0.N = GK6 V c :=
  (dat0 V c).arrAt_eq_of_cover 6 (GK6 V c) (fun t hf => flushedK_6 V c t hf) coverK_6
theorem finalK_7 (c : Dev nD) : (dat0 V c).arrAt 7 cfg0.N = GK7 V c :=
  (dat0 V c).arrAt_eq_of_cover 7 (GK7 V c) (fun t hf => flushedK_7 V c t hf) coverK_7

end Region0

end Cert.KernelIdeal.Hand

end
-- ==== Proof.KerVal1.lean ====
import proofs.«134701_g2000104339650780_pallasbulk_589_17_alg».proof.Proof.Gen.KernelIdeal.Frame
import proofs.«134701_g2000104339650780_pallasbulk_589_17_alg».proof.Proof.KerPayIdx
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # The kernel's second launch: its output array after the run

Point `t` handles images `4 t … 4 t + 3`: each image's entries times their channel's scale plus their channel's shift,
the pixel axis split into rows and columns. -/

theorem hz3' : (![0, 0, 0] : Fin 3 → Nat) = fun _ => 0 := by funext a; fin_cases a <;> rfl

theorem idx_facts1 : ∀ t : Fin cfg1.N,
    win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 4) = t.val ∧ win1_3.index t (1 : Fin 4) = 0 ∧ win1_3.index t (2 : Fin 4) = 0 ∧ win1_3.index t (3 : Fin 4) = 0 :=
  (by decide +kernel : ∀ t : Fin grid1.N, _)

def imgOf1 (t : Fin cfg1.N) (j : Fin 4) : Fin 32 := ⟨4 * t.val + j.val, by
  have : t.val < 8 := lt_of_lt_of_eq t.isLt (show cfg1.N = 8 from N_1); have := j.isLt; omega⟩
def pixP (h w : Fin 56) : Fin 3136 := ⟨h.val * 56 + w.val, by have := h.isLt; have := w.isLt; omega⟩

section Blocks
variable {F : FTy → Type} [FloatOps F]
variable (V : (c : Dev nD) → (b : Ref sig .tc) → Buf (Elt F) ((c : Thread nD τ).loc b))

theorem iblk1_0_apply (c : Dev nD) (t : Fin cfg1.N) (j : Fin 4) (o : Fin 40) (p : Fin 3136) :
    iblk1 V c 0 t (ix3 j o p) = V c main_v9 (ix3 (imgOf1 t j) o p) := by
  show V c main_v9 (((cfg1.win 0).blk t).view.emb (ix3 j o p)) = V c main_v9 (ix3 (imgOf1 t j) o p)
  refine congrArg (V c main_v9) (funext fun a => Fin.ext ?_)
  obtain ⟨e0, e1, e2, -⟩ := idx_facts1 t
  match a with
  | ⟨0, _⟩ => show win1_0.index t (0 : Fin 3) * 4 + 1 * j.val = 4 * t.val + j.val; omega
  | ⟨1, _⟩ => show win1_0.index t (1 : Fin 3) * 40 + 1 * o.val = o.val; omega
  | ⟨2, _⟩ => show win1_0.index t (2 : Fin 3) * 3136 + 1 * p.val = p.val; omega
theorem iblk1_1_eq (c : Dev nD) (t : Fin cfg1.N) : iblk1 V c 1 t = V c main_v25 := by
  funext y
  show V c main_v25 (((cfg1.win 1).blk t).view.emb y) = V c main_v25 y
  refine congrArg (V c main_v25) (funext fun a => Fin.ext ?_)
  obtain ⟨-, -, -, e0, e1, e2, -⟩ := idx_facts1 t
  match a with
  | ⟨0, _⟩ => show win1_1.index t (0 : Fin 3) * 1 + 1 * (y 0).val = (y 0).val; omega
  | ⟨1, _⟩ => show win1_1.index t (1 : Fin 3) * 40 + 1 * (y 1).val = (y 1).val; omega
  | ⟨2, _⟩ => show win1_1.index t (2 : Fin 3) * 1 + 1 * (y 2).val = (y 2).val; omega
theorem iblk1_2_eq (c : Dev nD) (t : Fin cfg1.N) : iblk1 V c 2 t = V c main_v30 := by
  funext y
  show V c main_v30 (((cfg1.win 2).blk t).view.emb y) = V c main_v30 y
  refine congrArg (V c main_v30) (funext fun a => Fin.ext ?_)
  obtain ⟨-, -, -, -, -, -, e0, e1, e2, -⟩ := idx_facts1 t
  match a with
  | ⟨0, _⟩ => show win1_2.index t (0 : Fin 3) * 1 + 1 * (y 0).val = (y 0).val; omega
  | ⟨1, _⟩ => show win1_2.index t (1 : Fin 3) * 40 + 1 * (y 1).val = (y 1).val; omega
  | ⟨2, _⟩ => show win1_2.index t (2 : Fin 3) * 1 + 1 * (y 2).val = (y 2).val; omega

theorem ldIn_apply (x0 : Vec F S4x40x3136 .bf16) (j : Fin 4) (inb) (z : Fin 1) (o : Fin 40) (p : Fin 3136) :
    View.ld x0 (Rect.unit (s := S4x40x3136) ![j.val, 0, 0] S1x40x3136.size inb) (ix3 z o p) = x0 (ix3 j o p) := by
  show x0 ((Rect.unit (s := S4x40x3136) ![j.val, 0, 0] S1x40x3136.size inb).emb (ix3 z o p)) = _
  refine congrArg x0 (funext fun a => Fin.ext ?_)
  have h1 := z.isLt
  match a with
  | ⟨0, _⟩ => show j.val + 1 * z.val = j.val; omega
  | ⟨1, _⟩ => show 0 + 1 * o.val = o.val; omega
  | ⟨2, _⟩ => show 0 + 1 * p.val = p.val; omega

theorem emb_out (j : Fin 4) (inb) (z : Fin 1) (o : Fin 40) (h w : Fin 56) :
    (Rect.unit (s := S4x40x56x56) ![j.val, 0, 0, 0] S1x40x56x56.size inb).emb (ix4 z o h w) = ix4 j o h w := by
  funext a; apply Fin.ext
  have := z.isLt
  match a with
  | ⟨0, _⟩ => show j.val + 1 * z.val = j.val; omega
  | ⟨1, _⟩ => show 0 + 1 * o.val = o.val; omega
  | ⟨2, _⟩ => show 0 + 1 * h.val = h.val; omega
  | ⟨3, _⟩ => show 0 + 1 * w.val = w.val; omega

end Blocks

section Region1
variable (V : (c : Dev nD) → (b : Ref sig .tc) → Buf (Elt Ideal) ((c : Thread nD τ).loc b))

abbrev kYt (c : Dev nD) : S32x40x3136.Idx → EReal := V c main_v9
abbrev kSc (c : Dev nD) : S1x40x1.Idx → EReal := V c main_v25
abbrev kSh (c : Dev nD) : S1x40x1.Idx → EReal := V c main_v30

def outAt (c : Dev nD) (n : Fin 32) (o : Fin 40) (h w : Fin 56) : EReal :=
  kYt V c (ix3 n o (pixP h w)) * kSc V c (ix3 (0 : Fin 1) o (0 : Fin 1)) + kSh V c (ix3 (0 : Fin 1) o (0 : Fin 1))
/-- The normalised array. -/
def GK13 (c : Dev nD) : S32x40x56x56.Idx → EReal := fun i => outAt V c (i 0) (i 1) (i 2) (i 3)

theorem pay_at (c : Dev nD) (t : Fin cfg1.N) (j : Fin 4) (inb) (z : Fin 1) (o : Fin 40) (h w : Fin 56) :
    k1_pay3 (View.ld (iblk1 V c 0 t) (Rect.unit (s := S4x40x3136) ![j.val, 0, 0] S1x40x3136.size inb))
        (View.ld (iblk1 V c 1 t) r1_1) (View.ld (iblk1 V c 2 t) r1_1) (ix4 z o h w)
      = outAt V c (imgOf1 t j) o h w := by
  rw [k1_pay3_apply]
  unfold outAt
  refine congrArg₂ (· + ·) (congrArg₂ (· * ·) ?_ ?_) ?_
  · exact (ldIn_apply _ j inb 0 o _).trans (iblk1_0_apply V c t j o _)
  · rw [View.ld_unit_zero (S := S1x40x1) hz3']; exact congrFun (iblk1_1_eq V c t) _
  · rw [View.ld_unit_zero (S := S1x40x1) hz3']; exact congrFun (iblk1_2_eq V c t) _

theorem out1_3_apply (c : Dev nD) (t : Fin cfg1.N) (j : Fin 4) (o : Fin 40) (h w : Fin 56) :
    out1_3 (iblk1 V c 0 t) (iblk1 V c 1 t) (iblk1 V c 2 t) (ix4 j o h w) = outAt V c (imgOf1 t j) o h w := by
  unfold out1_3
  refine (View.canon_apply_of_pieces (fun y : S4x40x56x56.Idx => outAt V c (imgOf1 t (y 0)) (y 1) (y 2) (y 3)) _ (fun pc hp x => ?_) (ix4 j o h w) ?_).trans rfl
  · simp only [List.mem_cons, List.mem_nil_iff, or_false] at hp
    rcases hp with rfl | rfl | rfl | rfl <;>
      obtain ⟨z, o', h', w', rfl⟩ : ∃ (z : Fin 1) (o' : Fin 40) (h' w' : Fin 56), x = ix4 z o' h' w' := ⟨x 0, x 1, x 2, x 3, eq_ix4 x⟩
    · show k1_pay2 (View.ld (iblk1 V c 0 t) r1_7) (View.ld (iblk1 V c 1 t) r1_1) (View.ld (iblk1 V c 2 t) r1_1) (ix4 z o' h' w') = _
      rw [k1_pay2_eq, show k1_pay3 (View.ld (iblk1 V c 0 t) r1_7) (View.ld (iblk1 V c 1 t) r1_1) (View.ld (iblk1 V c 2 t) r1_1) (ix4 z o' h' w') = outAt V c (imgOf1 t 3) o' h' w' from pay_at V c t (3 : Fin 4) _ z o' h' w']
      exact (congrArg (fun y : S4x40x56x56.Idx => outAt V c (imgOf1 t (y 0)) (y 1) (y 2) (y 3)) (emb_out (3 : Fin 4) inb_S4x40x56x56_S1x40x56x56_3_0_0_0 z o' h' w')).symm
    · show k1_pay1 (View.ld (iblk1 V c 0 t) r1_5) (View.ld (iblk1 V c 1 t) r1_1) (View.ld (iblk1 V c 2 t) r1_1) (ix4 z o' h' w') = _
      rw [k1_pay1_eq, show k1_pay3 (View.ld (iblk1 V c 0 t) r1_5) (View.ld (iblk1 V c 1 t) r1_1) (View.ld (iblk1 V c 2 t) r1_1) (ix4 z o' h' w') = outAt V c (imgOf1 t 2) o' h' w' from pay_at V c t (2 : Fin 4) _ z o' h' w']
      exact (congrArg (fun y : S4x40x56x56.Idx => outAt V c (imgOf1 t (y 0)) (y 1) (y 2) (y 3)) (emb_out (2 : Fin 4) inb_S4x40x56x56_S1x40x56x56_2_0_0_0 z o' h' w')).symm
    · show k1_pay4 (View.ld (iblk1 V c 0 t) r1_3) (View.ld (iblk1 V c 1 t) r1_1) (View.ld (iblk1 V c 2 t) r1_1) (ix4 z o' h' w') = _
      rw [k1_pay4_eq, show k1_pay3 (View.ld (iblk1 V c 0 t) r1_3) (View.ld (iblk1 V c 1 t) r1_1) (View.ld (iblk1 V c 2 t) r1_1) (ix4 z o' h' w') = outAt V c (imgOf1 t 1) o' h' w' from pay_at V c t (1 : Fin 4) _ z o' h' w']
      exact (congrArg (fun y : S4x40x56x56.Idx => outAt V c (imgOf1 t (y 0)) (y 1) (y 2) (y 3)) (emb_out (1 : Fin 4) inb_S4x40x56x56_S1x40x56x56_1_0_0_0 z o' h' w')).symm
    · show k1_pay3 (View.ld (iblk1 V c 0 t) r1_0) (View.ld (iblk1 V c 1 t) r1_1) (View.ld (iblk1 V c 2 t) r1_1) (ix4 z o' h' w') = _
      rw [show k1_pay3 (View.ld (iblk1 V c 0 t) r1_0) (View.ld (iblk1 V c 1 t) r1_1) (View.ld (iblk1 V c 2 t) r1_1) (ix4 z o' h' w') = outAt V c (imgOf1 t 0) o' h' w' from pay_at V c t (0 : Fin 4) _ z o' h' w']
      exact (congrArg (fun y : S4x40x56x56.Idx => outAt V c (imgOf1 t (y 0)) (y 1) (y 2) (y 3)) (emb_out (0 : Fin 4) inb_S4x40x56x56_S1x40x56x56_0_0_0_0 z o' h' w')).symm
  · have ho := o.isLt
    have hh := h.isLt
    have hw := w.isLt
    have key : ∀ (k : Fin 4) (inb), k = j → ix4 j o h w ∈ (Rect.unit (s := S4x40x56x56) ![k.val, 0, 0, 0] S1x40x56x56.size inb).set := by
      intro k inb hk
      subst hk
      rw [Rect.mem_set_unit]
      intro a
      match a with
      | ⟨0, _⟩ => show k.val ≤ k.val ∧ k.val < k.val + 1; omega
      | ⟨1, _⟩ => show 0 ≤ o.val ∧ o.val < 0 + 40; omega
      | ⟨2, _⟩ => show 0 ≤ h.val ∧ h.val < 0 + 56; omega
      | ⟨3, _⟩ => show 0 ≤ w.val ∧ w.val < 0 + 56; omega
    match j with
    | ⟨0, _⟩ => exact ⟨_, List.mem_cons_of_mem _ (List.mem_cons_of_mem _ (List.mem_cons_of_mem _ List.mem_cons_self)), key (0 : Fin 4) inb_S4x40x56x56_S1x40x56x56_0_0_0_0 rfl⟩
    | ⟨1, _⟩ => exact ⟨_, List.mem_cons_of_mem _ (List.mem_cons_of_mem _ List.mem_cons_self), key (1 : Fin 4) inb_S4x40x56x56_S1x40x56x56_1_0_0_0 rfl⟩
    | ⟨2, _⟩ => exact ⟨_, List.mem_cons_of_mem _ List.mem_cons_self, key (2 : Fin 4) inb_S4x40x56x56_S1x40x56x56_2_0_0_0 rfl⟩
    | ⟨3, _⟩ => exact ⟨_, List.mem_cons_self, key (3 : Fin 4) inb_S4x40x56x56_S1x40x56x56_3_0_0_0 rfl⟩

theorem flushedK1_3 (c : Dev nD) (t : Fin cfg1.N) :
    (dat1 V c).flushed 3 t = ((cfg1.win 3).blk t).view.read (Elt Ideal) (GK13 V c) := by
  show (cfg1.win 3).cut (grid1.coords t) ((dat1 V c).after 3 t) = _
  rw [after1_3]
  funext y
  obtain ⟨j, o, h, w, rfl⟩ : ∃ (j : Fin 4) (o : Fin 40) (h w : Fin 56), y = ix4 j o h w := ⟨y 0, y 1, y 2, y 3, eq_ix4 y⟩
  show out1_3 (iblk1 V c 0 t) (iblk1 V c 1 t) (iblk1 V c 2 t) (ix4 j o h w) = GK13 V c (((cfg1.win 3).blk t).view.emb (ix4 j o h w))
  rw [out1_3_apply]
  obtain ⟨-, -, -, -, -, -, -, -, -, e0, e1, e2, e3⟩ := idx_facts1 t
  unfold GK13
  have h0 : (((cfg1.win 3).blk t).view.emb (ix4 j o h w)) 0 = imgOf1 t j := Fin.ext (by
    show win1_3.index t (0 : Fin 4) * 4 + 1 * j.val = 4 * t.val + j.val; omega)
  have h1 : (((cfg1.win 3).blk t).view.emb (ix4 j o h w)) 1 = o := Fin.ext (by
    show win1_3.index t (1 : Fin 4) * 40 + 1 * o.val = o.val; omega)
  have h2 : (((cfg1.win 3).blk t).view.emb (ix4 j o h w)) 2 = h := Fin.ext (by
    show win1_3.index t (2 : Fin 4) * 56 + 1 * h.val = h.val; omega)
  have h3 : (((cfg1.win 3).blk t).view.emb (ix4 j o h w)) 3 = w := Fin.ext (by
    show win1_3.index t (3 : Fin 4) * 56 + 1 * w.val = w.val; omega)
  rw [h0, h1, h2, h3]

theorem coverK1_3 (i : S32x40x56x56.Idx) :
    ∃ t : Fin cfg1.N, (cfg1.win 3).flush t = true ∧ i ∈ ((cfg1.win 3).blk t).view.set := by
  have h0 : (i 0).val < 32 := (i 0).isLt
  have h1 : (i 1).val < 40 := (i 1).isLt
  have h2 : (i 2).val < 56 := (i 2).isLt
  have h3 : (i 3).val < 56 := (i 3).isLt
  let t : Fin cfg1.N := ⟨(i 0).val / 4, by rw [show cfg1.N = 8 from N_1]; omega⟩
  refine ⟨t, flush1_3 t, ?_⟩
  show i ∈ ((View.whole main_v31).slice (win1_3.rect t)).set
  rw [View.set_slice_whole, Rect.mem_set_unit]
  obtain ⟨-, -, -, -, -, -, -, -, -, e0, e1, e2, e3⟩ := idx_facts1 t
  have ht : t.val = (i 0).val / 4 := rfl
  intro a
  match a with
  | ⟨0, _⟩ => show win1_3.index t (0 : Fin 4) * 4 ≤ (i 0).val ∧ (i 0).val < win1_3.index t (0 : Fin 4) * 4 + 4; omega
  | ⟨1, _⟩ => show win1_3.index t (1 : Fin 4) * 40 ≤ (i 1).val ∧ (i 1).val < win1_3.index t (1 : Fin 4) * 40 + 40; omega
  | ⟨2, _⟩ => show win1_3.index t (2 : Fin 4) * 56 ≤ (i 2).val ∧ (i 2).val < win1_3.index t (2 : Fin 4) * 56 + 56; omega
  | ⟨3, _⟩ => show win1_3.index t (3 : Fin 4) * 56 ≤ (i 3).val ∧ (i 3).val < win1_3.index t (3 : Fin 4) * 56 + 56; omega

theorem finalK1_3 (c : Dev nD) : (dat1 V c).arrAt 3 cfg1.N = GK13 V c :=
  (dat1 V c).arrAt_eq_of_cover 3 (GK13 V c) (fun t _ => flushedK1_3 V c t) coverK1_3

end Region1

end Cert.KernelIdeal.Hand

end
-- ==== Proof.Spec.lean ====
/-
  The function both programs compute, on the extended reals: a squeeze-and-excitation gate folded into a 1×1
  convolution, followed by batch normalisation with the batch's own statistics.
  For batch entry n, channel k:   gate n k = logistic (Σ_q x63[n,q] · w1[k,q] + b1[k]).
  For pixel p = 56 h + w, output channel o:   conv n p o = Σ_k x60[n,k,h,w] · (w2[o,k] · gate n k).
  s1 o = Σ_n Σ_p conv n p o,  s2 o = Σ_n Σ_p (conv n p o)²,  mean = s1 / N,  var = max (s2 / N − mean², 0),
  inv = rsqrt (var + ε),  scale = γ · inv,  shift = β − mean · (γ · inv),  out[n,o,h,w] = conv n p o · scale o + shift o.
  N and ε are the two programs' shared f32 words (100352 and 1e-3), never evaluated.
-/
import Idealize.ShloMosaic.PureOps.Ideal
import Idealize.ShloMosaic.Lib.ValueIdx

noncomputable section

namespace Cert.SeBn

open Idealize.ShloMosaic Idealize.ShloMosaic.ValueIdx

abbrev T0 : Shape := ⟨4, ![32, 10, 1, 1]⟩
abbrev T1 : Shape := ⟨4, ![32, 240, 56, 56]⟩
abbrev T2 : Shape := ⟨2, ![240, 10]⟩
abbrev T3 : Shape := ⟨1, ![240]⟩
abbrev T4 : Shape := ⟨2, ![40, 240]⟩
abbrev T5 : Shape := ⟨1, ![40]⟩
abbrev TO : Shape := ⟨4, ![32, 40, 56, 56]⟩

variable (a0 : T0.Idx → EReal) (a1 : T1.Idx → EReal) (a2 : T2.Idx → EReal) (a3 : T3.Idx → EReal)
  (a4 : T4.Idx → EReal) (a5 : T5.Idx → EReal) (a6 : T5.Idx → EReal)

/-- The element count and the variance offset, as the f32 words both programs carry. -/
def cN : EReal := Ideal.ofBits .f32 0x47C40000#32
def cEps : EReal := Ideal.ofBits .f32 0x3A83126F#32
def cZero : EReal := Ideal.ofBits .f32 0x00000000#32

def pixH (p : Fin 3136) : Fin 56 := ⟨p.val / 56, by have := p.isLt; omega⟩
def pixW (p : Fin 3136) : Fin 56 := ⟨p.val % 56, Nat.mod_lt _ (by decide)⟩
def pixOf (h w : Fin 56) : Fin 3136 := ⟨h.val * 56 + w.val, by have := h.isLt; have := w.isLt; omega⟩

def gate (n : Fin 32) (k : Fin 240) : EReal :=
  Ideal.logistic ((∑ q : Fin 10, a0 (ix4 n q (0 : Fin 1) (0 : Fin 1)) * a2 (ix2 k q)) + a3 (ix1 k))

def conv (n : Fin 32) (p : Fin 3136) (o : Fin 40) : EReal :=
  ∑ k : Fin 240, a1 (ix4 n k (pixH p) (pixW p)) * (a4 (ix2 o k) * gate a0 a2 a3 n k)

def s1 (o : Fin 40) : EReal := ∑ n : Fin 32, ∑ p : Fin 3136, conv a0 a1 a2 a3 a4 n p o
def s2 (o : Fin 40) : EReal := ∑ n : Fin 32, ∑ p : Fin 3136, conv a0 a1 a2 a3 a4 n p o * conv a0 a1 a2 a3 a4 n p o

/-- The scale and the shift of one output channel from its two sums, its gain and its bias. -/
def meanOf (s : EReal) : EReal := Ideal.div s cN
def invOf (s q : EReal) : EReal := Ideal.rsqrt (max (Ideal.div q cN - meanOf s * meanOf s) cZero + cEps)
def scaleOf (g s q : EReal) : EReal := g * invOf s q
def shiftOf (g b s q : EReal) : EReal := b - meanOf s * (g * invOf s q)

def G : TO.Idx → EReal := fun i =>
  conv a0 a1 a2 a3 a4 (i 0) (pixOf (i 2) (i 3)) (i 1)
    * scaleOf (a5 (ix1 (i 1))) (s1 a0 a1 a2 a3 a4 (i 1)) (s2 a0 a1 a2 a3 a4 (i 1))
    + shiftOf (a5 (ix1 (i 1))) (a6 (ix1 (i 1))) (s1 a0 a1 a2 a3 a4 (i 1)) (s2 a0 a1 a2 a3 a4 (i 1))

/-- The shift with its product grouped the other way: products of extended reals are associative. -/
theorem shiftOf_assoc (g b s q : EReal) : b - (meanOf s * g) * invOf s q = shiftOf g b s q := by
  unfold shiftOf; rw [mul_assoc]

end Cert.SeBn

end
-- ==== Proof.KerHost.lean ====
import proofs.«134701_g2000104339650780_pallasbulk_589_17_alg».proof.Proof.KernelRun
import proofs.«134701_g2000104339650780_pallasbulk_589_17_alg».proof.Proof.KerVal0b
import proofs.«134701_g2000104339650780_pallasbulk_589_17_alg».proof.Proof.KerVal1
import proofs.«134701_g2000104339650780_pallasbulk_589_17_alg».proof.Proof.Spec
import Idealize.ShloMosaic.Lib.StableHlo.Run
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # The kernel's host operations, read at one entry

Before the first launch the operands are re-laid and the squeeze table zero-padded to 128 columns; between the launches
the two statistic rows become the scale and the shift; the product array is transposed for the second launch. -/

variable (m : (ℓ : Loc nD τ sig) → Buf (Elt Ideal) ℓ) (ρ : Dev nD → PrngReg)

abbrev karg0 (c : Dev nD) : S32x10x1x1.Idx → EReal := m ((c.tc : Thread nD τ).loc main_arg0)
abbrev karg1 (c : Dev nD) : S32x240x56x56.Idx → EReal := m ((c.tc : Thread nD τ).loc main_arg1)
abbrev karg2 (c : Dev nD) : S240x10.Idx → EReal := m ((c.tc : Thread nD τ).loc main_arg2)
abbrev karg3 (c : Dev nD) : S240.Idx → EReal := m ((c.tc : Thread nD τ).loc main_arg3)
abbrev karg4 (c : Dev nD) : S40x240.Idx → EReal := m ((c.tc : Thread nD τ).loc main_arg4)
abbrev karg5 (c : Dev nD) : S40.Idx → EReal := m ((c.tc : Thread nD τ).loc main_arg5)
abbrev karg6 (c : Dev nD) : S40.Idx → EReal := m ((c.tc : Thread nD τ).loc main_arg6)

theorem kpadv_zero (j : S_.Idx) : (sitofp (F := Ideal) .f32 (constantI S_ 32 0#32)) j = (0 : EReal) := by
  show (((0#32 : BitVec 32).toInt : ℝ) : EReal) = 0
  simp

/-! ## Before the first launch -/

theorem kx63_eq (c : Dev nD) : (W5 m ρ c (Proc.devRef .tc main_v3) : S32x1x128.Idx → EReal)
    = pad S32x1x128 ![0, 0, 0] ![0, 0, 118] ![0, 0, 0] (shapeCast S32x1x10 (karg0 m c) shapeCasts_S32x10x1x1_S32x1x10) (sitofp (F := Ideal) .f32 (constantI S_ 32 0#32)) pads_S32x1x10_S32x1x128_000_000_01180 h_S_ := by
  dsimp only [W5, W4, W3, W2, W1, W0, hostOps0, hostOps0_1, hostOps0_2, hostOps0_3, hostOps0_4]; after_results <;> try rfl
theorem kx63_in (c : Dev nD) (n : Fin 32) (z : Fin 1) (q : Fin 128) (hq : q.val < 10) :
    (W5 m ρ c (Proc.devRef .tc main_v3) : S32x1x128.Idx → EReal) (ix3 n z q) = karg0 m c (ix4 n ⟨q.val, hq⟩ (0 : Fin 1) (0 : Fin 1)) := by
  rw [kx63_eq]
  refine (pad_apply_of_inside ![0, 0, 0] ![0, 0, 118] ![0, 0, 0] _ _ pads_S32x1x10_S32x1x128_000_000_01180 h_S_ (ix3 n z q) (ix3 n z ⟨q.val, hq⟩) (fun a => ?_)).trans ?_
  · match a with
    | ⟨0, _⟩ => show n.val = 0 + n.val * (0 + 1); omega
    | ⟨1, _⟩ => show z.val = 0 + z.val * (0 + 1); omega
    | ⟨2, _⟩ => show q.val = 0 + q.val * (0 + 1); omega
  · refine shapeCast_apply _ shapeCasts_S32x10x1x1_S32x1x10 (ix3 n z ⟨q.val, hq⟩) (ix4 n ⟨q.val, hq⟩ (0 : Fin 1) (0 : Fin 1)) ?_
    rw [Shape.rowMajor_val_three, Shape.rowMajor_val_four]
    show ((n.val * 10 + q.val) * 1 + 0) * 1 + 0 = (n.val * 1 + z.val) * 10 + q.val
    have := z.isLt; omega
theorem kx63_out (c : Dev nD) (n : Fin 32) (z : Fin 1) (q : Fin 128) (hq : 10 ≤ q.val) :
    (W5 m ρ c (Proc.devRef .tc main_v3) : S32x1x128.Idx → EReal) (ix3 n z q) = (0 : EReal) := by
  rw [kx63_eq]
  refine (pad_apply_of_not_inside (s := S32x1x10) ![0, 0, 0] ![0, 0, 118] ![0, 0, 0] _ _ pads_S32x1x10_S32x1x128_000_000_01180 h_S_ (ix3 n z q) (2 : Fin 3) (fun hh => ?_)).trans (kpadv_zero _)
  have h3 : (q.val - 0) / (0 + 1) < 10 := hh.2.2
  omega

theorem kw1_eq (c : Dev nD) : (W5 m ρ c (Proc.devRef .tc main_v5) : S128x240.Idx → EReal)
    = pad S128x240 ![0, 0] ![118, 0] ![0, 0] (transpose S10x240 [1, 0] (karg2 m c) transposes_S240x10_S10x240_1_0) (sitofp (F := Ideal) .f32 (constantI S_ 32 0#32)) pads_S10x240_S128x240_01180_000 h_S_ := by
  dsimp only [W5, W4, W3, W2, W1, W0, hostOps0, hostOps0_1, hostOps0_2, hostOps0_3, hostOps0_4]; after_results <;> try rfl
theorem kw1_in (c : Dev nD) (q : Fin 128) (hq : q.val < 10) (k : Fin 240) :
    (W5 m ρ c (Proc.devRef .tc main_v5) : S128x240.Idx → EReal) (ix2 q k) = karg2 m c (ix2 k ⟨q.val, hq⟩) := by
  rw [kw1_eq]
  refine (pad_apply_of_inside ![0, 0] ![118, 0] ![0, 0] _ _ pads_S10x240_S128x240_01180_000 h_S_ (ix2 q k) (ix2 ⟨q.val, hq⟩ k) (fun a => ?_)).trans ?_
  · match a with
    | ⟨0, _⟩ => show q.val = 0 + q.val * (0 + 1); omega
    | ⟨1, _⟩ => show k.val = 0 + k.val * (0 + 1); omega
  · refine transpose_apply [1, 0] _ transposes_S240x10_S10x240_1_0 (ix2 ⟨q.val, hq⟩ k) (ix2 k ⟨q.val, hq⟩) (fun b => ?_)
    match b with
    | ⟨0, _⟩ => rfl
    | ⟨1, _⟩ => rfl

theorem kb1_eq (c : Dev nD) : (W5 m ρ c (Proc.devRef .tc main_v6) : S1x240.Idx → EReal)
    = shapeCast S1x240 (karg3 m c) shapeCasts_S240_S1x240 := by
  dsimp only [W5, W4, W3, W2, W1, W0, hostOps0, hostOps0_1, hostOps0_2, hostOps0_3, hostOps0_4]; after_results <;> try rfl
theorem kb1_apply (c : Dev nD) (z : Fin 1) (k : Fin 240) :
    (W5 m ρ c (Proc.devRef .tc main_v6) : S1x240.Idx → EReal) (ix2 z k) = karg3 m c (ix1 k) := by
  rw [kb1_eq]
  refine shapeCast_apply _ shapeCasts_S240_S1x240 (ix2 z k) (ix1 k) ?_
  rw [Shape.rowMajor_val_one, Shape.rowMajor_val_two]
  show k.val = z.val * 240 + k.val
  have := z.isLt; omega

theorem kw2_eq (c : Dev nD) : (W5 m ρ c (Proc.devRef .tc main_v7) : S240x40.Idx → EReal)
    = transpose S240x40 [1, 0] (karg4 m c) transposes_S40x240_S240x40_1_0 := by
  dsimp only [W5, W4, W3, W2, W1, W0, hostOps0, hostOps0_1, hostOps0_2, hostOps0_3, hostOps0_4]; after_results <;> try rfl
theorem kw2_apply (c : Dev nD) (k : Fin 240) (o : Fin 40) :
    (W5 m ρ c (Proc.devRef .tc main_v7) : S240x40.Idx → EReal) (ix2 k o) = karg4 m c (ix2 o k) := by
  rw [kw2_eq]
  refine transpose_apply [1, 0] _ transposes_S40x240_S240x40_1_0 (ix2 k o) (ix2 o k) (fun b => ?_)
  match b with
  | ⟨0, _⟩ => rfl
  | ⟨1, _⟩ => rfl

theorem kxt_eq (c : Dev nD) : (W5 m ρ c (Proc.devRef .tc main_v1) : S32x3136x240.Idx → EReal)
    = shapeCast S32x3136x240 (transpose S32x56x56x240 [0, 2, 3, 1] (karg1 m c) transposes_S32x240x56x56_S32x56x56x240_0_2_3_1) shapeCasts_S32x56x56x240_S32x3136x240 := by
  dsimp only [W5, W4, W3, W2, W1, W0, hostOps0, hostOps0_1, hostOps0_2, hostOps0_3, hostOps0_4]; after_results <;> try rfl
theorem kxt_apply (c : Dev nD) (n : Fin 32) (p : Fin 3136) (k : Fin 240) :
    (W5 m ρ c (Proc.devRef .tc main_v1) : S32x3136x240.Idx → EReal) (ix3 n p k) = karg1 m c (ix4 n k (Cert.SeBn.pixH p) (Cert.SeBn.pixW p)) := by
  rw [kxt_eq]
  refine (shapeCast_apply _ shapeCasts_S32x56x56x240_S32x3136x240 (ix3 n p k) (ix4 n (Cert.SeBn.pixH p) (Cert.SeBn.pixW p) k) (by
    rw [Shape.rowMajor_val_three, Shape.rowMajor_val_four]
    show ((n.val * 56 + p.val / 56) * 56 + p.val % 56) * 240 + k.val = (n.val * 3136 + p.val) * 240 + k.val
    omega)).trans ?_
  refine transpose_apply [0, 2, 3, 1] _ transposes_S32x240x56x56_S32x56x56x240_0_2_3_1 (ix4 n (Cert.SeBn.pixH p) (Cert.SeBn.pixW p) k) (ix4 n k (Cert.SeBn.pixH p) (Cert.SeBn.pixW p)) (fun a => ?_)
  match a with
  | ⟨0, _⟩ => rfl
  | ⟨1, _⟩ => rfl
  | ⟨2, _⟩ => rfl
  | ⟨3, _⟩ => rfl

/-! ## Between the launches -/

theorem kyt_eq (c : Dev nD) : (W7 m ρ c (Proc.devRef .tc main_v9) : S32x40x3136.Idx → EReal)
    = transpose S32x40x3136 [0, 2, 1] (W6 m ρ c (Proc.devRef .tc main_v8_0) : S32x3136x40.Idx → EReal) transposes_S32x3136x40_S32x40x3136_0_2_1 := by
  dsimp only [W7, hostOps1]; after_results <;> try rfl
theorem kyt_apply (c : Dev nD) (n : Fin 32) (o : Fin 40) (p : Fin 3136) :
    (W7 m ρ c (Proc.devRef .tc main_v9) : S32x40x3136.Idx → EReal) (ix3 n o p) = (W6 m ρ c (Proc.devRef .tc main_v8_0) : S32x3136x40.Idx → EReal) (ix3 n p o) := by
  rw [kyt_eq]
  refine transpose_apply [0, 2, 1] _ transposes_S32x3136x40_S32x40x3136_0_2_1 (ix3 n o p) (ix3 n p o) (fun b => ?_)
  match b with
  | ⟨0, _⟩ => rfl
  | ⟨1, _⟩ => rfl
  | ⟨2, _⟩ => rfl

/-- What the first launch and the arguments hold when the statistic arithmetic starts, as arrays of extended reals. -/
abbrev wA5 (c : Dev nD) : S40.Idx → EReal := W6 m ρ c (Proc.devRef .tc main_arg5)
abbrev wA6 (c : Dev nD) : S40.Idx → EReal := W6 m ρ c (Proc.devRef .tc main_arg6)
abbrev wS1 (c : Dev nD) : S1x1x40.Idx → EReal := W6 m ρ c (Proc.devRef .tc main_v8_1)
abbrev wS2 (c : Dev nD) : S1x1x40.Idx → EReal := W6 m ρ c (Proc.devRef .tc main_v8_2)
/-- The same laid as columns [40,1]. -/
abbrev cA5 (c : Dev nD) : S40x1.Idx → EReal := shapeCast S40x1 (wA5 m ρ c) shapeCasts_S40_S40x1
abbrev cA6 (c : Dev nD) : S40x1.Idx → EReal := shapeCast S40x1 (wA6 m ρ c) shapeCasts_S40_S40x1
abbrev cS1 (c : Dev nD) : S40x1.Idx → EReal := shapeCast S40x1 (wS1 m ρ c) shapeCasts_S1x1x40_S40x1
abbrev cS2 (c : Dev nD) : S40x1.Idx → EReal := shapeCast S40x1 (wS2 m ρ c) shapeCasts_S1x1x40_S40x1

/-- A statistic row [1,1,40] laid as a column [40,1]. -/
theorem col_apply (x : S1x1x40.Idx → EReal) (o : Fin 40) (z : Fin 1) :
    shapeCast S40x1 x shapeCasts_S1x1x40_S40x1 (ix2 o z) = x (ix3 (0 : Fin 1) (0 : Fin 1) o) := by
  refine shapeCast_apply _ shapeCasts_S1x1x40_S40x1 (ix2 o z) (ix3 (0 : Fin 1) (0 : Fin 1) o) ?_
  rw [Shape.rowMajor_val_three, Shape.rowMajor_val_two]
  show (0 * 1 + 0) * 40 + o.val = o.val * 1 + z.val
  have := z.isLt; omega
theorem vcol_apply (x : S40.Idx → EReal) (o : Fin 40) (z : Fin 1) :
    shapeCast S40x1 x shapeCasts_S40_S40x1 (ix2 o z) = x (ix1 o) := by
  refine shapeCast_apply _ shapeCasts_S40_S40x1 (ix2 o z) (ix1 o) ?_
  rw [Shape.rowMajor_val_one, Shape.rowMajor_val_two]
  show o.val = o.val * 1 + z.val
  have := z.isLt; omega

theorem ksc_eq (c : Dev nD) : (W7 m ρ c (Proc.devRef .tc main_v25) : S1x40x1.Idx → EReal)
    = shapeCast S1x40x1 (fun j : S40x1.Idx => Cert.SeBn.scaleOf (cA5 m ρ c j) (cS1 m ρ c j) (cS2 m ρ c j)) shapeCasts_S40x1_S1x40x1 := by
  dsimp only [W7, hostOps1]; after_results_simp <;> try rfl
theorem ksc_apply (c : Dev nD) (z1 : Fin 1) (o : Fin 40) (z2 : Fin 1) :
    (W7 m ρ c (Proc.devRef .tc main_v25) : S1x40x1.Idx → EReal) (ix3 z1 o z2)
      = Cert.SeBn.scaleOf ((W6 m ρ c (Proc.devRef .tc main_arg5) : S40.Idx → EReal) (ix1 o))
          ((W6 m ρ c (Proc.devRef .tc main_v8_1) : S1x1x40.Idx → EReal) (ix3 (0 : Fin 1) (0 : Fin 1) o))
          ((W6 m ρ c (Proc.devRef .tc main_v8_2) : S1x1x40.Idx → EReal) (ix3 (0 : Fin 1) (0 : Fin 1) o)) := by
  rw [ksc_eq]
  refine (shapeCast_apply _ shapeCasts_S40x1_S1x40x1 (ix3 z1 o z2) (ix2 o z2) (by
    rw [Shape.rowMajor_val_three, Shape.rowMajor_val_two]
    show o.val * 1 + z2.val = (z1.val * 40 + o.val) * 1 + z2.val
    have := z1.isLt; omega)).trans ?_
  show Cert.SeBn.scaleOf (cA5 m ρ c (ix2 o z2)) (cS1 m ρ c (ix2 o z2)) (cS2 m ρ c (ix2 o z2)) = _
  rw [show cA5 m ρ c (ix2 o z2) = wA5 m ρ c (ix1 o) from vcol_apply _ o z2, show cS1 m ρ c (ix2 o z2) = wS1 m ρ c (ix3 (0 : Fin 1) (0 : Fin 1) o) from col_apply _ o z2,
    show cS2 m ρ c (ix2 o z2) = wS2 m ρ c (ix3 (0 : Fin 1) (0 : Fin 1) o) from col_apply _ o z2]

set_option maxHeartbeats 1000000 in
theorem ksh_eq (c : Dev nD) : (W7 m ρ c (Proc.devRef .tc main_v30) : S1x40x1.Idx → EReal)
    = shapeCast S1x40x1 (fun j : S40x1.Idx => cA6 m ρ c j - (Cert.SeBn.meanOf (cS1 m ρ c j) * cA5 m ρ c j) * Cert.SeBn.invOf (cS1 m ρ c j) (cS2 m ρ c j)) shapeCasts_S40x1_S1x40x1 := by
  dsimp only [W7, hostOps1]; after_results_simp <;> try rfl
theorem ksh_apply (c : Dev nD) (z1 : Fin 1) (o : Fin 40) (z2 : Fin 1) :
    (W7 m ρ c (Proc.devRef .tc main_v30) : S1x40x1.Idx → EReal) (ix3 z1 o z2)
      = Cert.SeBn.shiftOf ((W6 m ρ c (Proc.devRef .tc main_arg5) : S40.Idx → EReal) (ix1 o)) ((W6 m ρ c (Proc.devRef .tc main_arg6) : S40.Idx → EReal) (ix1 o))
          ((W6 m ρ c (Proc.devRef .tc main_v8_1) : S1x1x40.Idx → EReal) (ix3 (0 : Fin 1) (0 : Fin 1) o))
          ((W6 m ρ c (Proc.devRef .tc main_v8_2) : S1x1x40.Idx → EReal) (ix3 (0 : Fin 1) (0 : Fin 1) o)) := by
  rw [ksh_eq]
  refine (shapeCast_apply _ shapeCasts_S40x1_S1x40x1 (ix3 z1 o z2) (ix2 o z2) (by
    rw [Shape.rowMajor_val_three, Shape.rowMajor_val_two]
    show o.val * 1 + z2.val = (z1.val * 40 + o.val) * 1 + z2.val
    have := z1.isLt; omega)).trans ?_
  show cA6 m ρ c (ix2 o z2) - (Cert.SeBn.meanOf (cS1 m ρ c (ix2 o z2)) * cA5 m ρ c (ix2 o z2)) * Cert.SeBn.invOf (cS1 m ρ c (ix2 o z2)) (cS2 m ρ c (ix2 o z2)) = _
  rw [show cA5 m ρ c (ix2 o z2) = wA5 m ρ c (ix1 o) from vcol_apply _ o z2, show cA6 m ρ c (ix2 o z2) = wA6 m ρ c (ix1 o) from vcol_apply _ o z2,
    show cS1 m ρ c (ix2 o z2) = wS1 m ρ c (ix3 (0 : Fin 1) (0 : Fin 1) o) from col_apply _ o z2,
    show cS2 m ρ c (ix2 o z2) = wS2 m ρ c (ix3 (0 : Fin 1) (0 : Fin 1) o) from col_apply _ o z2]
  exact Cert.SeBn.shiftOf_assoc _ _ _ _

/-! ## What the launches left, by name -/
theorem W6_y (c : Dev nD) : (W6 m ρ c (Proc.devRef .tc main_v8_0) : S32x3136x40.Idx → EReal) = GK5 (V5 m ρ) c :=
  (W6_arr m ρ c 5).trans (finalK_5 (V5 m ρ) c)
theorem W6_s1 (c : Dev nD) : (W6 m ρ c (Proc.devRef .tc main_v8_1) : S1x1x40.Idx → EReal) = GK6 (V5 m ρ) c :=
  (W6_arr m ρ c 6).trans (finalK_6 (V5 m ρ) c)
theorem W6_s2 (c : Dev nD) : (W6 m ρ c (Proc.devRef .tc main_v8_2) : S1x1x40.Idx → EReal) = GK7 (V5 m ρ) c :=
  (W6_arr m ρ c 7).trans (finalK_7 (V5 m ρ) c)
theorem W8_out (c : Dev nD) : (W8 m ρ c (Proc.devRef .tc main_v31) : S32x40x56x56.Idx → EReal) = GK13 (V7 m ρ) c :=
  (W8_arr m ρ c 3).trans (finalK1_3 (V7 m ρ) c)

end Cert.KernelIdeal.Hand

end
-- ==== Proof.LibZeroPadSums.lean ====
/-
  Sums over zero-padded and tiled index ranges, in any commutative additive monoid (no finiteness):
  * `sum_zero_tail`: a sum over `a + b` indices whose last `b` terms vanish is the sum over the first `a`;
  * `sum_range_tiles`: a sum over the `P * K` points of a row-major `P × K` grid, each point `s` summing a tile of
    `T` rows `(s % K) * T + r` of the entry `s / K`, is the double sum over the `P` entries and the `K * T` rows;
  * `foldl_add_eq_sum`: an accumulator started at `z` and increased by `g n` at step `n` holds `z + Σ_{n<N} g n`.
-/
import Mathlib.Algebra.BigOperators.Fin
import Mathlib.Logic.Equiv.Fin.Basic

namespace Cert.ZeroPadSums

variable {M : Type*} [AddCommMonoid M]

/-- The last `b` of `a + b` terms vanish: only the first `a` count. -/
theorem sum_zero_tail (a b : ℕ) (g : ℕ → M) (h : ∀ j, a ≤ j → j < a + b → g j = 0) :
    ∑ j : Fin (a + b), g j.val = ∑ j : Fin a, g j.val := by
  rw [Fin.sum_univ_add]
  have hz : ∑ i : Fin b, g (Fin.natAdd a i).val = 0 :=
    Finset.sum_eq_zero fun i _ => h _ (by simp) (by simp)
  rw [hz, add_zero]
  rfl

/-- Two digits of a number below `A * B`. -/
theorem sum_two_digits (A B : ℕ) (g : ℕ → M) :
    ∑ j : Fin (A * B), g j.val = ∑ a : Fin A, ∑ b : Fin B, g (a.val * B + b.val) := by
  refine ((finProdFinEquiv (m := A) (n := B)).sum_comp (fun j : Fin (A * B) => g j.val)).symm.trans ?_
  rw [Fintype.sum_prod_type]
  refine Finset.sum_congr rfl fun a _ => Finset.sum_congr rfl fun b _ => ?_
  show g (b.val + B * a.val) = g (a.val * B + b.val)
  rw [Nat.add_comm, Nat.mul_comm]

/-- The points of a row-major `P × K` grid, each summing its tile of `T` rows, sum every row of every entry. -/
theorem sum_range_tiles (P K T : ℕ) (hK : 0 < K) (f : ℕ → ℕ → M) :
    ∑ s ∈ Finset.range (P * K), ∑ r : Fin T, f (s / K) ((s % K) * T + r.val)
      = ∑ b : Fin P, ∑ R : Fin (K * T), f b.val R.val := by
  rw [← Fin.sum_univ_eq_sum_range (fun s => ∑ r : Fin T, f (s / K) ((s % K) * T + r.val)) (P * K)]
  rw [sum_two_digits P K (fun s => ∑ r : Fin T, f (s / K) ((s % K) * T + r.val))]
  refine Finset.sum_congr rfl fun b _ => ?_
  rw [sum_two_digits K T (fun R => f b.val R)]
  refine Finset.sum_congr rfl fun i _ => Finset.sum_congr rfl fun r _ => ?_
  have h1 : (b.val * K + i.val) / K = b.val := by
    rw [Nat.add_comm, Nat.add_mul_div_right _ _ hK, Nat.div_eq_of_lt i.isLt, Nat.zero_add]
  have h2 : (b.val * K + i.val) % K = i.val := by
    rw [Nat.add_comm, Nat.add_mul_mod_self_right, Nat.mod_eq_of_lt i.isLt]
  rw [h1, h2]

/-- An accumulator over `N` steps. -/
theorem acc_eq_sum (acc : ℕ → M) (g : ℕ → M) (z : M) (h0 : acc 0 = z) (hs : ∀ n, acc (n + 1) = acc n + g n) :
    ∀ N, acc N = z + ∑ n ∈ Finset.range N, g n
  | 0 => by rw [h0, Finset.sum_range_zero, add_zero]
  | N + 1 => by rw [hs, acc_eq_sum acc g z h0 hs N, Finset.sum_range_succ, add_assoc]

end Cert.ZeroPadSums
-- ==== Proof.KerFinal.lean ====
import proofs.«134701_g2000104339650780_pallasbulk_589_17_alg».proof.Proof.KerHost
import proofs.«134701_g2000104339650780_pallasbulk_589_17_alg».proof.Proof.LibZeroPadSums

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.SeBn

/-! # The kernel's result is the specified function of its arguments

The squeeze table's padded columns are zero, so the gate's sum over 128 columns is the sum over the true ten; the
statistic rows' sums over the images in grid order are the sums over the batch. -/

variable (m : (ℓ : Loc nD τ sig) → Buf (Elt Ideal) ℓ) (ρ : Dev nD → PrngReg)

theorem kX63_in (c : Dev nD) (n : Fin 32) (z : Fin 1) (q : Fin 128) (hq : q.val < 10) :
    kX63 (V5 m ρ) c (ix3 n z q) = karg0 m c (ix4 n ⟨q.val, hq⟩ (0 : Fin 1) (0 : Fin 1)) := kx63_in m ρ c n z q hq
theorem kX63_out (c : Dev nD) (n : Fin 32) (z : Fin 1) (q : Fin 128) (hq : 10 ≤ q.val) :
    kX63 (V5 m ρ) c (ix3 n z q) = 0 := kx63_out m ρ c n z q hq
theorem kW1_in (c : Dev nD) (q : Fin 128) (hq : q.val < 10) (k : Fin 240) :
    kW1 (V5 m ρ) c (ix2 q k) = karg2 m c (ix2 k ⟨q.val, hq⟩) := kw1_in m ρ c q hq k
theorem kB1_ap (c : Dev nD) (z : Fin 1) (k : Fin 240) : kB1 (V5 m ρ) c (ix2 z k) = karg3 m c (ix1 k) := kb1_apply m ρ c z k
theorem kW2_ap (c : Dev nD) (k : Fin 240) (o : Fin 40) : kW2 (V5 m ρ) c (ix2 k o) = karg4 m c (ix2 o k) := kw2_apply m ρ c k o
theorem kXt_ap (c : Dev nD) (n : Fin 32) (p : Fin 3136) (k : Fin 240) :
    kXt (V5 m ρ) c (ix3 n p k) = karg1 m c (ix4 n k (pixH p) (pixW p)) := kxt_apply m ρ c n p k

theorem gateK_eq (c : Dev nD) (n : Fin 32) (k : Fin 240) :
    gateK (V5 m ρ) c n k = gate (karg0 m c) (karg2 m c) (karg3 m c) n k := by
  unfold gateK gate
  rw [kB1_ap]
  refine congrArg (fun s => Ideal.logistic (s + karg3 m c (ix1 k))) ?_
  have e1 : (∑ q : Fin 128, kX63 (V5 m ρ) c (ix3 n (0 : Fin 1) q) * kW1 (V5 m ρ) c (ix2 q k))
      = ∑ j : Fin (10 + 118), (fun q : ℕ => if h : q < 128 then kX63 (V5 m ρ) c (ix3 n (0 : Fin 1) ⟨q, h⟩) * kW1 (V5 m ρ) c (ix2 ⟨q, h⟩ k) else 0) j.val :=
    Finset.sum_congr rfl fun j _ => by
      show _ = (if h : j.val < 128 then kX63 (V5 m ρ) c (ix3 n (0 : Fin 1) ⟨j.val, h⟩) * kW1 (V5 m ρ) c (ix2 ⟨j.val, h⟩ k) else 0)
      rw [dif_pos j.isLt]
  refine e1.trans ((Cert.ZeroPadSums.sum_zero_tail 10 118 (fun q : ℕ => if h : q < 128 then kX63 (V5 m ρ) c (ix3 n (0 : Fin 1) ⟨q, h⟩) * kW1 (V5 m ρ) c (ix2 ⟨q, h⟩ k) else 0) (fun j h1 h2 => by
    show (if h : j < 128 then kX63 (V5 m ρ) c (ix3 n (0 : Fin 1) ⟨j, h⟩) * kW1 (V5 m ρ) c (ix2 ⟨j, h⟩ k) else 0) = 0
    rw [dif_pos (by omega : j < 128), kX63_out m ρ c n 0 ⟨j, by omega⟩ h1, zero_mul])).trans ?_)
  refine Finset.sum_congr rfl fun q _ => ?_
  have hq : q.val < 128 := by have := q.isLt; omega
  show (if h : q.val < 128 then kX63 (V5 m ρ) c (ix3 n (0 : Fin 1) ⟨q.val, h⟩) * kW1 (V5 m ρ) c (ix2 ⟨q.val, h⟩ k) else 0) = _
  rw [dif_pos hq, kX63_in m ρ c n 0 ⟨q.val, hq⟩ q.isLt, kW1_in m ρ c ⟨q.val, hq⟩ q.isLt]

theorem yK_eq (c : Dev nD) (n : Fin 32) (p : Fin 3136) (o : Fin 40) :
    yK (V5 m ρ) c n p o = conv (karg0 m c) (karg1 m c) (karg2 m c) (karg3 m c) (karg4 m c) n p o := by
  unfold yK conv
  refine Finset.sum_congr rfl fun k _ => ?_
  rw [kXt_ap, kW2_ap, gateK_eq]

theorem GK6_apply (c : Dev nD) (z1 z2 : Fin 1) (o : Fin 40) : GK6 (V5 m ρ) c (ix3 z1 z2 o) = s1 (karg0 m c) (karg1 m c) (karg2 m c) (karg3 m c) (karg4 m c) o := by
  unfold GK6 s1
  show (∑ s ∈ Finset.range 32, A1 (V5 m ρ) c s o) = _
  rw [Finset.sum_range]
  refine Finset.sum_congr rfl fun n _ => ?_
  unfold A1
  rw [dif_pos n.isLt]
  exact Finset.sum_congr rfl fun p _ => yK_eq m ρ c n p o
theorem GK7_apply (c : Dev nD) (z1 z2 : Fin 1) (o : Fin 40) : GK7 (V5 m ρ) c (ix3 z1 z2 o) = s2 (karg0 m c) (karg1 m c) (karg2 m c) (karg3 m c) (karg4 m c) o := by
  unfold GK7 s2
  show (∑ s ∈ Finset.range 32, A2 (V5 m ρ) c s o) = _
  rw [Finset.sum_range]
  refine Finset.sum_congr rfl fun n _ => ?_
  unfold A2
  rw [dif_pos n.isLt]
  exact Finset.sum_congr rfl fun p _ => by rw [yK_eq m ρ c n p o]

theorem W7_arg5 (c : Dev nD) : W7 m ρ c (Proc.devRef .tc main_arg5) = W6 m ρ c (Proc.devRef .tc main_arg5) :=
  StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W6_arg5 (c : Dev nD) : (W6 m ρ c (Proc.devRef .tc main_arg5) : S40.Idx → EReal) = karg5 m c :=
  (W7_arg5 m ρ c).symm.trans ((W8_of_ne m ρ c main_arg5 (by decide)).symm.trans (W8_main_arg5 m ρ c))
theorem W7_arg6 (c : Dev nD) : W7 m ρ c (Proc.devRef .tc main_arg6) = W6 m ρ c (Proc.devRef .tc main_arg6) :=
  StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W6_arg6 (c : Dev nD) : (W6 m ρ c (Proc.devRef .tc main_arg6) : S40.Idx → EReal) = karg6 m c :=
  (W7_arg6 m ρ c).symm.trans ((W8_of_ne m ρ c main_arg6 (by decide)).symm.trans (W8_main_arg6 m ρ c))

theorem kYt_ap (c : Dev nD) (n : Fin 32) (o : Fin 40) (p : Fin 3136) :
    kYt (V7 m ρ) c (ix3 n o p) = conv (karg0 m c) (karg1 m c) (karg2 m c) (karg3 m c) (karg4 m c) n p o :=
  (kyt_apply m ρ c n o p).trans ((congrFun (W6_y m ρ c) (ix3 n p o)).trans (yK_eq m ρ c n p o))
theorem kSc_ap (c : Dev nD) (z1 : Fin 1) (o : Fin 40) (z2 : Fin 1) :
    kSc (V7 m ρ) c (ix3 z1 o z2) = scaleOf (karg5 m c (ix1 o)) (s1 (karg0 m c) (karg1 m c) (karg2 m c) (karg3 m c) (karg4 m c) o) (s2 (karg0 m c) (karg1 m c) (karg2 m c) (karg3 m c) (karg4 m c) o) := by
  refine (ksc_apply m ρ c z1 o z2).trans ?_
  rw [W6_s1, W6_s2, W6_arg5, GK6_apply, GK7_apply]
theorem kSh_ap (c : Dev nD) (z1 : Fin 1) (o : Fin 40) (z2 : Fin 1) :
    kSh (V7 m ρ) c (ix3 z1 o z2) = shiftOf (karg5 m c (ix1 o)) (karg6 m c (ix1 o)) (s1 (karg0 m c) (karg1 m c) (karg2 m c) (karg3 m c) (karg4 m c) o) (s2 (karg0 m c) (karg1 m c) (karg2 m c) (karg3 m c) (karg4 m c) o) := by
  refine (ksh_apply m ρ c z1 o z2).trans ?_
  rw [W6_s1, W6_s2, W6_arg5, W6_arg6, GK6_apply, GK7_apply]

/-- THE KERNEL'S RESULT. -/
theorem ker_value (c : Dev nD) :
    (W8 m ρ c (Proc.devRef .tc main_v31) : S32x40x56x56.Idx → EReal) = G (karg0 m c) (karg1 m c) (karg2 m c) (karg3 m c) (karg4 m c) (karg5 m c) (karg6 m c) := by
  funext i
  obtain ⟨n, o, h, w, rfl⟩ : ∃ (n : Fin 32) (o : Fin 40) (h w : Fin 56), i = ix4 n o h w := ⟨i 0, i 1, i 2, i 3, eq_ix4 i⟩
  rw [W8_out]
  show kYt (V7 m ρ) c (ix3 n o (pixP h w)) * kSc (V7 m ρ) c (ix3 (0 : Fin 1) o (0 : Fin 1)) + kSh (V7 m ρ) c (ix3 (0 : Fin 1) o (0 : Fin 1)) = _
  rw [kYt_ap, kSc_ap, kSh_ap]
  rfl

end Cert.KernelIdeal.Hand

end
-- ==== Proof.RefShared0.lean ====
import proofs.«134701_g2000104339650780_pallasbulk_589_17_alg».proof.Proof.Gen.ReferenceIdeal.Launch
import proofs.«134701_g2000104339650780_pallasbulk_589_17_alg».proof.Proof.Gen.ReferenceIdeal.Skeleton
import proofs.«134701_g2000104339650780_pallasbulk_589_17_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first launch of the reference (statistics pass): what its runs share

The grid is 32 batch entries by 7 row tiles, walked row-major: point `t` is batch entry `t / 7`, tile `t % 7`.
The body resets the two statistic rows at the very first point, recomputes the scaled weight table (kept in a
buffer of the kernel's own between points) at the first tile of every batch entry, and at every point multiplies
its tile of rows by that table and adds the tile's column sums and column sums of squares to the statistic rows. -/

section Region0
-- the buffer contents when the launch is entered
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Region0

/-- The statistic rows are reset exactly when both coordinates are zero. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- The scaled weight table is recomputed exactly at a batch entry's first tile. -/
abbrev cond0_1 (i : grid0.Coords) : Prop := (Scalar.cmpi .ne (Scalar.extui (Scalar.cmpi .eq (BitVec.ofNat 32 (i 1).val) 0#32)) 0#32) = 1#1
theorem hcond0_1 : ∀ t : Fin cfg0.N, cond0_1 (grid0.coords t) ↔ t.val % 7 = 0 :=
  (by decide +kernel : ∀ t : Fin grid0.N, cond0_1 (grid0.coords t) ↔ t.val % 7 = 0)

/-- One staging buffer of each output window, through which its contents are stated. -/
abbrev VO0_5 : View sig .tc .vmem S1x512x128 .f32 := (Memref.whole cc0_stg5_0 : Memref sig .tc .vmem S1x512x128 .f32).view
abbrev VO0_6 : View sig .tc .vmem S1x128 .f32 := (Memref.whole cc0_stg6_0 : Memref sig .tc .vmem S1x128 .f32).view
abbrev VO0_7 : View sig .tc .vmem S1x128 .f32 := (Memref.whole cc0_stg7_0 : Memref sig .tc .vmem S1x128 .f32).view
abbrev ms0_0 (t : Fin cfg0.N) : Memref sig .tc .vmem S1x1x10 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x10 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
/-- The buffer of the kernel's own that keeps the scaled weight table between points. -/
abbrev scM0_0 : Memref sig .tc .vmem S256x128 .f32 := Memref.whole cc0_scratch0
abbrev VS0_0 : View sig .tc .vmem S256x128 .f32 := scM0_0.view

end Cert.ReferenceIdeal.Hand

end
-- ==== Proof.RefRun0A.lean ====
import proofs.«134701_g2000104339650780_pallasbulk_589_17_alg».proof.Proof.RefShared0

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the statistics pass's body leaves in each output's buffer (and in the kept table), as the stores it makes,
    at the very first point: the statistic rows are reset and the scaled weight table is computed; with the proof that the body runs to its end from buffers holding the input blocks. -/
noncomputable def kernelRun0_A (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : cond0_0 i) (hc1 : cond0_1 i)
    (x0 : Vec F S1x1x10 .f32) (x1 : Vec F S256x10 .f32) (x2 : Vec F S256x1 .f32) (x3 : Vec F S1x512x256 .f32) (x4 : Vec F S256x128 .f32) :
    Σ' (L5 : List (View.Piece (Elt F) S1x512x128 .f32)), Σ' (L6 : List (View.Piece (Elt F) S1x128 .f32)), Σ' (L7 : List (View.Piece (Elt F) S1x128 .f32)), { LS0 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0_se_conv_stats_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_se_conv_stats_kernel_eq_skeleton]; unfold cc0_se_conv_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact HS

end Cert.ReferenceIdeal.Hand

end
-- ==== Proof.RefRun0B.lean ====
import proofs.«134701_g2000104339650780_pallasbulk_589_17_alg».proof.Proof.RefRun0A

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the statistics pass's body leaves in each output's buffer (and in the kept table), as the stores it makes,
    at the first tile of a later batch entry: the scaled weight table is recomputed, the statistic rows carry on; with the proof that the body runs to its end from buffers holding the input blocks. -/
noncomputable def kernelRun0_B (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : ¬cond0_0 i) (hc1 : cond0_1 i)
    (x0 : Vec F S1x1x10 .f32) (x1 : Vec F S256x10 .f32) (x2 : Vec F S256x1 .f32) (x3 : Vec F S1x512x256 .f32) (x4 : Vec F S256x128 .f32) (xo6 : Vec F S1x128 .f32) (xo7 : Vec F S1x128 .f32) :
    Σ' (L5 : List (View.Piece (Elt F) S1x512x128 .f32)), Σ' (L6 : List (View.Piece (Elt F) S1x128 .f32)), Σ' (L7 : List (View.Piece (Elt F) S1x128 .f32)), { LS0 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xo6 ∗ owns (c : Thread nD τ) arg9 fullShare xo7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0_se_conv_stats_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_se_conv_stats_kernel_eq_skeleton]; unfold cc0_se_conv_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact HS

end Cert.ReferenceIdeal.Hand

end
-- ==== Proof.RefRun0C.lean ====
import proofs.«134701_g2000104339650780_pallasbulk_589_17_alg».proof.Proof.RefRun0B

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the statistics pass's body leaves in each output's buffer (and in the kept table), as the stores it makes,
    at a later tile of a batch entry: the scaled weight table and the statistic rows carry on; with the proof that the body runs to its end from buffers holding the input blocks. -/
noncomputable def kernelRun0_C (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : ¬cond0_0 i) (hc1 : ¬cond0_1 i)
    (x0 : Vec F S1x1x10 .f32) (x1 : Vec F S256x10 .f32) (x2 : Vec F S256x1 .f32) (x3 : Vec F S1x512x256 .f32) (x4 : Vec F S256x128 .f32) (xo6 : Vec F S1x128 .f32) (xo7 : Vec F S1x128 .f32) (xs0 : Vec F S256x128 .f32) :
    Σ' (L5 : List (View.Piece (Elt F) S1x512x128 .f32)), Σ' (L6 : List (View.Piece (Elt F) S1x128 .f32)), { L7 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xo6 ∗ owns (c : Thread nD τ) arg9 fullShare xo7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0) -∗ K ⟨⟩))
          ⊢ wp frame (wpE (defs₀ (F := F)) Variants.none c none) E (cc0_se_conv_stats_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0_se_conv_stats_kernel_eq_skeleton]; unfold cc0_se_conv_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; isplitr; · ipureintro; exact harg10.read_unread _
    iexact HS

end Cert.ReferenceIdeal.Hand

end
-- ==== Proof.RefFrame0.lean ====
import proofs.«134701_g2000104339650780_pallasbulk_589_17_alg».proof.Proof.RefRun0C

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics pass: what every buffer holds after every point, and the body's obligation

After point `t` the tile output holds the tile's product, the two statistic rows hold the running sums
over all tiles met so far, and the kept table holds the weight table scaled for the current batch entry. -/

theorem cover0_A_5 (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : cond0_0 i) (hc1 : cond0_1 i)
    (x0 : Vec F S1x1x10 .f32) (x1 : Vec F S256x10 .f32) (x2 : Vec F S256x1 .f32) (x3 : Vec F S1x512x256 .f32) (x4 : Vec F S256x128 .f32) (y : S1x512x128.Idx) :
    ∃ pc ∈ (kernelRun0_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).1 S1x512x128.size (by sl_kernel_rfl) y

def out0_A_5 (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : cond0_0 i) (hc1 : cond0_1 i)
    (x0 : Vec F S1x1x10 .f32) (x1 : Vec F S256x10 .f32) (x2 : Vec F S256x1 .f32) (x3 : Vec F S1x512x256 .f32) (x4 : Vec F S256x128 .f32) : Vec F S1x512x128 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 x0 x1 x2 x3 x4).1)

theorem cover0_A_6 (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : cond0_0 i) (hc1 : cond0_1 i)
    (x0 : Vec F S1x1x10 .f32) (x1 : Vec F S256x10 .f32) (x2 : Vec F S256x1 .f32) (x3 : Vec F S1x512x256 .f32) (x4 : Vec F S256x128 .f32) (y : S1x128.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.1 S1x128.size (by sl_kernel_rfl) y

def out0_A_6 (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : cond0_0 i) (hc1 : cond0_1 i)
    (x0 : Vec F S1x1x10 .f32) (x1 : Vec F S256x10 .f32) (x2 : Vec F S256x1 .f32) (x3 : Vec F S1x512x256 .f32) (x4 : Vec F S256x128 .f32) : Vec F S1x128 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4).2.1)

theorem cover0_A_7 (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : cond0_0 i) (hc1 : cond0_1 i)
    (x0 : Vec F S1x1x10 .f32) (x1 : Vec F S256x10 .f32) (x2 : Vec F S256x1 .f32) (x3 : Vec F S1x512x256 .f32) (x4 : Vec F S256x128 .f32) (y : S1x128.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.1 S1x128.size (by sl_kernel_rfl) y

def out0_A_7 (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : cond0_0 i) (hc1 : cond0_1 i)
    (x0 : Vec F S1x1x10 .f32) (x1 : Vec F S256x10 .f32) (x2 : Vec F S256x1 .f32) (x3 : Vec F S1x512x256 .f32) (x4 : Vec F S256x128 .f32) : Vec F S1x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3 x4).2.2.1)

theorem cover0_B_5 (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : ¬cond0_0 i) (hc1 : cond0_1 i)
    (x0 : Vec F S1x1x10 .f32) (x1 : Vec F S256x10 .f32) (x2 : Vec F S256x1 .f32) (x3 : Vec F S1x512x256 .f32) (x4 : Vec F S256x128 .f32) (xo6 : Vec F S1x128 .f32) (xo7 : Vec F S1x128 .f32) (y : S1x512x128.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xo6 xo7).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xo6 xo7).1 S1x512x128.size (by sl_kernel_rfl) y

def out0_B_5 (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : ¬cond0_0 i) (hc1 : cond0_1 i)
    (x0 : Vec F S1x1x10 .f32) (x1 : Vec F S256x10 .f32) (x2 : Vec F S256x1 .f32) (x3 : Vec F S1x512x256 .f32) (x4 : Vec F S256x128 .f32) (xo6 : Vec F S1x128 .f32) (xo7 : Vec F S1x128 .f32) : Vec F S1x512x128 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 hc0 hc1 x0 x1 x2 x3 x4 xo6 xo7).1)

theorem cover0_B_6 (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : ¬cond0_0 i) (hc1 : cond0_1 i)
    (x0 : Vec F S1x1x10 .f32) (x1 : Vec F S256x10 .f32) (x2 : Vec F S256x1 .f32) (x3 : Vec F S1x512x256 .f32) (x4 : Vec F S256x128 .f32) (xo6 : Vec F S1x128 .f32) (xo7 : Vec F S1x128 .f32) (y : S1x128.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xo6 xo7).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xo6 xo7).2.1 S1x128.size (by sl_kernel_rfl) y

def out0_B_6 (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : ¬cond0_0 i) (hc1 : cond0_1 i)
    (x0 : Vec F S1x1x10 .f32) (x1 : Vec F S256x10 .f32) (x2 : Vec F S256x1 .f32) (x3 : Vec F S1x512x256 .f32) (x4 : Vec F S256x128 .f32) (xo6 : Vec F S1x128 .f32) (xo7 : Vec F S1x128 .f32) : Vec F S1x128 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 xo6 xo7).2.1)

theorem cover0_B_7 (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : ¬cond0_0 i) (hc1 : cond0_1 i)
    (x0 : Vec F S1x1x10 .f32) (x1 : Vec F S256x10 .f32) (x2 : Vec F S256x1 .f32) (x3 : Vec F S1x512x256 .f32) (x4 : Vec F S256x128 .f32) (xo6 : Vec F S1x128 .f32) (xo7 : Vec F S1x128 .f32) (y : S1x128.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xo6 xo7).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xo6 xo7).2.2.1 S1x128.size (by sl_kernel_rfl) y

def out0_B_7 (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : ¬cond0_0 i) (hc1 : cond0_1 i)
    (x0 : Vec F S1x1x10 .f32) (x1 : Vec F S256x10 .f32) (x2 : Vec F S256x1 .f32) (x3 : Vec F S1x512x256 .f32) (x4 : Vec F S256x128 .f32) (xo6 : Vec F S1x128 .f32) (xo7 : Vec F S1x128 .f32) : Vec F S1x128 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 x0 x1 x2 x3 x4 xo6 xo7).2.2.1)

theorem cover0_C_5 (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : ¬cond0_0 i) (hc1 : ¬cond0_1 i)
    (x0 : Vec F S1x1x10 .f32) (x1 : Vec F S256x10 .f32) (x2 : Vec F S256x1 .f32) (x3 : Vec F S1x512x256 .f32) (x4 : Vec F S256x128 .f32) (xo6 : Vec F S1x128 .f32) (xo7 : Vec F S1x128 .f32) (xs0 : Vec F S256x128 .f32) (y : S1x512x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xo6 xo7 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xo6 xo7 xs0).1 S1x512x128.size (by sl_kernel_rfl) y

def out0_C_5 (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : ¬cond0_0 i) (hc1 : ¬cond0_1 i)
    (x0 : Vec F S1x1x10 .f32) (x1 : Vec F S256x10 .f32) (x2 : Vec F S256x1 .f32) (x3 : Vec F S1x512x256 .f32) (x4 : Vec F S256x128 .f32) (xo6 : Vec F S1x128 .f32) (xo7 : Vec F S1x128 .f32) (xs0 : Vec F S256x128 .f32) : Vec F S1x512x128 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 x4 xo6 xo7 xs0).1)

theorem cover0_C_6 (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : ¬cond0_0 i) (hc1 : ¬cond0_1 i)
    (x0 : Vec F S1x1x10 .f32) (x1 : Vec F S256x10 .f32) (x2 : Vec F S256x1 .f32) (x3 : Vec F S1x512x256 .f32) (x4 : Vec F S256x128 .f32) (xo6 : Vec F S1x128 .f32) (xo7 : Vec F S1x128 .f32) (xs0 : Vec F S256x128 .f32) (y : S1x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xo6 xo7 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xo6 xo7 xs0).2.1 S1x128.size (by sl_kernel_rfl) y

def out0_C_6 (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : ¬cond0_0 i) (hc1 : ¬cond0_1 i)
    (x0 : Vec F S1x1x10 .f32) (x1 : Vec F S256x10 .f32) (x2 : Vec F S256x1 .f32) (x3 : Vec F S1x512x256 .f32) (x4 : Vec F S256x128 .f32) (xo6 : Vec F S1x128 .f32) (xo7 : Vec F S1x128 .f32) (xs0 : Vec F S256x128 .f32) : Vec F S1x128 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 xo6 xo7 xs0).2.1)

theorem cover0_C_7 (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : ¬cond0_0 i) (hc1 : ¬cond0_1 i)
    (x0 : Vec F S1x1x10 .f32) (x1 : Vec F S256x10 .f32) (x2 : Vec F S256x1 .f32) (x3 : Vec F S1x512x256 .f32) (x4 : Vec F S256x128 .f32) (xo6 : Vec F S1x128 .f32) (xo7 : Vec F S1x128 .f32) (xs0 : Vec F S256x128 .f32) (y : S1x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xo6 xo7 xs0).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xo6 xo7 xs0).2.2.1 S1x128.size (by sl_kernel_rfl) y

def out0_C_7 (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : ¬cond0_0 i) (hc1 : ¬cond0_1 i)
    (x0 : Vec F S1x1x10 .f32) (x1 : Vec F S256x10 .f32) (x2 : Vec F S256x1 .f32) (x3 : Vec F S1x512x256 .f32) (x4 : Vec F S256x128 .f32) (xo6 : Vec F S1x128 .f32) (xo7 : Vec F S1x128 .f32) (xs0 : Vec F S256x128 .f32) : Vec F S1x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 xo6 xo7 xs0).2.2.1)

theorem scover0_A_0 (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : cond0_0 i) (hc1 : cond0_1 i)
    (x0 : Vec F S1x1x10 .f32) (x1 : Vec F S256x10 .f32) (x2 : Vec F S256x1 .f32) (x3 : Vec F S1x512x256 .f32) (x4 : Vec F S256x128 .f32) (y : S256x128.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.2.1 S256x128.size (by sl_kernel_rfl) y

def sout0_A_0 (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : cond0_0 i) (hc1 : cond0_1 i)
    (x0 : Vec F S1x1x10 .f32) (x1 : Vec F S256x10 .f32) (x2 : Vec F S256x1 .f32) (x3 : Vec F S1x512x256 .f32) (x4 : Vec F S256x128 .f32) : Vec F S256x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4).2.2.2.1)

theorem scover0_B_0 (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : ¬cond0_0 i) (hc1 : cond0_1 i)
    (x0 : Vec F S1x1x10 .f32) (x1 : Vec F S256x10 .f32) (x2 : Vec F S256x1 .f32) (x3 : Vec F S1x512x256 .f32) (x4 : Vec F S256x128 .f32) (xo6 : Vec F S1x128 .f32) (xo7 : Vec F S1x128 .f32) (y : S256x128.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xo6 xo7).2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xo6 xo7).2.2.2.1 S256x128.size (by sl_kernel_rfl) y

def sout0_B_0 (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : ¬cond0_0 i) (hc1 : cond0_1 i)
    (x0 : Vec F S1x1x10 .f32) (x1 : Vec F S256x10 .f32) (x2 : Vec F S256x1 .f32) (x3 : Vec F S1x512x256 .f32) (x4 : Vec F S256x128 .f32) (xo6 : Vec F S1x128 .f32) (xo7 : Vec F S1x128 .f32) : Vec F S256x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 xo6 xo7).2.2.2.1)

section Region0
variable (V : (c : Dev nD) → (b : Ref sig .tc) → Buf (Elt F) ((c : Thread nD τ).loc b))

/-- THE ACCUMULATION: the three outputs' buffers and the kept table after the body at position `n`. -/
def outsAt0 (c : Dev nD) : (n : ℕ) → n < cfg0.N → Vec F S1x512x128 .f32 × Vec F S1x128 .f32 × Vec F S1x128 .f32 × Vec F S256x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr rfl) ((hcond0_1 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩),
        out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr rfl) ((hcond0_1 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩),
        out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr rfl) ((hcond0_1 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩),
        sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr rfl) ((hcond0_1 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : (n + 1) % 7 = 0 then
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1,
        out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1,
        out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1)
    else
      (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2,
        out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2,
        out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2.1 (outsAt0 c n (Nat.lt_of_succ_lt hn)).2.2.2,
        (outsAt0 c n (Nat.lt_of_succ_lt hn)).2.2.2)

theorem outsAt0_A (c : Dev nD) (t : Fin cfg0.N) (hz : t.val = 0) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr hz) ((hcond0_1 t).mpr (by rw [hz])) (iblk0 V c 0 t) (iblk0 V c 1 t) (iblk0 V c 2 t) (iblk0 V c 3 t) (iblk0 V c 4 t),
        out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr hz) ((hcond0_1 t).mpr (by rw [hz])) (iblk0 V c 0 t) (iblk0 V c 1 t) (iblk0 V c 2 t) (iblk0 V c 3 t) (iblk0 V c 4 t),
        out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr hz) ((hcond0_1 t).mpr (by rw [hz])) (iblk0 V c 0 t) (iblk0 V c 1 t) (iblk0 V c 2 t) (iblk0 V c 3 t) (iblk0 V c 4 t),
        sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr hz) ((hcond0_1 t).mpr (by rw [hz])) (iblk0 V c 0 t) (iblk0 V c 1 t) (iblk0 V c 2 t) (iblk0 V c 3 t) (iblk0 V c 4 t)) := by
  obtain ⟨n, hn⟩ := t
  cases n with
  | zero => exact rfl
  | succ n => exact absurd hz (Nat.succ_ne_zero n)

theorem outsAt0_B (c : Dev nD) (t : Fin cfg0.N) (hz : ¬t.val = 0) (h1 : t.val % 7 = 0) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => hz ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1,
        out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => hz ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1,
        out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => hz ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1,
        sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => hz ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1) := by
  obtain ⟨n, hn⟩ := t
  cases n with
  | zero => exact absurd rfl hz
  | succ n => exact (dif_pos h1).trans rfl

theorem outsAt0_C (c : Dev nD) (t : Fin cfg0.N) (hz : ¬t.val = 0) (h1 : ¬t.val % 7 = 0) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => hz ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2,
        out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => hz ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2,
        out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => hz ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2,
        (outsAt0 V c (t.val - 1) (Nat.lt_of_le_of_lt (Nat.sub_le _ _) t.isLt)).2.2.2) := by
  obtain ⟨n, hn⟩ := t
  cases n with
  | zero => exact absurd rfl hz
  | succ n => exact (dif_neg h1).trans rfl

/-- The other launch's staging buffers: scoped buffers this launch never touches, each at some contents. -/
abbrev restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The launch's own invariant with the kept table named as a memref owned at some contents. -/
theorem PhiA0_eq (c : Dev nD) :
    (Pipeline.ΦA spec0 c : sProp 𝕄)
      = iprop(iprop((∃ d, owns (c : Thread nD τ) scM0_0 fullShare d) ∗ restS (F := F) c) ∗ (∃ r, prngReg c r)) := by
  unfold Pipeline.ΦA; rw [scopedRest0_eq]; simp only [scM0_0, owns_whole]; try rfl

/-- The invariant before position `n`: before the first point every scoped buffer at anything; afterwards the kept
    table at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2) ∗ restS (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2) ∗ restS (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2) ∗ restS (F := F) c) ∗ (∃ r, prngReg c r)) := by
  cases n with
  | zero => exact absurd rfl hz
  | succ n => rfl

/-- The proof data of the statistics pass on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- At a point other than the first a statistic row's buffer holds what the point before left: it is written back
    only after the last point. -/
theorem before0_6_kept (c : Dev nD) (t : Fin cfg0.N) (hz : ¬t.val = 0) (d) :
    (dat0 V c).before 6 t d = (outsAt0 V c (t.val - 1) (Nat.lt_of_le_of_lt (Nat.sub_le _ _) t.isLt)).2.1 := by
  have hN : t.val < 224 := lt_of_lt_of_eq t.isLt (show cfg0.N = 224 from N_0)
  rw [Dat.before_out_kept _ 6 rfl t (by omega) (Bool.eq_false_iff.mpr fun h => by have := (flush0_6 _).mp h; dsimp only at this; omega)
    (fun _ => rfl) (fun _ _ => rfl)]
  dsimp only [dat0]
theorem before0_7_kept (c : Dev nD) (t : Fin cfg0.N) (hz : ¬t.val = 0) (d) :
    (dat0 V c).before 7 t d = (outsAt0 V c (t.val - 1) (Nat.lt_of_le_of_lt (Nat.sub_le _ _) t.isLt)).2.2.1 := by
  have hN : t.val < 224 := lt_of_lt_of_eq t.isLt (show cfg0.N = 224 from N_0)
  rw [Dat.before_out_kept _ 7 rfl t (by omega) (Bool.eq_false_iff.mpr fun h => by have := (flush0_7 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

end Region0

end Cert.ReferenceIdeal.Hand

end
-- ==== Proof.RefBody0.lean ====
import proofs.«134701_g2000104339650780_pallasbulk_589_17_alg».proof.Proof.RefFrame0

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics pass: the body's obligation at a generic point -/

section Region0
variable (V : (c : Dev nD) → (b : Ref sig .tc) → Buf (Elt F) ((c : Thread nD τ).loc b))

set_option maxHeartbeats 4800000 in
/-- The body at any point: the inputs' buffers hold their blocks; the two closed forms say which of the three cases
    the point is in; the statistic rows hold what the point before left; the invariant hands over the kept table at
    what the point before left and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = PhiS V c (t.val + 1) t.isLt from rfl, PhiS_succ,
    after0_0, after0_1, after0_2, after0_3, after0_4, after0_5, after0_6, after0_7]
  have hN : t.val < 224 := lt_of_lt_of_eq t.isLt (show cfg0.N = 224 from N_0)
  by_cases h1 : t.val % 7 = 0
  · by_cases hz : t.val = 0
    ·
      rw [outsAt0_A V c t hz]
      unfold out0_A_5 out0_A_6 out0_A_7 sout0_A_0; (try dsimp only)
      rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr hz) ((hcond0_1 t).mpr h1) (iblk0 V c 0 t) (iblk0 V c 1 t) (iblk0 V c 2 t) (iblk0 V c 3 t) (iblk0 V c 4 t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      iintro ⟨H0, H1, H2, H3, H4, ⟨%e5, H5⟩, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
    ·
      rw [outsAt0_B V c t hz h1]
      simp only [before0_6_kept V c t hz, before0_7_kept V c t hz]
      unfold out0_B_5 out0_B_6 out0_B_7 sout0_B_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => hz ((hcond0_0 t).mp h)) ((hcond0_1 t).mpr h1) (iblk0 V c 0 t) (iblk0 V c 1 t) (iblk0 V c 2 t) (iblk0 V c 3 t) (iblk0 V c 4 t) _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexists _; iexact HS0
      iintro ⟨H0, H1, H2, H3, H4, ⟨%e5, H5⟩, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _ _)
  · have hz : ¬t.val = 0 := fun h => h1 (by rw [h])
    ·
      rw [outsAt0_C V c t hz h1]
      simp only [before0_6_kept V c t hz, before0_7_kept V c t hz]
      unfold out0_C_5 out0_C_6 out0_C_7; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ (fun h => hz ((hcond0_0 t).mp h)) (fun h => h1 ((hcond0_1 t).mp h)) (iblk0 V c 0 t) (iblk0 V c 1 t) (iblk0 V c 2 t) (iblk0 V c 3 t) (iblk0 V c 4 t) _ _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      iintro ⟨H0, H1, H2, H3, H4, ⟨%e5, H5⟩, ⟨%e6, H6⟩, ⟨%e7, H7⟩, HS0⟩
      isplitl [HS0 HR Hg]
      · isplitl [HS0 HR]
        · isplitl [HS0]
          · iexact HS0
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 224 := N_0; omega)

end Region0

end Cert.ReferenceIdeal.Hand

end
-- ==== Proof.RefFrame1.lean ====
import proofs.«134701_g2000104339650780_pallasbulk_589_17_alg».proof.Proof.RefShared0

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second launch of the reference (normalisation pass)

224 points, one tile of 512 rows each; the body multiplies its tile by the scale row and adds the shift row,
storing the whole tile once. -/

section Region1
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads and stores through: each a whole buffer. -/
abbrev r1_0 : Rect S512x128 := Rect.unit (s := S512x128) ![0, 0] S512x128.size inb_S512x128_S512x128_0_0
abbrev r1_1 : Rect S1x128 := Rect.unit (s := S1x128) ![0, 0] S1x128.size inb_S1x128_S1x128_0_0

/-- The output tile after the body, from the input blocks: its one store. -/
def out1_3 (x0 : Vec F S512x128 .f32) (x1 : Vec F S1x128 .f32) (x2 : Vec F S1x128 .f32) : Vec F S512x128 .f32 :=
  View.canon [⟨r1_0, k1_pay1 (View.ld x0 r1_0) (View.ld x1 r1_1) (View.ld x2 r1_1)⟩]

theorem cover1_3 (p0 : Vec F S512x128 .f32) (y : S512x128.Idx) :
    ∃ pc ∈ ([⟨r1_0, p0⟩] : List (View.Piece (Elt F) S512x128 .f32)), y ∈ pc.1.set :=
  View.cover_of_tiled [⟨r1_0, p0⟩] S512x128.size (by rfl) y

set_option maxHeartbeats 1000000 in
/-- The body on whole staging memrefs runs to its end, leaving the inputs as they were and the output at `out1_3`. -/
theorem sound_kernel1 (c : Dev nD) (E : Set ℕ) (i : grid1.Coords) (arg1 : Memref sig .tc .vmem S512x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S512x128 .f32) (harg4 : arg4.IsWhole)
    (x0 : Vec F S512x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_bn_apply_kernel i arg1 harg1 arg2 harg2 arg3 harg3 arg4 harg4) K := by
  simp only [cc1_bn_apply_kernel_eq_skeleton]; unfold cc1_bn_apply_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-- The proof data of the normalisation pass on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Region1

end Cert.ReferenceIdeal.Hand

end
-- ==== Proof.RefRun.lean ====
import proofs.«134701_g2000104339650780_pallasbulk_589_17_alg».proof.Proof.RefBody0
import proofs.«134701_g2000104339650780_pallasbulk_589_17_alg».proof.Proof.RefFrame1
import proofs.«134701_g2000104339650780_pallasbulk_589_17_alg».proof.Proof.Gen.ReferenceIdeal.Regions

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the reference's @main

Thirteen stretches of host operations lay the operands out (transposes, reshapes, zero padding), the statistics pass
runs, a stretch of host operations turns the two statistic rows into the scale and shift rows, the normalisation pass
runs, and a last stretch cuts the padding off and lays the result out. The buffer contents at every boundary are a fold
from the launch memory; the last one is read against the final state. -/

variable (m : (ℓ : Loc nD τ sig) → Buf (Elt F) ℓ) (ρ : Dev nD → PrngReg)

/-- What the statistics pass is entered from, read at the core's references. -/
abbrev E0 : (c : Dev nD) → (b : Ref sig .tc) → Buf (Elt F) ((c : Thread nD τ).loc b) := fun c b => V13 m c b
/-- At its exit: its arrays at what the write-backs leave, every other buffer as entered. -/
def W14 (c : Dev nD) : Valuation τ sig (Elt F) :=
  Pipeline.withArrays spec0 c (V13 m c) fun w => (dat0 (E0 m) c).arrAt w cfg0.N
theorem W14_arr (c : Dev nD) (w : Fin cfg0.W) :
    W14 m c (Proc.devRef .tc (Pipeline.arrRef spec0 w)) = (dat0 (E0 m) c).arrAt w cfg0.N := by
  unfold W14; exact Pipeline.withArrays_arr spec0 launch0.win.arr_inj c _ _ w
theorem W14_of_ne (c : Dev nD) (b : Ref sig .tc) (hb : ∀ w, Pipeline.arrRef spec0 w ≠ b) :
    W14 m c (Proc.devRef .tc b) = V13 m c (Proc.devRef .tc b) := by
  unfold W14; exact Pipeline.withArrays_of_ne spec0 c _ _ b hb
abbrev X14 : (c : Dev nD) → (b : Ref sig .tc) → Buf (Elt F) ((c : Thread nD τ).loc b) := fun c b => W14 m c b
theorem hF0 (c : Dev nD) (w : Fin cfg0.W) : (dat0 (E0 m) c).arrAt w cfg0.N = X14 m c (Pipeline.arrRef spec0 w) :=
  (W14_arr m c w).symm
theorem hrest0 (c : Dev nD) : ∀ b, b ∉ Finset.univ.image (Pipeline.arrRef spec0) → X14 m c b = E0 m c b :=
  fun b hb => W14_of_ne m c b fun w e => hb (Finset.mem_image.mpr ⟨w, Finset.mem_univ _, e⟩)

/-- After the statistic arithmetic (what the normalisation pass is entered from). -/
abbrev W15 : Dev nD → Valuation τ sig (Elt F) := fun c => StableHlo.after hostOps1 (W14 m c)
abbrev E1 : (c : Dev nD) → (b : Ref sig .tc) → Buf (Elt F) ((c : Thread nD τ).loc b) := fun c b => W15 m c b
def W16 (c : Dev nD) : Valuation τ sig (Elt F) :=
  Pipeline.withArrays spec1 c (W15 m c) fun w => (dat1 (E1 m) c).arrAt w cfg1.N
theorem W16_arr (c : Dev nD) (w : Fin cfg1.W) :
    W16 m c (Proc.devRef .tc (Pipeline.arrRef spec1 w)) = (dat1 (E1 m) c).arrAt w cfg1.N := by
  unfold W16; exact Pipeline.withArrays_arr spec1 launch1.win.arr_inj c _ _ w
theorem W16_of_ne (c : Dev nD) (b : Ref sig .tc) (hb : ∀ w, Pipeline.arrRef spec1 w ≠ b) :
    W16 m c (Proc.devRef .tc b) = W15 m c (Proc.devRef .tc b) := by
  unfold W16; exact Pipeline.withArrays_of_ne spec1 c _ _ b hb
abbrev X16 : (c : Dev nD) → (b : Ref sig .tc) → Buf (Elt F) ((c : Thread nD τ).loc b) := fun c b => W16 m c b
theorem hF1 (c : Dev nD) (w : Fin cfg1.W) : (dat1 (E1 m) c).arrAt w cfg1.N = X16 m c (Pipeline.arrRef spec1 w) :=
  (W16_arr m c w).symm
theorem hrest1 (c : Dev nD) : ∀ b, b ∉ Finset.univ.image (Pipeline.arrRef spec1) → X16 m c b = E1 m c b :=
  fun b hb => W16_of_ne m c b fun w e => hb (Finset.mem_image.mpr ⟨w, Finset.mem_univ _, e⟩)
/-- After the last stretch: the contents the final state is read against. -/
abbrev W17 : Dev nD → Valuation τ sig (Elt F) := fun c => StableHlo.after hostOps2 (W16 m c)

/-! The arguments end as launched: no host operation and no launch writes one. -/
theorem W17_main_arg0 (c : Dev nD) : W17 m c (Proc.devRef .tc main_arg0) = m ((c : Thread nD τ).loc main_arg0) :=
  calc W17 m c (Proc.devRef .tc main_arg0)
    _ = W16 m c (Proc.devRef .tc main_arg0) := StableHlo.after_of_writes_sub hostOps2 _ hostOps2_writes (by decide)
    _ = W15 m c (Proc.devRef .tc main_arg0) := W16_of_ne m c main_arg0 (by decide)
    _ = W14 m c (Proc.devRef .tc main_arg0) := StableHlo.after_of_writes_sub hostOps1 _ hostOps1_writes (by decide)
    _ = V13 m c (Proc.devRef .tc main_arg0) := W14_of_ne m c main_arg0 (by decide)
    _ = V12 m c (Proc.devRef .tc main_arg0) := V13_of m c main_arg0 (by decide)
    _ = V11 m c (Proc.devRef .tc main_arg0) := V12_of m c main_arg0 (by decide)
    _ = V10 m c (Proc.devRef .tc main_arg0) := V11_of m c main_arg0 (by decide)
    _ = V9 m c (Proc.devRef .tc main_arg0) := V10_of m c main_arg0 (by decide)
    _ = V8 m c (Proc.devRef .tc main_arg0) := V9_of m c main_arg0 (by decide)
    _ = V7 m c (Proc.devRef .tc main_arg0) := V8_of m c main_arg0 (by decide)
    _ = V6 m c (Proc.devRef .tc main_arg0) := V7_of m c main_arg0 (by decide)
    _ = V5 m c (Proc.devRef .tc main_arg0) := V6_of m c main_arg0 (by decide)
    _ = V4 m c (Proc.devRef .tc main_arg0) := V5_of m c main_arg0 (by decide)
    _ = V3 m c (Proc.devRef .tc main_arg0) := V4_of m c main_arg0 (by decide)
    _ = V2 m c (Proc.devRef .tc main_arg0) := V3_of m c main_arg0 (by decide)
    _ = V1 m c (Proc.devRef .tc main_arg0) := V2_of m c main_arg0 (by decide)
    _ = V0 m c (Proc.devRef .tc main_arg0) := V1_of m c main_arg0 (by decide)
    _ = m ((c : Thread nD τ).loc main_arg0) := rfl

theorem W17_main_arg1 (c : Dev nD) : W17 m c (Proc.devRef .tc main_arg1) = m ((c : Thread nD τ).loc main_arg1) :=
  calc W17 m c (Proc.devRef .tc main_arg1)
    _ = W16 m c (Proc.devRef .tc main_arg1) := StableHlo.after_of_writes_sub hostOps2 _ hostOps2_writes (by decide)
    _ = W15 m c (Proc.devRef .tc main_arg1) := W16_of_ne m c main_arg1 (by decide)
    _ = W14 m c (Proc.devRef .tc main_arg1) := StableHlo.after_of_writes_sub hostOps1 _ hostOps1_writes (by decide)
    _ = V13 m c (Proc.devRef .tc main_arg1) := W14_of_ne m c main_arg1 (by decide)
    _ = V12 m c (Proc.devRef .tc main_arg1) := V13_of m c main_arg1 (by decide)
    _ = V11 m c (Proc.devRef .tc main_arg1) := V12_of m c main_arg1 (by decide)
    _ = V10 m c (Proc.devRef .tc main_arg1) := V11_of m c main_arg1 (by decide)
    _ = V9 m c (Proc.devRef .tc main_arg1) := V10_of m c main_arg1 (by decide)
    _ = V8 m c (Proc.devRef .tc main_arg1) := V9_of m c main_arg1 (by decide)
    _ = V7 m c (Proc.devRef .tc main_arg1) := V8_of m c main_arg1 (by decide)
    _ = V6 m c (Proc.devRef .tc main_arg1) := V7_of m c main_arg1 (by decide)
    _ = V5 m c (Proc.devRef .tc main_arg1) := V6_of m c main_arg1 (by decide)
    _ = V4 m c (Proc.devRef .tc main_arg1) := V5_of m c main_arg1 (by decide)
    _ = V3 m c (Proc.devRef .tc main_arg1) := V4_of m c main_arg1 (by decide)
    _ = V2 m c (Proc.devRef .tc main_arg1) := V3_of m c main_arg1 (by decide)
    _ = V1 m c (Proc.devRef .tc main_arg1) := V2_of m c main_arg1 (by decide)
    _ = V0 m c (Proc.devRef .tc main_arg1) := V1_of m c main_arg1 (by decide)
    _ = m ((c : Thread nD τ).loc main_arg1) := rfl

theorem W17_main_arg2 (c : Dev nD) : W17 m c (Proc.devRef .tc main_arg2) = m ((c : Thread nD τ).loc main_arg2) :=
  calc W17 m c (Proc.devRef .tc main_arg2)
    _ = W16 m c (Proc.devRef .tc main_arg2) := StableHlo.after_of_writes_sub hostOps2 _ hostOps2_writes (by decide)
    _ = W15 m c (Proc.devRef .tc main_arg2) := W16_of_ne m c main_arg2 (by decide)
    _ = W14 m c (Proc.devRef .tc main_arg2) := StableHlo.after_of_writes_sub hostOps1 _ hostOps1_writes (by decide)
    _ = V13 m c (Proc.devRef .tc main_arg2) := W14_of_ne m c main_arg2 (by decide)
    _ = V12 m c (Proc.devRef .tc main_arg2) := V13_of m c main_arg2 (by decide)
    _ = V11 m c (Proc.devRef .tc main_arg2) := V12_of m c main_arg2 (by decide)
    _ = V10 m c (Proc.devRef .tc main_arg2) := V11_of m c main_arg2 (by decide)
    _ = V9 m c (Proc.devRef .tc main_arg2) := V10_of m c main_arg2 (by decide)
    _ = V8 m c (Proc.devRef .tc main_arg2) := V9_of m c main_arg2 (by decide)
    _ = V7 m c (Proc.devRef .tc main_arg2) := V8_of m c main_arg2 (by decide)
    _ = V6 m c (Proc.devRef .tc main_arg2) := V7_of m c main_arg2 (by decide)
    _ = V5 m c (Proc.devRef .tc main_arg2) := V6_of m c main_arg2 (by decide)
    _ = V4 m c (Proc.devRef .tc main_arg2) := V5_of m c main_arg2 (by decide)
    _ = V3 m c (Proc.devRef .tc main_arg2) := V4_of m c main_arg2 (by decide)
    _ = V2 m c (Proc.devRef .tc main_arg2) := V3_of m c main_arg2 (by decide)
    _ = V1 m c (Proc.devRef .tc main_arg2) := V2_of m c main_arg2 (by decide)
    _ = V0 m c (Proc.devRef .tc main_arg2) := V1_of m c main_arg2 (by decide)
    _ = m ((c : Thread nD τ).loc main_arg2) := rfl

theorem W17_main_arg3 (c : Dev nD) : W17 m c (Proc.devRef .tc main_arg3) = m ((c : Thread nD τ).loc main_arg3) :=
  calc W17 m c (Proc.devRef .tc main_arg3)
    _ = W16 m c (Proc.devRef .tc main_arg3) := StableHlo.after_of_writes_sub hostOps2 _ hostOps2_writes (by decide)
    _ = W15 m c (Proc.devRef .tc main_arg3) := W16_of_ne m c main_arg3 (by decide)
    _ = W14 m c (Proc.devRef .tc main_arg3) := StableHlo.after_of_writes_sub hostOps1 _ hostOps1_writes (by decide)
    _ = V13 m c (Proc.devRef .tc main_arg3) := W14_of_ne m c main_arg3 (by decide)
    _ = V12 m c (Proc.devRef .tc main_arg3) := V13_of m c main_arg3 (by decide)
    _ = V11 m c (Proc.devRef .tc main_arg3) := V12_of m c main_arg3 (by decide)
    _ = V10 m c (Proc.devRef .tc main_arg3) := V11_of m c main_arg3 (by decide)
    _ = V9 m c (Proc.devRef .tc main_arg3) := V10_of m c main_arg3 (by decide)
    _ = V8 m c (Proc.devRef .tc main_arg3) := V9_of m c main_arg3 (by decide)
    _ = V7 m c (Proc.devRef .tc main_arg3) := V8_of m c main_arg3 (by decide)
    _ = V6 m c (Proc.devRef .tc main_arg3) := V7_of m c main_arg3 (by decide)
    _ = V5 m c (Proc.devRef .tc main_arg3) := V6_of m c main_arg3 (by decide)
    _ = V4 m c (Proc.devRef .tc main_arg3) := V5_of m c main_arg3 (by decide)
    _ = V3 m c (Proc.devRef .tc main_arg3) := V4_of m c main_arg3 (by decide)
    _ = V2 m c (Proc.devRef .tc main_arg3) := V3_of m c main_arg3 (by decide)
    _ = V1 m c (Proc.devRef .tc main_arg3) := V2_of m c main_arg3 (by decide)
    _ = V0 m c (Proc.devRef .tc main_arg3) := V1_of m c main_arg3 (by decide)
    _ = m ((c : Thread nD τ).loc main_arg3) := rfl

theorem W17_main_arg4 (c : Dev nD) : W17 m c (Proc.devRef .tc main_arg4) = m ((c : Thread nD τ).loc main_arg4) :=
  calc W17 m c (Proc.devRef .tc main_arg4)
    _ = W16 m c (Proc.devRef .tc main_arg4) := StableHlo.after_of_writes_sub hostOps2 _ hostOps2_writes (by decide)
    _ = W15 m c (Proc.devRef .tc main_arg4) := W16_of_ne m c main_arg4 (by decide)
    _ = W14 m c (Proc.devRef .tc main_arg4) := StableHlo.after_of_writes_sub hostOps1 _ hostOps1_writes (by decide)
    _ = V13 m c (Proc.devRef .tc main_arg4) := W14_of_ne m c main_arg4 (by decide)
    _ = V12 m c (Proc.devRef .tc main_arg4) := V13_of m c main_arg4 (by decide)
    _ = V11 m c (Proc.devRef .tc main_arg4) := V12_of m c main_arg4 (by decide)
    _ = V10 m c (Proc.devRef .tc main_arg4) := V11_of m c main_arg4 (by decide)
    _ = V9 m c (Proc.devRef .tc main_arg4) := V10_of m c main_arg4 (by decide)
    _ = V8 m c (Proc.devRef .tc main_arg4) := V9_of m c main_arg4 (by decide)
    _ = V7 m c (Proc.devRef .tc main_arg4) := V8_of m c main_arg4 (by decide)
    _ = V6 m c (Proc.devRef .tc main_arg4) := V7_of m c main_arg4 (by decide)
    _ = V5 m c (Proc.devRef .tc main_arg4) := V6_of m c main_arg4 (by decide)
    _ = V4 m c (Proc.devRef .tc main_arg4) := V5_of m c main_arg4 (by decide)
    _ = V3 m c (Proc.devRef .tc main_arg4) := V4_of m c main_arg4 (by decide)
    _ = V2 m c (Proc.devRef .tc main_arg4) := V3_of m c main_arg4 (by decide)
    _ = V1 m c (Proc.devRef .tc main_arg4) := V2_of m c main_arg4 (by decide)
    _ = V0 m c (Proc.devRef .tc main_arg4) := V1_of m c main_arg4 (by decide)
    _ = m ((c : Thread nD τ).loc main_arg4) := rfl

theorem W17_main_arg5 (c : Dev nD) : W17 m c (Proc.devRef .tc main_arg5) = m ((c : Thread nD τ).loc main_arg5) :=
  calc W17 m c (Proc.devRef .tc main_arg5)
    _ = W16 m c (Proc.devRef .tc main_arg5) := StableHlo.after_of_writes_sub hostOps2 _ hostOps2_writes (by decide)
    _ = W15 m c (Proc.devRef .tc main_arg5) := W16_of_ne m c main_arg5 (by decide)
    _ = W14 m c (Proc.devRef .tc main_arg5) := StableHlo.after_of_writes_sub hostOps1 _ hostOps1_writes (by decide)
    _ = V13 m c (Proc.devRef .tc main_arg5) := W14_of_ne m c main_arg5 (by decide)
    _ = V12 m c (Proc.devRef .tc main_arg5) := V13_of m c main_arg5 (by decide)
    _ = V11 m c (Proc.devRef .tc main_arg5) := V12_of m c main_arg5 (by decide)
    _ = V10 m c (Proc.devRef .tc main_arg5) := V11_of m c main_arg5 (by decide)
    _ = V9 m c (Proc.devRef .tc main_arg5) := V10_of m c main_arg5 (by decide)
    _ = V8 m c (Proc.devRef .tc main_arg5) := V9_of m c main_arg5 (by decide)
    _ = V7 m c (Proc.devRef .tc main_arg5) := V8_of m c main_arg5 (by decide)
    _ = V6 m c (Proc.devRef .tc main_arg5) := V7_of m c main_arg5 (by decide)
    _ = V5 m c (Proc.devRef .tc main_arg5) := V6_of m c main_arg5 (by decide)
    _ = V4 m c (Proc.devRef .tc main_arg5) := V5_of m c main_arg5 (by decide)
    _ = V3 m c (Proc.devRef .tc main_arg5) := V4_of m c main_arg5 (by decide)
    _ = V2 m c (Proc.devRef .tc main_arg5) := V3_of m c main_arg5 (by decide)
    _ = V1 m c (Proc.devRef .tc main_arg5) := V2_of m c main_arg5 (by decide)
    _ = V0 m c (Proc.devRef .tc main_arg5) := V1_of m c main_arg5 (by decide)
    _ = m ((c : Thread nD τ).loc main_arg5) := rfl

theorem W17_main_arg6 (c : Dev nD) : W17 m c (Proc.devRef .tc main_arg6) = m ((c : Thread nD τ).loc main_arg6) :=
  calc W17 m c (Proc.devRef .tc main_arg6)
    _ = W16 m c (Proc.devRef .tc main_arg6) := StableHlo.after_of_writes_sub hostOps2 _ hostOps2_writes (by decide)
    _ = W15 m c (Proc.devRef .tc main_arg6) := W16_of_ne m c main_arg6 (by decide)
    _ = W14 m c (Proc.devRef .tc main_arg6) := StableHlo.after_of_writes_sub hostOps1 _ hostOps1_writes (by decide)
    _ = V13 m c (Proc.devRef .tc main_arg6) := W14_of_ne m c main_arg6 (by decide)
    _ = V12 m c (Proc.devRef .tc main_arg6) := V13_of m c main_arg6 (by decide)
    _ = V11 m c (Proc.devRef .tc main_arg6) := V12_of m c main_arg6 (by decide)
    _ = V10 m c (Proc.devRef .tc main_arg6) := V11_of m c main_arg6 (by decide)
    _ = V9 m c (Proc.devRef .tc main_arg6) := V10_of m c main_arg6 (by decide)
    _ = V8 m c (Proc.devRef .tc main_arg6) := V9_of m c main_arg6 (by decide)
    _ = V7 m c (Proc.devRef .tc main_arg6) := V8_of m c main_arg6 (by decide)
    _ = V6 m c (Proc.devRef .tc main_arg6) := V7_of m c main_arg6 (by decide)
    _ = V5 m c (Proc.devRef .tc main_arg6) := V6_of m c main_arg6 (by decide)
    _ = V4 m c (Proc.devRef .tc main_arg6) := V5_of m c main_arg6 (by decide)
    _ = V3 m c (Proc.devRef .tc main_arg6) := V4_of m c main_arg6 (by decide)
    _ = V2 m c (Proc.devRef .tc main_arg6) := V3_of m c main_arg6 (by decide)
    _ = V1 m c (Proc.devRef .tc main_arg6) := V2_of m c main_arg6 (by decide)
    _ = V0 m c (Proc.devRef .tc main_arg6) := V1_of m c main_arg6 (by decide)
    _ = m ((c : Thread nD τ).loc main_arg6) := rfl

abbrev adm : (p : Fin 2) → (pcfgs (F := F) p).Adm := fun p => (cfgs p).toPCfg_adm
/-- Both launches' proof data, each at its entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X14 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X16 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .host (hseg hostOps0_8 hostOps0_8_sub hostOps0_8_fresh (V8 m)),
    .host (hseg hostOps0_9 hostOps0_9_sub hostOps0_9_fresh (V9 m)),
    .host (hseg hostOps0_10 hostOps0_10_sub hostOps0_10_fresh (V10 m)),
    .host (hseg hostOps0_11 hostOps0_11_sub hostOps0_11_fresh (V11 m)),
    .host (hseg hostOps0_12 hostOps0_12_sub hostOps0_12_fresh (V12 m)),
    .region (reg0 m),
    .host (hseg hostOps1 hostOps1_sub hostOps1_fresh (W14 m)),
    .region (reg1 m),
    .host (hseg hostOps2 hostOps2_sub hostOps2_fresh (W16 m)) ]
theorem main_run (c : Dev nD) : main (F := F) c = Pipeline.Seg.run (segs m) := (main_chain c).trans (by chain_rfl)

set_option backward.isDefEq.respectTransparency.types false in
/-- THE RUN: every weakly fair execution of the reference's @main terminates, and every final state holds every unscoped
    buffer at the last boundary's contents; in particular the result and the seven arguments. -/
theorem run : θ_run defs (onTc (τ := τ) (main (F := F))) ⟨m, fun _ => 0, ρ⟩ (fun r => ∀ c : Dev nD,
      r.2.mem ((c.tc : Thread nD τ).loc main_v33) = W17 m c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W17 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m c b)
    (hfin := fun c s' => by
      iintro ⟨⟨Hh, -⟩, HSI⟩
      unfold StableHlo.held
      imodintro
      iapply (pointsTo_read_all (Pipeline.ucRefs τ sig) (fun b => (((c : Thread nD τ)).1, b)) (W17 m c) s')
      isplitl [Hh] <;> iassumption)
    (hQ := fun s h c =>
      ⟨h c _ (mem_uc main_v33 (by decide)),
       (h c _ (mem_uc main_arg0 (by decide))).trans (W17_main_arg0 m c),
       (h c _ (mem_uc main_arg1 (by decide))).trans (W17_main_arg1 m c),
       (h c _ (mem_uc main_arg2 (by decide))).trans (W17_main_arg2 m c),
       (h c _ (mem_uc main_arg3 (by decide))).trans (W17_main_arg3 m c),
       (h c _ (mem_uc main_arg4 (by decide))).trans (W17_main_arg4 m c),
       (h c _ (mem_uc main_arg5 (by decide))).trans (W17_main_arg5 m c),
       (h c _ (mem_uc main_arg6 (by decide))).trans (W17_main_arg6 m c)⟩)

end Cert.ReferenceIdeal.Hand

end
-- ==== Proof.RefHostA.lean ====
import proofs.«134701_g2000104339650780_pallasbulk_589_17_alg».proof.Proof.RefRun
import proofs.«134701_g2000104339650780_pallasbulk_589_17_alg».proof.Proof.Spec
import Idealize.ShloMosaic.Lib.StableHlo.Run
import Idealize.ShloMosaic.Lib.KernelVsHost

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # The reference's operands, as it lays them out before the statistics pass

Each operand is an argument re-laid (a transpose, a reshape) and padded with zeros up to the kernel's tile sizes. -/

variable (m : (ℓ : Loc nD τ sig) → Buf (Elt Ideal) ℓ)

abbrev arg0 (c : Dev nD) : S32x10x1x1.Idx → EReal := m ((c.tc : Thread nD τ).loc main_arg0)
abbrev arg1 (c : Dev nD) : S32x240x56x56.Idx → EReal := m ((c.tc : Thread nD τ).loc main_arg1)
abbrev arg2 (c : Dev nD) : S240x10.Idx → EReal := m ((c.tc : Thread nD τ).loc main_arg2)
abbrev arg3 (c : Dev nD) : S240.Idx → EReal := m ((c.tc : Thread nD τ).loc main_arg3)
abbrev arg4 (c : Dev nD) : S40x240.Idx → EReal := m ((c.tc : Thread nD τ).loc main_arg4)
abbrev arg5 (c : Dev nD) : S40.Idx → EReal := m ((c.tc : Thread nD τ).loc main_arg5)
abbrev arg6 (c : Dev nD) : S40.Idx → EReal := m ((c.tc : Thread nD τ).loc main_arg6)

/-- The padding value: the integer zero read as a float. -/
theorem padv_zero (j : S_.Idx) : (sitofp (F := Ideal) .f32 (constantI S_ 32 0#32)) j = (0 : EReal) := by
  show (((0#32 : BitVec 32).toInt : ℝ) : EReal) = 0
  simp

theorem x63_eq (c : Dev nD) : (V13 m c (Proc.devRef .tc main_v3) : S32x1x10.Idx → EReal)
    = shapeCast S32x1x10 (arg0 m c) shapeCasts_S32x10x1x1_S32x1x10 := by
  dsimp only [V13, V12, V11, V10, V9, V8, V7, V6, V5, V4, V3, V2, V1, V0, hostOps0, hostOps0_1, hostOps0_2, hostOps0_3, hostOps0_4, hostOps0_5, hostOps0_6, hostOps0_7, hostOps0_8, hostOps0_9, hostOps0_10, hostOps0_11, hostOps0_12]; after_results; rfl
theorem x63_apply (c : Dev nD) (b : Fin 32) (z : Fin 1) (q : Fin 10) :
    (V13 m c (Proc.devRef .tc main_v3) : S32x1x10.Idx → EReal) (ix3 b z q) = arg0 m c (ix4 b q (0 : Fin 1) (0 : Fin 1)) := by
  rw [x63_eq]
  refine shapeCast_apply _ shapeCasts_S32x10x1x1_S32x1x10 (ix3 b z q) (ix4 b q (0 : Fin 1) (0 : Fin 1)) ?_
  rw [Shape.rowMajor_val_three, Shape.rowMajor_val_four]
  show ((b.val * 10 + q.val) * 1 + 0) * 1 + 0 = (b.val * 1 + z.val) * 10 + q.val
  have := z.isLt; omega

theorem w1_eq (c : Dev nD) : (V13 m c (Proc.devRef .tc main_v4) : S256x10.Idx → EReal)
    = pad S256x10 ![0, 0] ![16, 0] ![0, 0] (arg2 m c) (sitofp (F := Ideal) .f32 (constantI S_ 32 0#32)) pads_S240x10_S256x10_0160_000 h_S_ := by
  dsimp only [V13, V12, V11, V10, V9, V8, V7, V6, V5, V4, V3, V2, V1, V0, hostOps0, hostOps0_1, hostOps0_2, hostOps0_3, hostOps0_4, hostOps0_5, hostOps0_6, hostOps0_7, hostOps0_8, hostOps0_9, hostOps0_10, hostOps0_11, hostOps0_12]; after_results; rfl
theorem w1_in (c : Dev nD) (k : Fin 256) (hk : k.val < 240) (q : Fin 10) :
    (V13 m c (Proc.devRef .tc main_v4) : S256x10.Idx → EReal) (ix2 k q) = arg2 m c (ix2 ⟨k.val, hk⟩ q) := by
  rw [w1_eq]
  refine pad_apply_of_inside ![0, 0] ![16, 0] ![0, 0] (arg2 m c) _ pads_S240x10_S256x10_0160_000 h_S_ (ix2 k q) (ix2 ⟨k.val, hk⟩ q) (fun a => ?_)
  match a with
  | ⟨0, _⟩ => show k.val = 0 + k.val * (0 + 1); omega
  | ⟨1, _⟩ => show q.val = 0 + q.val * (0 + 1); omega
theorem w1_out (c : Dev nD) (k : Fin 256) (hk : 240 ≤ k.val) (q : Fin 10) :
    (V13 m c (Proc.devRef .tc main_v4) : S256x10.Idx → EReal) (ix2 k q) = (0 : EReal) := by
  rw [w1_eq]
  refine (pad_apply_of_not_inside ![0, 0] ![16, 0] ![0, 0] (arg2 m c) _ pads_S240x10_S256x10_0160_000 h_S_ (ix2 k q) (0 : Fin 2) (fun h => ?_)).trans (padv_zero _)
  have h3 : (k.val - 0) / (0 + 1) < 240 := h.2.2
  omega

theorem b1_eq (c : Dev nD) : (V13 m c (Proc.devRef .tc main_v6) : S256x1.Idx → EReal)
    = pad S256x1 ![0, 0] ![16, 0] ![0, 0] (shapeCast S240x1 (arg3 m c) shapeCasts_S240_S240x1) (sitofp (F := Ideal) .f32 (constantI S_ 32 0#32)) pads_S240x1_S256x1_0160_000 h_S_ := by
  dsimp only [V13, V12, V11, V10, V9, V8, V7, V6, V5, V4, V3, V2, V1, V0, hostOps0, hostOps0_1, hostOps0_2, hostOps0_3, hostOps0_4, hostOps0_5, hostOps0_6, hostOps0_7, hostOps0_8, hostOps0_9, hostOps0_10, hostOps0_11, hostOps0_12]; after_results; rfl
theorem b1_in (c : Dev nD) (k : Fin 256) (hk : k.val < 240) (z : Fin 1) :
    (V13 m c (Proc.devRef .tc main_v6) : S256x1.Idx → EReal) (ix2 k z) = arg3 m c (ix1 ⟨k.val, hk⟩) := by
  rw [b1_eq]
  refine (pad_apply_of_inside ![0, 0] ![16, 0] ![0, 0] _ _ pads_S240x1_S256x1_0160_000 h_S_ (ix2 k z) (ix2 ⟨k.val, hk⟩ z) (fun a => ?_)).trans ?_
  · match a with
    | ⟨0, _⟩ => show k.val = 0 + k.val * (0 + 1); omega
    | ⟨1, _⟩ => show z.val = 0 + z.val * (0 + 1); omega
  · refine shapeCast_apply _ shapeCasts_S240_S240x1 (ix2 ⟨k.val, hk⟩ z) (ix1 ⟨k.val, hk⟩) ?_
    rw [Shape.rowMajor_val_one, Shape.rowMajor_val_two]
    show k.val = k.val * 1 + z.val
    have := z.isLt; omega

theorem w2_eq (c : Dev nD) : (V13 m c (Proc.devRef .tc main_v8) : S256x128.Idx → EReal)
    = pad S256x128 ![0, 0] ![16, 88] ![0, 0] (transpose S240x40 [1, 0] (arg4 m c) transposes_S40x240_S240x40_1_0) (sitofp (F := Ideal) .f32 (constantI S_ 32 0#32)) pads_S240x40_S256x128_0160_0880 h_S_ := by
  dsimp only [V13, V12, V11, V10, V9, V8, V7, V6, V5, V4, V3, V2, V1, V0, hostOps0, hostOps0_1, hostOps0_2, hostOps0_3, hostOps0_4, hostOps0_5, hostOps0_6, hostOps0_7, hostOps0_8, hostOps0_9, hostOps0_10, hostOps0_11, hostOps0_12]; after_results; rfl
theorem w2_in (c : Dev nD) (k : Fin 256) (hk : k.val < 240) (o : Fin 128) (ho : o.val < 40) :
    (V13 m c (Proc.devRef .tc main_v8) : S256x128.Idx → EReal) (ix2 k o) = arg4 m c (ix2 ⟨o.val, ho⟩ ⟨k.val, hk⟩) := by
  rw [w2_eq]
  refine (pad_apply_of_inside ![0, 0] ![16, 88] ![0, 0] _ _ pads_S240x40_S256x128_0160_0880 h_S_ (ix2 k o) (ix2 ⟨k.val, hk⟩ ⟨o.val, ho⟩) (fun a => ?_)).trans ?_
  · match a with
    | ⟨0, _⟩ => show k.val = 0 + k.val * (0 + 1); omega
    | ⟨1, _⟩ => show o.val = 0 + o.val * (0 + 1); omega
  · refine transpose_apply [1, 0] _ transposes_S40x240_S240x40_1_0 (ix2 ⟨k.val, hk⟩ ⟨o.val, ho⟩) (ix2 ⟨o.val, ho⟩ ⟨k.val, hk⟩) (fun b => ?_)
    match b with
    | ⟨0, _⟩ => rfl
    | ⟨1, _⟩ => rfl
theorem w2_out (c : Dev nD) (k : Fin 256) (o : Fin 128) (h : 240 ≤ k.val ∨ 40 ≤ o.val) :
    (V13 m c (Proc.devRef .tc main_v8) : S256x128.Idx → EReal) (ix2 k o) = (0 : EReal) := by
  rw [w2_eq]
  rcases h with h | h
  · refine (pad_apply_of_not_inside (s := S240x40) ![0, 0] ![16, 88] ![0, 0] _ _ pads_S240x40_S256x128_0160_0880 h_S_ (ix2 k o) (0 : Fin 2) (fun hh => ?_)).trans (padv_zero _)
    have h3 : (k.val - 0) / (0 + 1) < 240 := hh.2.2
    omega
  · refine (pad_apply_of_not_inside (s := S240x40) ![0, 0] ![16, 88] ![0, 0] _ _ pads_S240x40_S256x128_0160_0880 h_S_ (ix2 k o) (1 : Fin 2) (fun hh => ?_)).trans (padv_zero _)
    have h3 : (o.val - 0) / (0 + 1) < 40 := hh.2.2
    omega

theorem g_eq (c : Dev nD) : (V13 m c (Proc.devRef .tc main_v10) : S1x128.Idx → EReal)
    = shapeCast S1x128 (pad S128 ![0] ![88] ![0] (arg5 m c) (sitofp (F := Ideal) .f32 (constantI S_ 32 0#32)) pads_S40_S128_0880 h_S_) shapeCasts_S128_S1x128 := by
  dsimp only [V13, V12, V11, V10, V9, V8, V7, V6, V5, V4, V3, V2, V1, V0, hostOps0, hostOps0_1, hostOps0_2, hostOps0_3, hostOps0_4, hostOps0_5, hostOps0_6, hostOps0_7, hostOps0_8, hostOps0_9, hostOps0_10, hostOps0_11, hostOps0_12]; after_results; rfl
theorem bt_eq (c : Dev nD) : (V13 m c (Proc.devRef .tc main_v12) : S1x128.Idx → EReal)
    = shapeCast S1x128 (pad S128 ![0] ![88] ![0] (arg6 m c) (sitofp (F := Ideal) .f32 (constantI S_ 32 0#32)) pads_S40_S128_0880 h_S_) shapeCasts_S128_S1x128 := by
  dsimp only [V13, V12, V11, V10, V9, V8, V7, V6, V5, V4, V3, V2, V1, V0, hostOps0, hostOps0_1, hostOps0_2, hostOps0_3, hostOps0_4, hostOps0_5, hostOps0_6, hostOps0_7, hostOps0_8, hostOps0_9, hostOps0_10, hostOps0_11, hostOps0_12]; after_results; rfl
theorem g_in (c : Dev nD) (z : Fin 1) (o : Fin 128) (ho : o.val < 40) :
    (V13 m c (Proc.devRef .tc main_v10) : S1x128.Idx → EReal) (ix2 z o) = arg5 m c (ix1 ⟨o.val, ho⟩) := by
  rw [g_eq]
  refine (shapeCast_apply _ shapeCasts_S128_S1x128 (ix2 z o) (ix1 o) (by
    rw [Shape.rowMajor_val_one, Shape.rowMajor_val_two]; show o.val = z.val * 128 + o.val; have := z.isLt; omega)).trans ?_
  refine pad_apply_of_inside ![0] ![88] ![0] (arg5 m c) _ pads_S40_S128_0880 h_S_ (ix1 o) (ix1 ⟨o.val, ho⟩) (fun a => ?_)
  match a with
  | ⟨0, _⟩ => show o.val = 0 + o.val * (0 + 1); omega
theorem bt_in (c : Dev nD) (z : Fin 1) (o : Fin 128) (ho : o.val < 40) :
    (V13 m c (Proc.devRef .tc main_v12) : S1x128.Idx → EReal) (ix2 z o) = arg6 m c (ix1 ⟨o.val, ho⟩) := by
  rw [bt_eq]
  refine (shapeCast_apply _ shapeCasts_S128_S1x128 (ix2 z o) (ix1 o) (by
    rw [Shape.rowMajor_val_one, Shape.rowMajor_val_two]; show o.val = z.val * 128 + o.val; have := z.isLt; omega)).trans ?_
  refine pad_apply_of_inside ![0] ![88] ![0] (arg6 m c) _ pads_S40_S128_0880 h_S_ (ix1 o) (ix1 ⟨o.val, ho⟩) (fun a => ?_)
  match a with
  | ⟨0, _⟩ => show o.val = 0 + o.val * (0 + 1); omega

/-- The activation, channels last, pixels flattened, zero rows and zero channels appended. -/
theorem xs_eq (c : Dev nD) : (V13 m c (Proc.devRef .tc main_v2) : S32x3584x256.Idx → EReal)
    = pad S32x3584x256 ![0, 0, 0] ![0, 448, 16] ![0, 0, 0]
        (shapeCast S32x3136x240 (transpose S32x56x56x240 [0, 2, 3, 1] (arg1 m c) transposes_S32x240x56x56_S32x56x56x240_0_2_3_1) shapeCasts_S32x56x56x240_S32x3136x240)
        (sitofp (F := Ideal) .f32 (constantI S_ 32 0#32)) pads_S32x3136x240_S32x3584x256_000_04480_0160 h_S_ := by
  dsimp only [V13, V12, V11, V10, V9, V8, V7, V6, V5, V4, V3, V2, V1, V0, hostOps0, hostOps0_1, hostOps0_2, hostOps0_3, hostOps0_4, hostOps0_5, hostOps0_6, hostOps0_7, hostOps0_8, hostOps0_9, hostOps0_10, hostOps0_11, hostOps0_12]; after_results; rfl
theorem xs_in (c : Dev nD) (b : Fin 32) (R : Fin 3584) (hR : R.val < 3136) (k : Fin 256) (hk : k.val < 240) :
    (V13 m c (Proc.devRef .tc main_v2) : S32x3584x256.Idx → EReal) (ix3 b R k)
      = arg1 m c (ix4 b ⟨k.val, hk⟩ (Cert.SeBn.pixH ⟨R.val, hR⟩) (Cert.SeBn.pixW ⟨R.val, hR⟩)) := by
  rw [xs_eq]
  refine (pad_apply_of_inside ![0, 0, 0] ![0, 448, 16] ![0, 0, 0] _ _ pads_S32x3136x240_S32x3584x256_000_04480_0160 h_S_ (ix3 b R k) (ix3 b ⟨R.val, hR⟩ ⟨k.val, hk⟩) (fun a => ?_)).trans ?_
  · match a with
    | ⟨0, _⟩ => show b.val = 0 + b.val * (0 + 1); omega
    | ⟨1, _⟩ => show R.val = 0 + R.val * (0 + 1); omega
    | ⟨2, _⟩ => show k.val = 0 + k.val * (0 + 1); omega
  refine (shapeCast_apply _ shapeCasts_S32x56x56x240_S32x3136x240 (ix3 b ⟨R.val, hR⟩ ⟨k.val, hk⟩) (ix4 b (Cert.SeBn.pixH ⟨R.val, hR⟩) (Cert.SeBn.pixW ⟨R.val, hR⟩) ⟨k.val, hk⟩) (by
    rw [Shape.rowMajor_val_three, Shape.rowMajor_val_four]
    show ((b.val * 56 + R.val / 56) * 56 + R.val % 56) * 240 + k.val = (b.val * 3136 + R.val) * 240 + k.val
    omega)).trans ?_
  refine transpose_apply [0, 2, 3, 1] _ transposes_S32x240x56x56_S32x56x56x240_0_2_3_1 (ix4 b (Cert.SeBn.pixH ⟨R.val, hR⟩) (Cert.SeBn.pixW ⟨R.val, hR⟩) ⟨k.val, hk⟩) (ix4 b ⟨k.val, hk⟩ (Cert.SeBn.pixH ⟨R.val, hR⟩) (Cert.SeBn.pixW ⟨R.val, hR⟩)) (fun a => ?_)
  match a with
  | ⟨0, _⟩ => rfl
  | ⟨1, _⟩ => rfl
  | ⟨2, _⟩ => rfl
  | ⟨3, _⟩ => rfl
theorem xs_out (c : Dev nD) (b : Fin 32) (R : Fin 3584) (k : Fin 256) (h : 3136 ≤ R.val ∨ 240 ≤ k.val) :
    (V13 m c (Proc.devRef .tc main_v2) : S32x3584x256.Idx → EReal) (ix3 b R k) = (0 : EReal) := by
  rw [xs_eq]
  rcases h with h | h
  · refine (pad_apply_of_not_inside (s := S32x3136x240) ![0, 0, 0] ![0, 448, 16] ![0, 0, 0] _ _ pads_S32x3136x240_S32x3584x256_000_04480_0160 h_S_ (ix3 b R k) (1 : Fin 3) (fun hh => ?_)).trans (padv_zero _)
    have h3 : (R.val - 0) / (0 + 1) < 3136 := hh.2.2
    omega
  · refine (pad_apply_of_not_inside (s := S32x3136x240) ![0, 0, 0] ![0, 448, 16] ![0, 0, 0] _ _ pads_S32x3136x240_S32x3584x256_000_04480_0160 h_S_ (ix3 b R k) (2 : Fin 3) (fun hh => ?_)).trans (padv_zero _)
    have h3 : (k.val - 0) / (0 + 1) < 240 := hh.2.2
    omega

end Cert.ReferenceIdeal.Hand

end
-- ==== Proof.RefBlocks0.lean ====
import proofs.«134701_g2000104339650780_pallasbulk_589_17_alg».proof.Proof.RefFrame0
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

local notation "𝕄" => MT nD τ sig Unit (Elt F) ℕ (UR sig nD τ) ℕ

/-! # The statistics pass: where each window's block sits in its array

Point `t` is batch entry `t / 7` and row tile `t % 7`: the squeeze vector's block is row `t / 7`; the activation's and
the output's block is tile `t % 7` of batch entry `t / 7`; the other windows are whole arrays. -/

theorem idx_facts0 : ∀ t : Fin cfg0.N,
    win0_0.index t (0 : Fin 3) = t.val / 7 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 7 ∧ win0_3.index t (1 : Fin 3) = t.val % 7 ∧ win0_3.index t (2 : Fin 3) = 0
    ∧ win0_4.index t (0 : Fin 2) = 0 ∧ win0_4.index t (1 : Fin 2) = 0
    ∧ win0_5.index t (0 : Fin 3) = t.val / 7 ∧ win0_5.index t (1 : Fin 3) = t.val % 7 ∧ win0_5.index t (2 : Fin 3) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The batch entry of a point. -/
def bOf (t : Fin cfg0.N) : Fin 32 := ⟨t.val / 7, by have : t.val < 224 := lt_of_lt_of_eq t.isLt (show cfg0.N = 224 from N_0); omega⟩
/-- A row of a point's tile, as a row of the padded image. -/
def rowOf (t : Fin cfg0.N) (r : Fin 512) : Fin 3584 := ⟨(t.val % 7) * 512 + r.val, by have := r.isLt; omega⟩

section Region0
variable (V : (c : Dev nD) → (b : Ref sig .tc) → Buf (Elt F) ((c : Thread nD τ).loc b))

theorem iblk0_0_apply (c : Dev nD) (t : Fin cfg0.N) (z1 z2 : Fin 1) (q : Fin 10) :
    iblk0 V c 0 t (ix3 z1 z2 q) = V c main_v3 (ix3 (bOf t) (0 : Fin 1) q) := by
  show V c main_v3 (((cfg0.win 0).blk t).view.emb (ix3 z1 z2 q)) = V c main_v3 (ix3 (bOf t) (0 : Fin 1) q)
  refine congrArg (V c main_v3) (funext fun a => Fin.ext ?_)
  obtain ⟨e0, e1, e2, -⟩ := idx_facts0 t
  have h1 := z1.isLt; have h2 := z2.isLt
  match a with
  | ⟨0, _⟩ => show win0_0.index t (0 : Fin 3) * 1 + 1 * z1.val = t.val / 7; omega
  | ⟨1, _⟩ => show win0_0.index t (1 : Fin 3) * 1 + 1 * z2.val = 0; omega
  | ⟨2, _⟩ => show win0_0.index t (2 : Fin 3) * 10 + 1 * q.val = q.val; omega

theorem iblk0_1_eq (c : Dev nD) (t : Fin cfg0.N) : iblk0 V c 1 t = V c main_v4 := by
  funext y
  show V c main_v4 (((cfg0.win 1).blk t).view.emb y) = V c main_v4 y
  refine congrArg (V c main_v4) (funext fun a => Fin.ext ?_)
  obtain ⟨-, -, -, e0, e1, -⟩ := idx_facts0 t
  match a with
  | ⟨0, _⟩ => show win0_1.index t (0 : Fin 2) * 256 + 1 * (y 0).val = (y 0).val; omega
  | ⟨1, _⟩ => show win0_1.index t (1 : Fin 2) * 10 + 1 * (y 1).val = (y 1).val; omega

theorem iblk0_2_eq (c : Dev nD) (t : Fin cfg0.N) : iblk0 V c 2 t = V c main_v6 := by
  funext y
  show V c main_v6 (((cfg0.win 2).blk t).view.emb y) = V c main_v6 y
  refine congrArg (V c main_v6) (funext fun a => Fin.ext ?_)
  obtain ⟨-, -, -, -, -, e0, e1, -⟩ := idx_facts0 t
  match a with
  | ⟨0, _⟩ => show win0_2.index t (0 : Fin 2) * 256 + 1 * (y 0).val = (y 0).val; omega
  | ⟨1, _⟩ => show win0_2.index t (1 : Fin 2) * 1 + 1 * (y 1).val = (y 1).val; omega

theorem iblk0_3_apply (c : Dev nD) (t : Fin cfg0.N) (z : Fin 1) (r : Fin 512) (k : Fin 256) :
    iblk0 V c 3 t (ix3 z r k) = V c main_v2 (ix3 (bOf t) (rowOf t r) k) := by
  show V c main_v2 (((cfg0.win 3).blk t).view.emb (ix3 z r k)) = V c main_v2 (ix3 (bOf t) (rowOf t r) k)
  refine congrArg (V c main_v2) (funext fun a => Fin.ext ?_)
  obtain ⟨-, -, -, -, -, -, -, e0, e1, e2, -⟩ := idx_facts0 t
  have h1 := z.isLt
  match a with
  | ⟨0, _⟩ => show win0_3.index t (0 : Fin 3) * 1 + 1 * z.val = t.val / 7; omega
  | ⟨1, _⟩ => show win0_3.index t (1 : Fin 3) * 512 + 1 * r.val = (t.val % 7) * 512 + r.val; omega
  | ⟨2, _⟩ => show win0_3.index t (2 : Fin 3) * 256 + 1 * k.val = k.val; omega

theorem iblk0_4_eq (c : Dev nD) (t : Fin cfg0.N) : iblk0 V c 4 t = V c main_v8 := by
  funext y
  show V c main_v8 (((cfg0.win 4).blk t).view.emb y) = V c main_v8 y
  refine congrArg (V c main_v8) (funext fun a => Fin.ext ?_)
  obtain ⟨-, -, -, -, -, -, -, -, -, -, e0, e1, -⟩ := idx_facts0 t
  match a with
  | ⟨0, _⟩ => show win0_4.index t (0 : Fin 2) * 256 + 1 * (y 0).val = (y 0).val; omega
  | ⟨1, _⟩ => show win0_4.index t (1 : Fin 2) * 128 + 1 * (y 1).val = (y 1).val; omega

end Region0

end Cert.ReferenceIdeal.Hand

end
-- ==== Proof.RefPay0.lean ====
import proofs.«134701_g2000104339650780_pallasbulk_589_17_alg».proof.Proof.RefFrame0
import Idealize.ShloMosaic.Lib.Pipeline.Value

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics pass: what each case leaves, as the body's own arithmetic

Each output's buffer after the body is one payload of the body applied to the input blocks, the kept table and the
running statistic rows: the product of the tile with the kept table, and the two rows plus the tile's column sums. -/

theorem hz2 : (![0, 0] : Fin 2 → Nat) = fun _ => 0 := by funext a; fin_cases a <;> rfl
theorem hz3 : (![0, 0, 0] : Fin 3 → Nat) = fun _ => 0 := by funext a; fin_cases a <;> rfl

theorem sout0_A_0_eq (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : cond0_0 i) (hc1 : cond0_1 i)
    (x0 : Vec F S1x1x10 .f32) (x1 : Vec F S256x10 .f32) (x2 : Vec F S256x1 .f32) (x3 : Vec F S1x512x256 .f32) (x4 : Vec F S256x128 .f32) :
    sout0_A_0 c i arg2 harg2 arg3 harg3 arg4 harg4 arg5 harg5 arg6 harg6 arg7 harg7 arg8 harg8 arg9 harg9 arg10 harg10 hc0 hc1 x0 x1 x2 x3 x4 = (k0_pay3 x1 x0 x2 x4) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  refine (View.canon_unit_zero (S := S256x128) hz2 _ _).trans ?_
  simp only [View.readAt_eq_ld, harg2.read_unread, harg3.read_unread, harg4.read_unread, harg5.read_unread, harg6.read_unread, harg8.read_unread, harg9.read_unread, harg10.read_unread,
    View.readCov_unit_zero (S := S256x128) _ hz2, View.readCov_unit_zero (S := S1x128) _ hz2, View.ld_unit_zero (S := S256x10) hz2, View.ld_unit_zero (S := S1x1x10) hz3, View.ld_unit_zero (S := S256x1) hz2,
    View.ld_unit_zero (S := S256x128) hz2, View.ld_unit_zero (S := S1x512x256) hz3, View.ld_unit_zero (S := S1x128) hz2]

theorem out0_A_5_eq (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : cond0_0 i) (hc1 : cond0_1 i)
    (x0 : Vec F S1x1x10 .f32) (x1 : Vec F S256x10 .f32) (x2 : Vec F S256x1 .f32) (x3 : Vec F S1x512x256 .f32) (x4 : Vec F S256x128 .f32) :
    out0_A_5 c i arg2 harg2 arg3 harg3 arg4 harg4 arg5 harg5 arg6 harg6 arg7 harg7 arg8 harg8 arg9 harg9 arg10 harg10 hc0 hc1 x0 x1 x2 x3 x4 = k0_pay5 x3 (k0_pay3 x1 x0 x2 x4) := by
  unfold out0_A_5
  rw [View.read_writes_eq_canon _ _ _ (cover0_A_5 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  refine (View.canon_unit_zero (S := S1x512x128) hz3 _ _).trans ?_
  simp only [View.readAt_eq_ld, harg2.read_unread, harg3.read_unread, harg4.read_unread, harg5.read_unread, harg6.read_unread, harg8.read_unread, harg9.read_unread, harg10.read_unread,
    View.readCov_unit_zero (S := S256x128) _ hz2, View.readCov_unit_zero (S := S1x128) _ hz2, View.ld_unit_zero (S := S256x10) hz2, View.ld_unit_zero (S := S1x1x10) hz3, View.ld_unit_zero (S := S256x1) hz2,
    View.ld_unit_zero (S := S256x128) hz2, View.ld_unit_zero (S := S1x512x256) hz3, View.ld_unit_zero (S := S1x128) hz2]

theorem out0_A_6_eq (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : cond0_0 i) (hc1 : cond0_1 i)
    (x0 : Vec F S1x1x10 .f32) (x1 : Vec F S256x10 .f32) (x2 : Vec F S256x1 .f32) (x3 : Vec F S1x512x256 .f32) (x4 : Vec F S256x128 .f32) :
    out0_A_6 c i arg2 harg2 arg3 harg3 arg4 harg4 arg5 harg5 arg6 harg6 arg7 harg7 arg8 harg8 arg9 harg9 arg10 harg10 hc0 hc1 x0 x1 x2 x3 x4 = k0_pay6 x3 (k0_pay3 x1 x0 x2 x4) (k0_pay1 (F := F)) := by
  unfold out0_A_6
  rw [View.read_writes_eq_canon _ _ _ (cover0_A_6 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  refine (View.canon_cons_unit_zero (S := S1x128) hz2 _ _ _).trans ?_
  simp only [View.readAt_eq_ld, harg2.read_unread, harg3.read_unread, harg4.read_unread, harg5.read_unread, harg6.read_unread, harg8.read_unread, harg9.read_unread, harg10.read_unread,
    View.readCov_unit_zero (S := S256x128) _ hz2, View.readCov_unit_zero (S := S1x128) _ hz2, View.ld_unit_zero (S := S256x10) hz2, View.ld_unit_zero (S := S1x1x10) hz3, View.ld_unit_zero (S := S256x1) hz2,
    View.ld_unit_zero (S := S256x128) hz2, View.ld_unit_zero (S := S1x512x256) hz3, View.ld_unit_zero (S := S1x128) hz2]

theorem out0_A_7_eq (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : cond0_0 i) (hc1 : cond0_1 i)
    (x0 : Vec F S1x1x10 .f32) (x1 : Vec F S256x10 .f32) (x2 : Vec F S256x1 .f32) (x3 : Vec F S1x512x256 .f32) (x4 : Vec F S256x128 .f32) :
    out0_A_7 c i arg2 harg2 arg3 harg3 arg4 harg4 arg5 harg5 arg6 harg6 arg7 harg7 arg8 harg8 arg9 harg9 arg10 harg10 hc0 hc1 x0 x1 x2 x3 x4 = k0_pay7 x3 (k0_pay3 x1 x0 x2 x4) (k0_pay2 (F := F)) := by
  unfold out0_A_7
  rw [View.read_writes_eq_canon _ _ _ (cover0_A_7 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  refine (View.canon_cons_unit_zero (S := S1x128) hz2 _ _ _).trans ?_
  simp only [View.readAt_eq_ld, harg2.read_unread, harg3.read_unread, harg4.read_unread, harg5.read_unread, harg6.read_unread, harg8.read_unread, harg9.read_unread, harg10.read_unread,
    View.readCov_unit_zero (S := S256x128) _ hz2, View.readCov_unit_zero (S := S1x128) _ hz2, View.ld_unit_zero (S := S256x10) hz2, View.ld_unit_zero (S := S1x1x10) hz3, View.ld_unit_zero (S := S256x1) hz2,
    View.ld_unit_zero (S := S256x128) hz2, View.ld_unit_zero (S := S1x512x256) hz3, View.ld_unit_zero (S := S1x128) hz2]

theorem sout0_B_0_eq (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : ¬cond0_0 i) (hc1 : cond0_1 i)
    (x0 : Vec F S1x1x10 .f32) (x1 : Vec F S256x10 .f32) (x2 : Vec F S256x1 .f32) (x3 : Vec F S1x512x256 .f32) (x4 : Vec F S256x128 .f32) (xo6 : Vec F S1x128 .f32) (xo7 : Vec F S1x128 .f32) :
    sout0_B_0 c i arg2 harg2 arg3 harg3 arg4 harg4 arg5 harg5 arg6 harg6 arg7 harg7 arg8 harg8 arg9 harg9 arg10 harg10 hc0 hc1 x0 x1 x2 x3 x4 xo6 xo7 = (k0_pay3 x1 x0 x2 x4) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xo6 xo7)]
  unfold kernelRun0_B
  dsimp only
  sl_unfold_words
  refine (View.canon_unit_zero (S := S256x128) hz2 _ _).trans ?_
  simp only [View.readAt_eq_ld, harg2.read_unread, harg3.read_unread, harg4.read_unread, harg5.read_unread, harg6.read_unread, harg8.read_unread, harg9.read_unread, harg10.read_unread,
    View.readCov_unit_zero (S := S256x128) _ hz2, View.readCov_unit_zero (S := S1x128) _ hz2, View.ld_unit_zero (S := S256x10) hz2, View.ld_unit_zero (S := S1x1x10) hz3, View.ld_unit_zero (S := S256x1) hz2,
    View.ld_unit_zero (S := S256x128) hz2, View.ld_unit_zero (S := S1x512x256) hz3, View.ld_unit_zero (S := S1x128) hz2]

theorem out0_B_5_eq (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : ¬cond0_0 i) (hc1 : cond0_1 i)
    (x0 : Vec F S1x1x10 .f32) (x1 : Vec F S256x10 .f32) (x2 : Vec F S256x1 .f32) (x3 : Vec F S1x512x256 .f32) (x4 : Vec F S256x128 .f32) (xo6 : Vec F S1x128 .f32) (xo7 : Vec F S1x128 .f32) :
    out0_B_5 c i arg2 harg2 arg3 harg3 arg4 harg4 arg5 harg5 arg6 harg6 arg7 harg7 arg8 harg8 arg9 harg9 arg10 harg10 hc0 hc1 x0 x1 x2 x3 x4 xo6 xo7 = k0_pay5 x3 (k0_pay3 x1 x0 x2 x4) := by
  unfold out0_B_5
  rw [View.read_writes_eq_canon _ _ _ (cover0_B_5 c i arg2 harg2 arg3 harg3 arg4 harg4 arg5 harg5 arg6 harg6 arg7 harg7 arg8 harg8 arg9 harg9 arg10 harg10 hc0 hc1 x0 x1 x2 x3 x4 xo6 xo7)]
  unfold kernelRun0_B
  dsimp only
  sl_unfold_words
  refine (View.canon_unit_zero (S := S1x512x128) hz3 _ _).trans ?_
  simp only [View.readAt_eq_ld, harg2.read_unread, harg3.read_unread, harg4.read_unread, harg5.read_unread, harg6.read_unread, harg8.read_unread, harg9.read_unread, harg10.read_unread,
    View.readCov_unit_zero (S := S256x128) _ hz2, View.readCov_unit_zero (S := S1x128) _ hz2, View.ld_unit_zero (S := S256x10) hz2, View.ld_unit_zero (S := S1x1x10) hz3, View.ld_unit_zero (S := S256x1) hz2,
    View.ld_unit_zero (S := S256x128) hz2, View.ld_unit_zero (S := S1x512x256) hz3, View.ld_unit_zero (S := S1x128) hz2]

theorem out0_B_6_eq (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : ¬cond0_0 i) (hc1 : cond0_1 i)
    (x0 : Vec F S1x1x10 .f32) (x1 : Vec F S256x10 .f32) (x2 : Vec F S256x1 .f32) (x3 : Vec F S1x512x256 .f32) (x4 : Vec F S256x128 .f32) (xo6 : Vec F S1x128 .f32) (xo7 : Vec F S1x128 .f32) :
    out0_B_6 c i arg2 harg2 arg3 harg3 arg4 harg4 arg5 harg5 arg6 harg6 arg7 harg7 arg8 harg8 arg9 harg9 arg10 harg10 hc0 hc1 x0 x1 x2 x3 x4 xo6 xo7 = k0_pay6 x3 (k0_pay3 x1 x0 x2 x4) xo6 := by
  unfold out0_B_6
  rw [View.read_writes_eq_canon _ _ _ (cover0_B_6 c i arg2 harg2 arg3 harg3 arg4 harg4 arg5 harg5 arg6 harg6 arg7 harg7 arg8 harg8 arg9 harg9 arg10 harg10 hc0 hc1 x0 x1 x2 x3 x4 xo6 xo7)]
  unfold kernelRun0_B
  dsimp only
  sl_unfold_words
  refine (View.canon_unit_zero (S := S1x128) hz2 _ _).trans ?_
  simp only [View.readAt_eq_ld, harg2.read_unread, harg3.read_unread, harg4.read_unread, harg5.read_unread, harg6.read_unread, harg8.read_unread, harg9.read_unread, harg10.read_unread,
    View.readCov_unit_zero (S := S256x128) _ hz2, View.readCov_unit_zero (S := S1x128) _ hz2, View.ld_unit_zero (S := S256x10) hz2, View.ld_unit_zero (S := S1x1x10) hz3, View.ld_unit_zero (S := S256x1) hz2,
    View.ld_unit_zero (S := S256x128) hz2, View.ld_unit_zero (S := S1x512x256) hz3, View.ld_unit_zero (S := S1x128) hz2]

theorem out0_B_7_eq (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : ¬cond0_0 i) (hc1 : cond0_1 i)
    (x0 : Vec F S1x1x10 .f32) (x1 : Vec F S256x10 .f32) (x2 : Vec F S256x1 .f32) (x3 : Vec F S1x512x256 .f32) (x4 : Vec F S256x128 .f32) (xo6 : Vec F S1x128 .f32) (xo7 : Vec F S1x128 .f32) :
    out0_B_7 c i arg2 harg2 arg3 harg3 arg4 harg4 arg5 harg5 arg6 harg6 arg7 harg7 arg8 harg8 arg9 harg9 arg10 harg10 hc0 hc1 x0 x1 x2 x3 x4 xo6 xo7 = k0_pay7 x3 (k0_pay3 x1 x0 x2 x4) xo7 := by
  unfold out0_B_7
  rw [View.read_writes_eq_canon _ _ _ (cover0_B_7 c i arg2 harg2 arg3 harg3 arg4 harg4 arg5 harg5 arg6 harg6 arg7 harg7 arg8 harg8 arg9 harg9 arg10 harg10 hc0 hc1 x0 x1 x2 x3 x4 xo6 xo7)]
  unfold kernelRun0_B
  dsimp only
  sl_unfold_words
  refine (View.canon_unit_zero (S := S1x128) hz2 _ _).trans ?_
  simp only [View.readAt_eq_ld, harg2.read_unread, harg3.read_unread, harg4.read_unread, harg5.read_unread, harg6.read_unread, harg8.read_unread, harg9.read_unread, harg10.read_unread,
    View.readCov_unit_zero (S := S256x128) _ hz2, View.readCov_unit_zero (S := S1x128) _ hz2, View.ld_unit_zero (S := S256x10) hz2, View.ld_unit_zero (S := S1x1x10) hz3, View.ld_unit_zero (S := S256x1) hz2,
    View.ld_unit_zero (S := S256x128) hz2, View.ld_unit_zero (S := S1x512x256) hz3, View.ld_unit_zero (S := S1x128) hz2]

theorem out0_C_5_eq (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : ¬cond0_0 i) (hc1 : ¬cond0_1 i)
    (x0 : Vec F S1x1x10 .f32) (x1 : Vec F S256x10 .f32) (x2 : Vec F S256x1 .f32) (x3 : Vec F S1x512x256 .f32) (x4 : Vec F S256x128 .f32) (xo6 : Vec F S1x128 .f32) (xo7 : Vec F S1x128 .f32) (xs0 : Vec F S256x128 .f32) :
    out0_C_5 c i arg2 harg2 arg3 harg3 arg4 harg4 arg5 harg5 arg6 harg6 arg7 harg7 arg8 harg8 arg9 harg9 arg10 harg10 hc0 hc1 x0 x1 x2 x3 x4 xo6 xo7 xs0 = k0_pay5 x3 xs0 := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xo6 xo7 xs0)]
  unfold kernelRun0_C
  dsimp only
  sl_unfold_words
  refine (View.canon_unit_zero (S := S1x512x128) hz3 _ _).trans ?_
  simp only [View.readAt_eq_ld, harg2.read_unread, harg3.read_unread, harg4.read_unread, harg5.read_unread, harg6.read_unread, harg8.read_unread, harg9.read_unread, harg10.read_unread,
    View.readCov_unit_zero (S := S256x128) _ hz2, View.readCov_unit_zero (S := S1x128) _ hz2, View.ld_unit_zero (S := S256x10) hz2, View.ld_unit_zero (S := S1x1x10) hz3, View.ld_unit_zero (S := S256x1) hz2,
    View.ld_unit_zero (S := S256x128) hz2, View.ld_unit_zero (S := S1x512x256) hz3, View.ld_unit_zero (S := S1x128) hz2]

theorem out0_C_6_eq (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : ¬cond0_0 i) (hc1 : ¬cond0_1 i)
    (x0 : Vec F S1x1x10 .f32) (x1 : Vec F S256x10 .f32) (x2 : Vec F S256x1 .f32) (x3 : Vec F S1x512x256 .f32) (x4 : Vec F S256x128 .f32) (xo6 : Vec F S1x128 .f32) (xo7 : Vec F S1x128 .f32) (xs0 : Vec F S256x128 .f32) :
    out0_C_6 c i arg2 harg2 arg3 harg3 arg4 harg4 arg5 harg5 arg6 harg6 arg7 harg7 arg8 harg8 arg9 harg9 arg10 harg10 hc0 hc1 x0 x1 x2 x3 x4 xo6 xo7 xs0 = k0_pay6 x3 xs0 xo6 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 xo6 xo7 xs0)]
  unfold kernelRun0_C
  dsimp only
  sl_unfold_words
  refine (View.canon_unit_zero (S := S1x128) hz2 _ _).trans ?_
  simp only [View.readAt_eq_ld, harg2.read_unread, harg3.read_unread, harg4.read_unread, harg5.read_unread, harg6.read_unread, harg8.read_unread, harg9.read_unread, harg10.read_unread,
    View.readCov_unit_zero (S := S256x128) _ hz2, View.readCov_unit_zero (S := S1x128) _ hz2, View.ld_unit_zero (S := S256x10) hz2, View.ld_unit_zero (S := S1x1x10) hz3, View.ld_unit_zero (S := S256x1) hz2,
    View.ld_unit_zero (S := S256x128) hz2, View.ld_unit_zero (S := S1x512x256) hz3, View.ld_unit_zero (S := S1x128) hz2]

theorem out0_C_7_eq (c : Dev nD) (i : grid0.Coords) (arg2 : Memref sig .tc .vmem S1x1x10 .f32) (harg2 : arg2.IsWhole) (arg3 : Memref sig .tc .vmem S256x10 .f32) (harg3 : arg3.IsWhole) (arg4 : Memref sig .tc .vmem S256x1 .f32) (harg4 : arg4.IsWhole) (arg5 : Memref sig .tc .vmem S1x512x256 .f32) (harg5 : arg5.IsWhole) (arg6 : Memref sig .tc .vmem S256x128 .f32) (harg6 : arg6.IsWhole) (arg7 : Memref sig .tc .vmem S1x512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole) (hc0 : ¬cond0_0 i) (hc1 : ¬cond0_1 i)
    (x0 : Vec F S1x1x10 .f32) (x1 : Vec F S256x10 .f32) (x2 : Vec F S256x1 .f32) (x3 : Vec F S1x512x256 .f32) (x4 : Vec F S256x128 .f32) (xo6 : Vec F S1x128 .f32) (xo7 : Vec F S1x128 .f32) (xs0 : Vec F S256x128 .f32) :
    out0_C_7 c i arg2 harg2 arg3 harg3 arg4 harg4 arg5 harg5 arg6 harg6 arg7 harg7 arg8 harg8 arg9 harg9 arg10 harg10 hc0 hc1 x0 x1 x2 x3 x4 xo6 xo7 xs0 = k0_pay7 x3 xs0 xo7 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 xo6 xo7 xs0)]
  unfold kernelRun0_C
  dsimp only
  sl_unfold_words
  refine (View.canon_unit_zero (S := S1x128) hz2 _ _).trans ?_
  simp only [View.readAt_eq_ld, harg2.read_unread, harg3.read_unread, harg4.read_unread, harg5.read_unread, harg6.read_unread, harg8.read_unread, harg9.read_unread, harg10.read_unread,
    View.readCov_unit_zero (S := S256x128) _ hz2, View.readCov_unit_zero (S := S1x128) _ hz2, View.ld_unit_zero (S := S256x10) hz2, View.ld_unit_zero (S := S1x1x10) hz3, View.ld_unit_zero (S := S256x1) hz2,
    View.ld_unit_zero (S := S256x128) hz2, View.ld_unit_zero (S := S1x512x256) hz3, View.ld_unit_zero (S := S1x128) hz2]

end Cert.ReferenceIdeal.Hand

end
-- ==== Proof.RefPayIdx.lean ====
import proofs.«134701_g2000104339650780_pallasbulk_589_17_alg».proof.Proof.Gen.ReferenceIdeal.Skeleton
import proofs.«134701_g2000104339650780_pallasbulk_589_17_alg».proof.Proof.LibColRowBroadcast
import proofs.«134701_g2000104339650780_pallasbulk_589_17_alg».proof.Proof.LibPlainMatmul
import Idealize.ShloMosaic.PureOps.Ideal.Laws
import Idealize.ShloMosaic.Lib.Pipeline.Value
import Idealize.ShloMosaic.Lib.ValueIdx

set_option maxRecDepth 16384

noncomputable section

namespace Cert.ReferenceIdeal.Hand

open Idealize.ShloMosaic Idealize.ShloMosaic.TcCoe Idealize.ShloMosaic.ValueIdx Idealize.SL.Sem
open Cert.ReferenceIdeal Cert.ReferenceIdeal.Gen

/-! # The reference's kernel bodies read at one entry, on the extended reals -/

/-- The scaled weight table at (k, o): the weight times the gate of its row, the gate the logistic of the row's
    dot product with the squeeze vector plus its bias. -/
theorem pay3_apply (v28 : Vec Ideal S256x10 .f32) (v30 : Vec Ideal S1x1x10 .f32) (v36 : Vec Ideal S256x1 .f32) (v40 : Vec Ideal S256x128 .f32)
    (k : Fin 256) (o : Fin 128) :
    k0_pay3 v28 v30 v36 v40 (ix2 k o)
      = v40 (ix2 k o) * Ideal.logistic ((∑ q : Fin 10, v28 (ix2 k q) * v30 (ix3 (0 : Fin 1) (0 : Fin 1) q)) + v36 (ix2 k (0 : Fin 1))) := by
  unfold k0_pay3
  simp only [shapeCast_self]
  rw [mulf_apply, Cert.ColRowBroadcast.colBroadcast_apply]
  refine congrArg (v40 (ix2 k o) * ·) ?_
  show Ideal.logistic _ = _
  refine congrArg Ideal.logistic ?_
  rw [addf_apply]
  refine congrArg (· + v36 (ix2 k (0 : Fin 1))) ?_
  rw [Cert.ColRowBroadcast.colCast_apply]
  refine (Ideal.multiReduction_add_single _ 0x00000000#32 reduces_S256x10_S256 (.inl rfl) rfl (ix1 k)).trans ?_
  refine Finset.sum_congr rfl fun (q : Fin 10) _ => ?_
  have hl : reduces_S256x10_S256.lift (ix1 k) q = ix2 k q := by
    funext a; match a with | ⟨0, _⟩ => rfl | ⟨1, _⟩ => rfl
  rw [hl, mulf_apply, Cert.ColRowBroadcast.rowBroadcast_apply]
  refine congrArg (v28 (ix2 k q) * ·) ?_
  refine shapeCast_apply v30 shapeCasts_S1x1x10_S1x10 (ix2 (0 : Fin 1) q) (ix3 (0 : Fin 1) (0 : Fin 1) q) ?_
  rw [Shape.rowMajor_val_three, Shape.rowMajor_val_two]
  show (0 * 1 + 0) * 10 + q.val = 0 * 10 + q.val
  omega

/-- The tile's product at (r, o): row r of the tile against column o of the scaled table. -/
theorem pay4_apply (v8 : Vec Ideal S1x512x256 .f32) (v10 : Vec Ideal S256x128 .f32) (r : Fin 512) (o : Fin 128) :
    k0_pay4 v8 v10 (ix2 r o) = ∑ k : Fin 256, v8 (ix3 (0 : Fin 1) r k) * v10 (ix2 k o) := by
  unfold k0_pay4
  refine (Cert.PlainMatmul.matmul_zero_apply 512 256 128 none (shapeCast S512x256 v8 shapeCasts_S1x512x256_S512x256) v10 r o).trans ?_
  refine Finset.sum_congr rfl fun k _ => ?_
  refine congrArg (· * v10 (ix2 k o)) ?_
  refine shapeCast_apply v8 shapeCasts_S1x512x256_S512x256 (ix2 r k) (ix3 (0 : Fin 1) r k) ?_
  rw [Shape.rowMajor_val_three, Shape.rowMajor_val_two]
  show (0 * 512 + r.val) * 256 + k.val = r.val * 256 + k.val
  omega

theorem pay5_apply (v8 : Vec Ideal S1x512x256 .f32) (v10 : Vec Ideal S256x128 .f32) (z : Fin 1) (r : Fin 512) (o : Fin 128) :
    k0_pay5 v8 v10 (ix3 z r o) = k0_pay4 v8 v10 (ix2 r o) := by
  unfold k0_pay5
  refine shapeCast_apply (k0_pay4 v8 v10) shapeCasts_S512x128_S1x512x128 (ix3 z r o) (ix2 r o) ?_
  rw [Shape.rowMajor_val_three, Shape.rowMajor_val_two]
  show r.val * 128 + o.val = (z.val * 512 + r.val) * 128 + o.val
  have := z.isLt
  omega

/-- The running sum row after the tile: what it held plus the tile's column sums. -/
theorem pay6_apply (v8 : Vec Ideal S1x512x256 .f32) (v10 : Vec Ideal S256x128 .f32) (v15 : Vec Ideal S1x128 .f32) (z : Fin 1) (o : Fin 128) :
    k0_pay6 v8 v10 v15 (ix2 z o) = v15 (ix2 z o) + ∑ r : Fin 512, k0_pay4 v8 v10 (ix2 r o) := by
  unfold k0_pay6
  simp only [shapeCast_self]
  rw [addf_apply]
  refine congrArg (v15 (ix2 z o) + ·) ?_
  rw [Cert.ColRowBroadcast.rowCast_apply]
  refine (Ideal.multiReduction_add_single _ 0x00000000#32 reduces_S512x128_S128 (.inl rfl) rfl (ix1 o)).trans ?_
  refine Finset.sum_congr rfl fun (r : Fin 512) _ => ?_
  have hl : reduces_S512x128_S128.lift (ix1 o) r = ix2 r o := by
    funext a; match a with | ⟨0, _⟩ => rfl | ⟨1, _⟩ => rfl
  exact congrArg (k0_pay4 v8 v10) hl

/-- The running sum-of-squares row after the tile. -/
theorem pay7_apply (v8 : Vec Ideal S1x512x256 .f32) (v10 : Vec Ideal S256x128 .f32) (v21 : Vec Ideal S1x128 .f32) (z : Fin 1) (o : Fin 128) :
    k0_pay7 v8 v10 v21 (ix2 z o) = v21 (ix2 z o) + ∑ r : Fin 512, k0_pay4 v8 v10 (ix2 r o) * k0_pay4 v8 v10 (ix2 r o) := by
  unfold k0_pay7
  simp only [shapeCast_self]
  rw [addf_apply]
  refine congrArg (v21 (ix2 z o) + ·) ?_
  rw [Cert.ColRowBroadcast.rowCast_apply]
  refine (Ideal.multiReduction_add_single _ 0x00000000#32 reduces_S512x128_S128 (.inl rfl) rfl (ix1 o)).trans ?_
  refine Finset.sum_congr rfl fun (r : Fin 512) _ => ?_
  have hl : reduces_S512x128_S128.lift (ix1 o) r = ix2 r o := by
    funext a; match a with | ⟨0, _⟩ => rfl | ⟨1, _⟩ => rfl
  rw [hl, mulf_apply]

theorem pay1_apply (j : S1x128.Idx) : k0_pay1 (F := Ideal) j = 0 := by
  unfold k0_pay1
  show Ideal.ofBits .f32 0x00000000#32 = 0
  exact Ideal.ofBits_zero_f32
theorem pay2_apply (j : S1x128.Idx) : k0_pay2 (F := Ideal) j = 0 := by
  unfold k0_pay2
  show Ideal.ofBits .f32 0x00000000#32 = 0
  exact Ideal.ofBits_zero_f32

/-- The normalisation pass at (r, o): the entry times the column's scale plus the column's shift. -/
theorem k1_pay1_apply (v0 : Vec Ideal S512x128 .f32) (v2 v6 : Vec Ideal S1x128 .f32) (r : Fin 512) (o : Fin 128) :
    k1_pay1 v0 v2 v6 (ix2 r o) = v0 (ix2 r o) * v2 (ix2 (0 : Fin 1) o) + v6 (ix2 (0 : Fin 1) o) := by
  unfold k1_pay1
  simp only [shapeCast_self]
  rw [addf_apply, mulf_apply, Cert.ColRowBroadcast.rowBroadcast_apply, Cert.ColRowBroadcast.rowBroadcast_apply]

end Cert.ReferenceIdeal.Hand

end
-- ==== Proof.RefVal0.lean ====
import proofs.«134701_g2000104339650780_pallasbulk_589_17_alg».proof.Proof.RefBlocks0
import proofs.«134701_g2000104339650780_pallasbulk_589_17_alg».proof.Proof.RefPay0
import proofs.«134701_g2000104339650780_pallasbulk_589_17_alg».proof.Proof.RefPayIdx

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # The statistics pass: every buffer after every point, as sums over the operand arrays

With the gate-scaled weight table of batch entry `b` written `wscAt b`, the product written `yAt b R o` (row `R` of
the padded image against column `o` of that table): after point `t` the kept table is `wscAt (t / 7)`, the tile output is
`yAt` on the tile's rows, and each statistic row is the sum over the points met so far of the tile's column sums. -/

section Region0
variable (V : (c : Dev nD) → (b : Ref sig .tc) → Buf (Elt Ideal) ((c : Thread nD τ).loc b))

/-- The operand arrays the statistics pass is entered with, as arrays of extended reals. -/
abbrev aX63 (c : Dev nD) : S32x1x10.Idx → EReal := V c main_v3
abbrev aW1 (c : Dev nD) : S256x10.Idx → EReal := V c main_v4
abbrev aB1 (c : Dev nD) : S256x1.Idx → EReal := V c main_v6
abbrev aXs (c : Dev nD) : S32x3584x256.Idx → EReal := V c main_v2
abbrev aW2 (c : Dev nD) : S256x128.Idx → EReal := V c main_v8

/-- The gate-scaled weight table of batch entry `b` at (k, o). -/
def wscAt (c : Dev nD) (b : Fin 32) (k : Fin 256) (o : Fin 128) : EReal :=
  aW2 V c (ix2 k o) * Ideal.logistic ((∑ q : Fin 10, aW1 V c (ix2 k q) * aX63 V c (ix3 b (0 : Fin 1) q)) + aB1 V c (ix2 k (0 : Fin 1)))
def wsc (c : Dev nD) (b : Fin 32) : Vec Ideal S256x128 .f32 := fun j => wscAt V c b (j 0) (j 1)
/-- The product at batch entry `b`, padded row `R`, column `o`. -/
def yAt (c : Dev nD) (b : Fin 32) (R : Fin 3584) (o : Fin 128) : EReal :=
  ∑ k : Fin 256, aXs V c (ix3 b R k) * wscAt V c b k o

/-- What the body computes as the kept table at point `t` is the gate-scaled table of the point's batch entry. -/
theorem pay3_at (c : Dev nD) (t : Fin cfg0.N) :
    k0_pay3 (iblk0 V c 1 t) (iblk0 V c 0 t) (iblk0 V c 2 t) (iblk0 V c 4 t) = wsc V c (bOf t) := by
  funext j
  obtain ⟨k, o, rfl⟩ : ∃ (k : Fin 256) (o : Fin 128), j = ix2 k o := ⟨j 0, j 1, eq_ix2 j⟩
  rw [pay3_apply, iblk0_1_eq, iblk0_2_eq, iblk0_4_eq]
  simp only [iblk0_0_apply]
  rfl

/-- The tile's product with that table, at a tile row. -/
theorem pay4_at (c : Dev nD) (t : Fin cfg0.N) (r : Fin 512) (o : Fin 128) :
    k0_pay4 (iblk0 V c 3 t) (wsc V c (bOf t)) (ix2 r o) = yAt V c (bOf t) (rowOf t r) o := by
  rw [pay4_apply]
  simp only [iblk0_3_apply]
  rfl

/-- The tile's column sum and column sum of squares at point `s` (zero past the grid). -/
def T1 (c : Dev nD) (s : ℕ) (o : Fin 128) : EReal :=
  if h : s < cfg0.N then ∑ r : Fin 512, yAt V c (bOf ⟨s, h⟩) (rowOf ⟨s, h⟩ r) o else 0
def T2 (c : Dev nD) (s : ℕ) (o : Fin 128) : EReal :=
  if h : s < cfg0.N then ∑ r : Fin 512, yAt V c (bOf ⟨s, h⟩) (rowOf ⟨s, h⟩ r) o * yAt V c (bOf ⟨s, h⟩) (rowOf ⟨s, h⟩ r) o else 0

theorem pay6_at (c : Dev nD) (t : Fin cfg0.N) (acc : Vec Ideal S1x128 .f32) (z : Fin 1) (o : Fin 128) :
    k0_pay6 (iblk0 V c 3 t) (wsc V c (bOf t)) acc (ix2 z o) = acc (ix2 z o) + T1 V c t.val o := by
  rw [pay6_apply]
  simp only [pay4_at]
  unfold T1
  rw [dif_pos t.isLt]
theorem pay7_at (c : Dev nD) (t : Fin cfg0.N) (acc : Vec Ideal S1x128 .f32) (z : Fin 1) (o : Fin 128) :
    k0_pay7 (iblk0 V c 3 t) (wsc V c (bOf t)) acc (ix2 z o) = acc (ix2 z o) + T2 V c t.val o := by
  rw [pay7_apply]
  simp only [pay4_at]
  unfold T2
  rw [dif_pos t.isLt]

/-- The four buffers after each point, in closed form. -/
def closed (c : Dev nD) (n : ℕ) (hn : n < cfg0.N) : Vec Ideal S1x512x128 .f32 × Vec Ideal S1x128 .f32 × Vec Ideal S1x128 .f32 × Vec Ideal S256x128 .f32 :=
  (k0_pay5 (iblk0 V c 3 ⟨n, hn⟩) (wsc V c (bOf ⟨n, hn⟩)),
   (fun j => ∑ s ∈ Finset.range (n + 1), T1 V c s (j 1)),
   (fun j => ∑ s ∈ Finset.range (n + 1), T2 V c s (j 1)),
   wsc V c (bOf ⟨n, hn⟩))

theorem bOf_succ (n : ℕ) (hn : n + 1 < cfg0.N) (h1 : ¬(n + 1) % 7 = 0) :
    bOf ⟨n + 1, hn⟩ = bOf ⟨n, Nat.lt_of_succ_lt hn⟩ := by
  unfold bOf; apply Fin.ext; show (n + 1) / 7 = n / 7; omega

theorem outsAt0_closed (c : Dev nD) : ∀ (n : ℕ) (hn : n < cfg0.N), outsAt0 V c n hn = closed V c n hn
  | 0, hn => by
    rw [outsAt0_A V c ⟨0, hn⟩ rfl]
    simp only [out0_A_5_eq, out0_A_6_eq, out0_A_7_eq, sout0_A_0_eq, pay3_at]
    unfold closed
    refine Prod.ext rfl (Prod.ext ?_ (Prod.ext ?_ rfl))
    · funext j
      obtain ⟨z, o, rfl⟩ : ∃ (z : Fin 1) (o : Fin 128), j = ix2 z o := ⟨j 0, j 1, eq_ix2 j⟩
      show k0_pay6 (iblk0 V c 3 ⟨0, hn⟩) (wsc V c (bOf ⟨0, hn⟩)) (k0_pay1 (F := Ideal)) (ix2 z o) = _
      rw [pay6_at, pay1_apply, zero_add]
      exact (Finset.sum_range_one (fun s => T1 V c s o)).symm
    · funext j
      obtain ⟨z, o, rfl⟩ : ∃ (z : Fin 1) (o : Fin 128), j = ix2 z o := ⟨j 0, j 1, eq_ix2 j⟩
      show k0_pay7 (iblk0 V c 3 ⟨0, hn⟩) (wsc V c (bOf ⟨0, hn⟩)) (k0_pay2 (F := Ideal)) (ix2 z o) = _
      rw [pay7_at, pay2_apply, zero_add]
      exact (Finset.sum_range_one (fun s => T2 V c s o)).symm
  | n + 1, hn => by
    have ih := outsAt0_closed c n (Nat.lt_of_succ_lt hn)
    by_cases h1 : (n + 1) % 7 = 0
    · rw [outsAt0_B V c ⟨n + 1, hn⟩ (Nat.succ_ne_zero n) h1]
      simp only [out0_B_5_eq, out0_B_6_eq, out0_B_7_eq, sout0_B_0_eq, pay3_at]
      show (_, k0_pay6 _ _ (outsAt0 V c n _).2.1, k0_pay7 _ _ (outsAt0 V c n _).2.2.1, _) = _
      rw [ih]
      unfold closed
      refine Prod.ext rfl (Prod.ext ?_ (Prod.ext ?_ rfl))
      · funext j
        obtain ⟨z, o, rfl⟩ : ∃ (z : Fin 1) (o : Fin 128), j = ix2 z o := ⟨j 0, j 1, eq_ix2 j⟩
        show k0_pay6 (iblk0 V c 3 ⟨n + 1, hn⟩) (wsc V c (bOf ⟨n + 1, hn⟩)) _ (ix2 z o) = _
        rw [pay6_at]
        exact (Finset.sum_range_succ (fun s => T1 V c s o) (n + 1)).symm
      · funext j
        obtain ⟨z, o, rfl⟩ : ∃ (z : Fin 1) (o : Fin 128), j = ix2 z o := ⟨j 0, j 1, eq_ix2 j⟩
        show k0_pay7 (iblk0 V c 3 ⟨n + 1, hn⟩) (wsc V c (bOf ⟨n + 1, hn⟩)) _ (ix2 z o) = _
        rw [pay7_at]
        exact (Finset.sum_range_succ (fun s => T2 V c s o) (n + 1)).symm
    · rw [outsAt0_C V c ⟨n + 1, hn⟩ (Nat.succ_ne_zero n) h1]
      simp only [out0_C_5_eq, out0_C_6_eq, out0_C_7_eq]
      show (k0_pay5 _ (outsAt0 V c n _).2.2.2, k0_pay6 _ (outsAt0 V c n _).2.2.2 (outsAt0 V c n _).2.1, k0_pay7 _ (outsAt0 V c n _).2.2.2 (outsAt0 V c n _).2.2.1, (outsAt0 V c n _).2.2.2) = _
      rw [ih]
      unfold closed
      rw [bOf_succ n hn h1]
      refine Prod.ext rfl (Prod.ext ?_ (Prod.ext ?_ rfl))
      · funext j
        obtain ⟨z, o, rfl⟩ : ∃ (z : Fin 1) (o : Fin 128), j = ix2 z o := ⟨j 0, j 1, eq_ix2 j⟩
        show k0_pay6 (iblk0 V c 3 ⟨n + 1, hn⟩) (wsc V c (bOf ⟨n, Nat.lt_of_succ_lt hn⟩)) _ (ix2 z o) = _
        rw [← bOf_succ n hn h1, pay6_at]
        exact (Finset.sum_range_succ (fun s => T1 V c s o) (n + 1)).symm
      · funext j
        obtain ⟨z, o, rfl⟩ : ∃ (z : Fin 1) (o : Fin 128), j = ix2 z o := ⟨j 0, j 1, eq_ix2 j⟩
        show k0_pay7 (iblk0 V c 3 ⟨n + 1, hn⟩) (wsc V c (bOf ⟨n, Nat.lt_of_succ_lt hn⟩)) _ (ix2 z o) = _
        rw [← bOf_succ n hn h1, pay7_at]
        exact (Finset.sum_range_succ (fun s => T2 V c s o) (n + 1)).symm

end Region0

end Cert.ReferenceIdeal.Hand

end
-- ==== Proof.RefVal0b.lean ====
import proofs.«134701_g2000104339650780_pallasbulk_589_17_alg».proof.Proof.RefVal0

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # The statistics pass: its three output arrays after the run

Every tile is written back once, so the product array ends as `yAt` everywhere; each statistic row is written back
after the last point only, and ends as the sum over all 224 points of the tiles' column sums. -/

section Region0
variable (V : (c : Dev nD) → (b : Ref sig .tc) → Buf (Elt Ideal) ((c : Thread nD τ).loc b))

/-- The product array. -/
def G5 (c : Dev nD) : S32x3584x128.Idx → EReal := fun i => yAt V c (i 0) (i 1) (i 2)
/-- The statistic rows. -/
def G6 (c : Dev nD) : S1x128.Idx → EReal := fun j => ∑ s ∈ Finset.range 224, T1 V c s (j 1)
def G7 (c : Dev nD) : S1x128.Idx → EReal := fun j => ∑ s ∈ Finset.range 224, T2 V c s (j 1)

theorem flushed0_5 (c : Dev nD) (t : Fin cfg0.N) :
    (dat0 V c).flushed 5 t = ((cfg0.win 5).blk t).view.read (Elt Ideal) (G5 V c) := by
  show (cfg0.win 5).cut (grid0.coords t) ((dat0 V c).after 5 t) = _
  rw [after0_5, outsAt0_closed]
  funext j
  obtain ⟨z, r, o, rfl⟩ : ∃ (z : Fin 1) (r : Fin 512) (o : Fin 128), j = ix3 z r o := ⟨j 0, j 1, j 2, eq_ix3 j⟩
  show k0_pay5 (iblk0 V c 3 t) (wsc V c (bOf t)) (ix3 z r o) = G5 V c (((cfg0.win 5).blk t).view.emb (ix3 z r o))
  rw [pay5_apply, pay4_at]
  obtain ⟨-, -, -, -, -, -, -, -, -, -, -, -, e0, e1, e2, -⟩ := idx_facts0 t
  have hz := z.isLt
  unfold G5
  have h0 : (((cfg0.win 5).blk t).view.emb (ix3 z r o)) 0 = bOf t := Fin.ext (by
    show win0_5.index t (0 : Fin 3) * 1 + 1 * z.val = t.val / 7; omega)
  have h1 : (((cfg0.win 5).blk t).view.emb (ix3 z r o)) 1 = rowOf t r := Fin.ext (by
    show win0_5.index t (1 : Fin 3) * 512 + 1 * r.val = (t.val % 7) * 512 + r.val; omega)
  have h2 : (((cfg0.win 5).blk t).view.emb (ix3 z r o)) 2 = o := Fin.ext (by
    show win0_5.index t (2 : Fin 3) * 128 + 1 * o.val = o.val; omega)
  rw [h0, h1, h2]

theorem mem_blk0_5 (t : Fin cfg0.N) (i : S32x3584x128.Idx) :
    i ∈ ((cfg0.win 5).blk t).view.set ↔ ∀ a : Fin 3, win0_5.index t a * S1x512x128.size a ≤ (i a).val ∧ (i a).val < win0_5.index t a * S1x512x128.size a + S1x512x128.size a := by
  show i ∈ ((View.whole main_v13_0).slice (win0_5.rect t)).set ↔ _
  rw [View.set_slice_whole, Rect.mem_set_unit]
  exact Iff.rfl

theorem cover0_5 (i : S32x3584x128.Idx) :
    ∃ t : Fin cfg0.N, (cfg0.win 5).flush t = true ∧ i ∈ ((cfg0.win 5).blk t).view.set := by
  have h0 : (i 0).val < 32 := (i 0).isLt
  have h1 : (i 1).val < 3584 := (i 1).isLt
  have h2 : (i 2).val < 128 := (i 2).isLt
  let t : Fin cfg0.N := ⟨7 * (i 0).val + (i 1).val / 512, by rw [show cfg0.N = 224 from N_0]; omega⟩
  refine ⟨t, flush0_5 t, ?_⟩
  rw [mem_blk0_5]
  obtain ⟨-, -, -, -, -, -, -, -, -, -, -, -, e0, e1, e2, -⟩ := idx_facts0 t
  have ht : t.val = 7 * (i 0).val + (i 1).val / 512 := rfl
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 128 ≤ (i 2).val ∧ (i 2).val < win0_5.index t (2 : Fin 3) * 128 + 128; omega

theorem final0_5 (c : Dev nD) : (dat0 V c).arrAt 5 cfg0.N = G5 V c :=
  (dat0 V c).arrAt_eq_of_cover 5 (G5 V c) (fun t _ => flushed0_5 V c t) cover0_5

/-- A statistic row's one write-back, after the last point, is the whole row. -/
theorem last_of_flush6 (t : Fin cfg0.N) (hf : (cfg0.win 6).flush t = true) : t.val = 223 := by
  have hN : t.val < 224 := lt_of_lt_of_eq t.isLt (show cfg0.N = 224 from N_0)
  have := (flush0_6 t).mp hf; omega
theorem last_of_flush7 (t : Fin cfg0.N) (hf : (cfg0.win 7).flush t = true) : t.val = 223 := by
  have hN : t.val < 224 := lt_of_lt_of_eq t.isLt (show cfg0.N = 224 from N_0)
  have := (flush0_7 t).mp hf; omega

theorem flushed0_6 (c : Dev nD) (t : Fin cfg0.N) (hf : (cfg0.win 6).flush t = true) :
    (dat0 V c).flushed 6 t = ((cfg0.win 6).blk t).view.read (Elt Ideal) (G6 V c) := by
  show (cfg0.win 6).cut (grid0.coords t) ((dat0 V c).after 6 t) = _
  rw [after0_6, outsAt0_closed]
  funext j
  obtain ⟨z, o, rfl⟩ : ∃ (z : Fin 1) (o : Fin 128), j = ix2 z o := ⟨j 0, j 1, eq_ix2 j⟩
  show (∑ s ∈ Finset.range (t.val + 1), T1 V c s o) = G6 V c (((cfg0.win 6).blk t).view.emb (ix2 z o))
  rw [last_of_flush6 t hf]
  obtain ⟨-, -, -, -, -, -, -, -, -, -, -, -, -, -, -, e0, e1, -⟩ := idx_facts0 t
  unfold G6
  have h1 : (((cfg0.win 6).blk t).view.emb (ix2 z o)) 1 = o := Fin.ext (by
    show win0_6.index t (1 : Fin 2) * 128 + 1 * o.val = o.val; omega)
  rw [h1]
theorem flushed0_7 (c : Dev nD) (t : Fin cfg0.N) (hf : (cfg0.win 7).flush t = true) :
    (dat0 V c).flushed 7 t = ((cfg0.win 7).blk t).view.read (Elt Ideal) (G7 V c) := by
  show (cfg0.win 7).cut (grid0.coords t) ((dat0 V c).after 7 t) = _
  rw [after0_7, outsAt0_closed]
  funext j
  obtain ⟨z, o, rfl⟩ : ∃ (z : Fin 1) (o : Fin 128), j = ix2 z o := ⟨j 0, j 1, eq_ix2 j⟩
  show (∑ s ∈ Finset.range (t.val + 1), T2 V c s o) = G7 V c (((cfg0.win 7).blk t).view.emb (ix2 z o))
  rw [last_of_flush7 t hf]
  obtain ⟨-, -, -, -, -, -, -, -, -, -, -, -, -, -, -, -, -, e0, e1⟩ := idx_facts0 t
  unfold G7
  have h1 : (((cfg0.win 7).blk t).view.emb (ix2 z o)) 1 = o := Fin.ext (by
    show win0_7.index t (1 : Fin 2) * 128 + 1 * o.val = o.val; omega)
  rw [h1]

theorem cover0_6 (i : S1x128.Idx) :
    ∃ t : Fin cfg0.N, (cfg0.win 6).flush t = true ∧ i ∈ ((cfg0.win 6).blk t).view.set := by
  let t : Fin cfg0.N := ⟨223, by rw [show cfg0.N = 224 from N_0]; omega⟩
  refine ⟨t, (flush0_6 t).mpr rfl, ?_⟩
  show i ∈ ((View.whole main_v13_1).slice (win0_6.rect t)).set
  rw [View.set_slice_whole, Rect.mem_set_unit]
  obtain ⟨-, -, -, -, -, -, -, -, -, -, -, -, -, -, -, e0, e1, -⟩ := idx_facts0 t
  have h0 : (i 0).val < 1 := (i 0).isLt
  have h1 : (i 1).val < 128 := (i 1).isLt
  intro a
  match a with
  | ⟨0, _⟩ => show win0_6.index t (0 : Fin 2) * 1 ≤ (i 0).val ∧ (i 0).val < win0_6.index t (0 : Fin 2) * 1 + 1; omega
  | ⟨1, _⟩ => show win0_6.index t (1 : Fin 2) * 128 ≤ (i 1).val ∧ (i 1).val < win0_6.index t (1 : Fin 2) * 128 + 128; omega
theorem cover0_7 (i : S1x128.Idx) :
    ∃ t : Fin cfg0.N, (cfg0.win 7).flush t = true ∧ i ∈ ((cfg0.win 7).blk t).view.set := by
  let t : Fin cfg0.N := ⟨223, by rw [show cfg0.N = 224 from N_0]; omega⟩
  refine ⟨t, (flush0_7 t).mpr rfl, ?_⟩
  show i ∈ ((View.whole main_v13_2).slice (win0_7.rect t)).set
  rw [View.set_slice_whole, Rect.mem_set_unit]
  obtain ⟨-, -, -, -, -, -, -, -, -, -, -, -, -, -, -, -, -, e0, e1⟩ := idx_facts0 t
  have h0 : (i 0).val < 1 := (i 0).isLt
  have h1 : (i 1).val < 128 := (i 1).isLt
  intro a
  match a with
  | ⟨0, _⟩ => show win0_7.index t (0 : Fin 2) * 1 ≤ (i 0).val ∧ (i 0).val < win0_7.index t (0 : Fin 2) * 1 + 1; omega
  | ⟨1, _⟩ => show win0_7.index t (1 : Fin 2) * 128 ≤ (i 1).val ∧ (i 1).val < win0_7.index t (1 : Fin 2) * 128 + 128; omega

theorem final0_6 (c : Dev nD) : (dat0 V c).arrAt 6 cfg0.N = G6 V c :=
  (dat0 V c).arrAt_eq_of_cover 6 (G6 V c) (fun t hf => flushed0_6 V c t hf) cover0_6
theorem final0_7 (c : Dev nD) : (dat0 V c).arrAt 7 cfg0.N = G7 V c :=
  (dat0 V c).arrAt_eq_of_cover 7 (G7 V c) (fun t hf => flushed0_7 V c t hf) cover0_7

end Region0

end Cert.ReferenceIdeal.Hand

end
-- ==== Proof.RefVal1.lean ====
import proofs.«134701_g2000104339650780_pallasbulk_589_17_alg».proof.Proof.RefFrame1
import proofs.«134701_g2000104339650780_pallasbulk_589_17_alg».proof.Proof.RefPayIdx
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

local notation "𝕄" => MT nD τ sig Unit (Elt F) ℕ (UR sig nD τ) ℕ

/-! # The normalisation pass: its output array after the run

Point `t` handles rows `512 t … 512 t + 511` of the flattened product array; every row is written back once, and the
array ends as the entry times its column's scale plus its column's shift. -/

theorem hz2' : (![0, 0] : Fin 2 → Nat) = fun _ => 0 := by funext a; fin_cases a <;> rfl

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A row of a point's tile, as a row of the flattened array. -/
def rowOf1 (t : Fin cfg1.N) (r : Fin 512) : Fin 114688 := ⟨t.val * 512 + r.val, by
  have : t.val < 224 := lt_of_lt_of_eq t.isLt (show cfg1.N = 224 from N_1); have := r.isLt; omega⟩

section Region1
variable (V : (c : Dev nD) → (b : Ref sig .tc) → Buf (Elt F) ((c : Thread nD τ).loc b))

theorem iblk1_0_apply (c : Dev nD) (t : Fin cfg1.N) (r : Fin 512) (o : Fin 128) :
    iblk1 V c 0 t (ix2 r o) = V c main_v28 (ix2 (rowOf1 t r) o) := by
  show V c main_v28 (((cfg1.win 0).blk t).view.emb (ix2 r o)) = V c main_v28 (ix2 (rowOf1 t r) o)
  refine congrArg (V c main_v28) (funext fun a => Fin.ext ?_)
  obtain ⟨e0, e1, -⟩ := idx_facts1 t
  match a with
  | ⟨0, _⟩ => show win1_0.index t (0 : Fin 2) * 512 + 1 * r.val = t.val * 512 + r.val; omega
  | ⟨1, _⟩ => show win1_0.index t (1 : Fin 2) * 128 + 1 * o.val = o.val; omega

theorem iblk1_1_eq (c : Dev nD) (t : Fin cfg1.N) : iblk1 V c 1 t = V c main_v25 := by
  funext y
  show V c main_v25 (((cfg1.win 1).blk t).view.emb y) = V c main_v25 y
  refine congrArg (V c main_v25) (funext fun a => Fin.ext ?_)
  obtain ⟨-, -, e0, e1, -⟩ := idx_facts1 t
  match a with
  | ⟨0, _⟩ => show win1_1.index t (0 : Fin 2) * 1 + 1 * (y 0).val = (y 0).val; omega
  | ⟨1, _⟩ => show win1_1.index t (1 : Fin 2) * 128 + 1 * (y 1).val = (y 1).val; omega

theorem iblk1_2_eq (c : Dev nD) (t : Fin cfg1.N) : iblk1 V c 2 t = V c main_v27 := by
  funext y
  show V c main_v27 (((cfg1.win 2).blk t).view.emb y) = V c main_v27 y
  refine congrArg (V c main_v27) (funext fun a => Fin.ext ?_)
  obtain ⟨-, -, -, -, e0, e1, -⟩ := idx_facts1 t
  match a with
  | ⟨0, _⟩ => show win1_2.index t (0 : Fin 2) * 1 + 1 * (y 0).val = (y 0).val; omega
  | ⟨1, _⟩ => show win1_2.index t (1 : Fin 2) * 128 + 1 * (y 1).val = (y 1).val; omega

end Region1

section Region1Ideal
variable (V : (c : Dev nD) → (b : Ref sig .tc) → Buf (Elt Ideal) ((c : Thread nD τ).loc b))

abbrev aY2 (c : Dev nD) : S114688x128.Idx → EReal := V c main_v28
abbrev aSc (c : Dev nD) : S1x128.Idx → EReal := V c main_v25
abbrev aSh (c : Dev nD) : S1x128.Idx → EReal := V c main_v27

/-- The normalised array. -/
def G13 (c : Dev nD) : S114688x128.Idx → EReal :=
  fun i => aY2 V c (ix2 (i 0) (i 1)) * aSc V c (ix2 (0 : Fin 1) (i 1)) + aSh V c (ix2 (0 : Fin 1) (i 1))

theorem flushed1_3 (c : Dev nD) (t : Fin cfg1.N) :
    (dat1 V c).flushed 3 t = ((cfg1.win 3).blk t).view.read (Elt Ideal) (G13 V c) := by
  show (cfg1.win 3).cut (grid1.coords t) ((dat1 V c).after 3 t) = _
  rw [after1_3]
  unfold out1_3
  rw [View.canon_unit_zero hz2']
  simp only [View.ld_unit_zero (S := S512x128) hz2', View.ld_unit_zero (S := S1x128) hz2']
  funext j
  obtain ⟨r, o, rfl⟩ : ∃ (r : Fin 512) (o : Fin 128), j = ix2 r o := ⟨j 0, j 1, eq_ix2 j⟩
  show k1_pay1 (iblk1 V c 0 t) (iblk1 V c 1 t) (iblk1 V c 2 t) (ix2 r o) = G13 V c (((cfg1.win 3).blk t).view.emb (ix2 r o))
  rw [k1_pay1_apply, iblk1_0_apply, iblk1_1_eq, iblk1_2_eq]
  obtain ⟨-, -, -, -, -, -, e0, e1⟩ := idx_facts1 t
  unfold G13
  have h0 : (((cfg1.win 3).blk t).view.emb (ix2 r o)) 0 = rowOf1 t r := Fin.ext (by
    show win1_3.index t (0 : Fin 2) * 512 + 1 * r.val = t.val * 512 + r.val; omega)
  have h1 : (((cfg1.win 3).blk t).view.emb (ix2 r o)) 1 = o := Fin.ext (by
    show win1_3.index t (1 : Fin 2) * 128 + 1 * o.val = o.val; omega)
  rw [h0, h1]

theorem cover1_3' (i : S114688x128.Idx) :
    ∃ t : Fin cfg1.N, (cfg1.win 3).flush t = true ∧ i ∈ ((cfg1.win 3).blk t).view.set := by
  have h0 : (i 0).val < 114688 := (i 0).isLt
  have h1 : (i 1).val < 128 := (i 1).isLt
  let t : Fin cfg1.N := ⟨(i 0).val / 512, by rw [show cfg1.N = 224 from N_1]; omega⟩
  refine ⟨t, flush1_3 t, ?_⟩
  show i ∈ ((View.whole main_v29).slice (win1_3.rect t)).set
  rw [View.set_slice_whole, Rect.mem_set_unit]
  obtain ⟨-, -, -, -, -, -, e0, e1⟩ := idx_facts1 t
  have ht : t.val = (i 0).val / 512 := rfl
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 128 ≤ (i 1).val ∧ (i 1).val < win1_3.index t (1 : Fin 2) * 128 + 128; omega

theorem final1_3 (c : Dev nD) : (dat1 V c).arrAt 3 cfg1.N = G13 V c :=
  (dat1 V c).arrAt_eq_of_cover 3 (G13 V c) (fun t _ => flushed1_3 V c t) cover1_3'

end Region1Ideal

end Cert.ReferenceIdeal.Hand

end
-- ==== Proof.RefHostB.lean ====
import proofs.«134701_g2000104339650780_pallasbulk_589_17_alg».proof.Proof.RefRun
import proofs.«134701_g2000104339650780_pallasbulk_589_17_alg».proof.Proof.RefVal0b
import proofs.«134701_g2000104339650780_pallasbulk_589_17_alg».proof.Proof.RefVal1
import proofs.«134701_g2000104339650780_pallasbulk_589_17_alg».proof.Proof.Spec
import Idealize.ShloMosaic.Lib.StableHlo.Run

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # The reference's host operations after the statistics pass, read at one entry -/

variable (m : (ℓ : Loc nD τ sig) → Buf (Elt Ideal) ℓ)

/-- The result is the normalised flat array with the padding cut off and the channel axis moved forward. -/
theorem out_eq (c : Dev nD) : (W17 m c (Proc.devRef .tc main_v33) : S32x40x56x56.Idx → EReal)
    = transpose S32x40x56x56 [0, 3, 1, 2] (shapeCast S32x56x56x40 (extractStridedSlice S32x3136x40 ![0, 0, 0]
        (shapeCast S32x3584x128 (W16 m c (Proc.devRef .tc main_v29) : S114688x128.Idx → EReal) shapeCasts_S114688x128_S32x3584x128)
        slices_S32x3584x128_S32x3136x40_0_0_0) shapeCasts_S32x3136x40_S32x56x56x40) transposes_S32x56x56x40_S32x40x56x56_0_3_1_2 := by
  dsimp only [W17, hostOps2]; after_results; rfl

def flatRow (n : Fin 32) (R : Fin 3584) : Fin 114688 := ⟨n.val * 3584 + R.val, by have := n.isLt; have := R.isLt; omega⟩
def padRow (h w : Fin 56) : Fin 3584 := ⟨h.val * 56 + w.val, by have := h.isLt; have := w.isLt; omega⟩
def padCol (o : Fin 40) : Fin 128 := ⟨o.val, by have := o.isLt; omega⟩

theorem out_apply (c : Dev nD) (n : Fin 32) (o : Fin 40) (h w : Fin 56) :
    (W17 m c (Proc.devRef .tc main_v33) : S32x40x56x56.Idx → EReal) (ix4 n o h w)
      = (W16 m c (Proc.devRef .tc main_v29) : S114688x128.Idx → EReal) (ix2 (flatRow n (padRow h w)) (padCol o)) := by
  rw [out_eq]
  refine (transpose_apply [0, 3, 1, 2] _ transposes_S32x56x56x40_S32x40x56x56_0_3_1_2 (ix4 n o h w) (ix4 n h w o) (fun b => by
    match b with
    | ⟨0, _⟩ => rfl
    | ⟨1, _⟩ => rfl
    | ⟨2, _⟩ => rfl
    | ⟨3, _⟩ => rfl)).trans ?_
  refine (shapeCast_apply _ shapeCasts_S32x3136x40_S32x56x56x40 (ix4 n h w o) (ix3 n (Cert.SeBn.pixOf h w) o) (by
    rw [Shape.rowMajor_val_three, Shape.rowMajor_val_four]
    show (n.val * 3136 + (h.val * 56 + w.val)) * 40 + o.val = ((n.val * 56 + h.val) * 56 + w.val) * 40 + o.val
    omega)).trans ?_
  refine (extractStridedSlice_apply ![0, 0, 0] _ slices_S32x3584x128_S32x3136x40_0_0_0 (ix3 n (Cert.SeBn.pixOf h w) o) (ix3 n (padRow h w) (padCol o)) (fun a => by
    match a with
    | ⟨0, _⟩ => show n.val = 0 + n.val; omega
    | ⟨1, _⟩ => show h.val * 56 + w.val = 0 + (h.val * 56 + w.val); omega
    | ⟨2, _⟩ => show o.val = 0 + o.val; omega)).trans ?_
  refine shapeCast_apply _ shapeCasts_S114688x128_S32x3584x128 (ix3 n (padRow h w) (padCol o)) (ix2 (flatRow n (padRow h w)) (padCol o)) ?_
  rw [Shape.rowMajor_val_three, Shape.rowMajor_val_two]
  show (n.val * 3584 + (h.val * 56 + w.val)) * 128 + o.val = (n.val * 3584 + (h.val * 56 + w.val)) * 128 + o.val
  rfl

/-- The flat product array the normalisation pass reads. -/
theorem y2_eq (c : Dev nD) : (W15 m c (Proc.devRef .tc main_v28) : S114688x128.Idx → EReal)
    = shapeCast S114688x128 (W14 m c (Proc.devRef .tc main_v13_0) : S32x3584x128.Idx → EReal) shapeCasts_S32x3584x128_S114688x128 := by
  dsimp only [W15, hostOps1]; after_results; rfl

theorem y2_apply (c : Dev nD) (n : Fin 32) (R : Fin 3584) (o : Fin 128) :
    (W15 m c (Proc.devRef .tc main_v28) : S114688x128.Idx → EReal) (ix2 (flatRow n R) o)
      = (W14 m c (Proc.devRef .tc main_v13_0) : S32x3584x128.Idx → EReal) (ix3 n R o) := by
  rw [y2_eq]
  refine shapeCast_apply _ shapeCasts_S32x3584x128_S114688x128 (ix2 (flatRow n R) o) (ix3 n R o) ?_
  rw [Shape.rowMajor_val_three, Shape.rowMajor_val_two]
  show (n.val * 3584 + R.val) * 128 + o.val = (n.val * 3584 + R.val) * 128 + o.val
  rfl

/-- The scale row and the shift row, entry by entry, from the gain, the bias and the two statistic rows. -/
theorem sc_eq (c : Dev nD) : (W15 m c (Proc.devRef .tc main_v25) : S1x128.Idx → EReal)
    = fun j => Cert.SeBn.scaleOf ((W14 m c (Proc.devRef .tc main_v10) : S1x128.Idx → EReal) j)
        ((W14 m c (Proc.devRef .tc main_v13_1) : S1x128.Idx → EReal) j) ((W14 m c (Proc.devRef .tc main_v13_2) : S1x128.Idx → EReal) j) := by
  dsimp only [W15, hostOps1]; after_results; rfl

set_option maxHeartbeats 1000000 in
theorem sh_eq (c : Dev nD) : (W15 m c (Proc.devRef .tc main_v27) : S1x128.Idx → EReal)
    = fun j => Cert.SeBn.shiftOf ((W14 m c (Proc.devRef .tc main_v10) : S1x128.Idx → EReal) j) ((W14 m c (Proc.devRef .tc main_v12) : S1x128.Idx → EReal) j)
        ((W14 m c (Proc.devRef .tc main_v13_1) : S1x128.Idx → EReal) j) ((W14 m c (Proc.devRef .tc main_v13_2) : S1x128.Idx → EReal) j) := by
  dsimp only [W15, hostOps1]; after_results_simp; rfl

/-- What the statistics pass left, by name. -/
theorem W14_y (c : Dev nD) : (W14 m c (Proc.devRef .tc main_v13_0) : S32x3584x128.Idx → EReal) = G5 (E0 m) c :=
  (W14_arr m c 5).trans (final0_5 (E0 m) c)
theorem W14_s1 (c : Dev nD) : (W14 m c (Proc.devRef .tc main_v13_1) : S1x128.Idx → EReal) = G6 (E0 m) c :=
  (W14_arr m c 6).trans (final0_6 (E0 m) c)
theorem W14_s2 (c : Dev nD) : (W14 m c (Proc.devRef .tc main_v13_2) : S1x128.Idx → EReal) = G7 (E0 m) c :=
  (W14_arr m c 7).trans (final0_7 (E0 m) c)
theorem W14_g (c : Dev nD) : W14 m c (Proc.devRef .tc main_v10) = V13 m c (Proc.devRef .tc main_v10) := W14_of_ne m c main_v10 (by decide)
theorem W14_b (c : Dev nD) : W14 m c (Proc.devRef .tc main_v12) = V13 m c (Proc.devRef .tc main_v12) := W14_of_ne m c main_v12 (by decide)
theorem W16_out (c : Dev nD) : (W16 m c (Proc.devRef .tc main_v29) : S114688x128.Idx → EReal) = G13 (E1 m) c :=
  (W16_arr m c 3).trans (final1_3 (E1 m) c)

end Cert.ReferenceIdeal.Hand

end
-- ==== Proof.RefFinal.lean ====
import proofs.«134701_g2000104339650780_pallasbulk_589_17_alg».proof.Proof.RefHostA
import proofs.«134701_g2000104339650780_pallasbulk_589_17_alg».proof.Proof.RefHostB
import proofs.«134701_g2000104339650780_pallasbulk_589_17_alg».proof.Proof.LibZeroPadSums

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.SeBn

/-! # The reference's result is the specified function of its arguments

The padded rows and channels are zero, and zero times anything is zero on the extended reals, so every padded sum is
the sum over the true range; the 224 tiles' column sums regroup, by associativity and commutativity of the sum alone,
into the sum over the 32 images' 3136 pixels. -/

variable (m : (ℓ : Loc nD τ sig) → Buf (Elt Ideal) ℓ)

/-! The operands of the statistics pass, entry by entry. -/
theorem aX63_apply (c : Dev nD) (b : Fin 32) (z : Fin 1) (q : Fin 10) :
    aX63 (E0 m) c (ix3 b z q) = arg0 m c (ix4 b q (0 : Fin 1) (0 : Fin 1)) := x63_apply m c b z q
theorem aW1_in (c : Dev nD) (k : Fin 256) (hk : k.val < 240) (q : Fin 10) :
    aW1 (E0 m) c (ix2 k q) = arg2 m c (ix2 ⟨k.val, hk⟩ q) := w1_in m c k hk q
theorem aB1_in (c : Dev nD) (k : Fin 256) (hk : k.val < 240) (z : Fin 1) :
    aB1 (E0 m) c (ix2 k z) = arg3 m c (ix1 ⟨k.val, hk⟩) := b1_in m c k hk z
theorem aW2_in (c : Dev nD) (k : Fin 256) (hk : k.val < 240) (o : Fin 128) (ho : o.val < 40) :
    aW2 (E0 m) c (ix2 k o) = arg4 m c (ix2 ⟨o.val, ho⟩ ⟨k.val, hk⟩) := w2_in m c k hk o ho
theorem aW2_out (c : Dev nD) (k : Fin 256) (o : Fin 128) (h : 240 ≤ k.val ∨ 40 ≤ o.val) :
    aW2 (E0 m) c (ix2 k o) = 0 := w2_out m c k o h
theorem aXs_in (c : Dev nD) (b : Fin 32) (R : Fin 3584) (hR : R.val < 3136) (k : Fin 256) (hk : k.val < 240) :
    aXs (E0 m) c (ix3 b R k) = arg1 m c (ix4 b ⟨k.val, hk⟩ (pixH ⟨R.val, hR⟩) (pixW ⟨R.val, hR⟩)) := xs_in m c b R hR k hk
theorem aXs_out (c : Dev nD) (b : Fin 32) (R : Fin 3584) (k : Fin 256) (h : 3136 ≤ R.val ∨ 240 ≤ k.val) :
    aXs (E0 m) c (ix3 b R k) = 0 := xs_out m c b R k h

/-- The gate-scaled weight at a true channel pair is the weight times the gate; at a padded one it is zero. -/
theorem wscAt_in (c : Dev nD) (b : Fin 32) (k : Fin 256) (hk : k.val < 240) (o : Fin 128) (ho : o.val < 40) :
    wscAt (E0 m) c b k o = arg4 m c (ix2 ⟨o.val, ho⟩ ⟨k.val, hk⟩) * gate (arg0 m c) (arg2 m c) (arg3 m c) b ⟨k.val, hk⟩ := by
  unfold wscAt gate
  rw [aW2_in m c k hk o ho, aB1_in m c k hk]
  refine congrArg (fun s => arg4 m c (ix2 ⟨o.val, ho⟩ ⟨k.val, hk⟩) * Ideal.logistic (s + arg3 m c (ix1 ⟨k.val, hk⟩))) ?_
  refine Finset.sum_congr rfl fun q _ => ?_
  rw [aW1_in m c k hk, aX63_apply, mul_comm]
theorem wscAt_out (c : Dev nD) (b : Fin 32) (k : Fin 256) (o : Fin 128) (h : 240 ≤ k.val ∨ 40 ≤ o.val) :
    wscAt (E0 m) c b k o = 0 := by
  unfold wscAt
  rw [aW2_out m c k o h, zero_mul]

/-- The product at a true pixel and channel is the specified convolution; on a padded row it is zero. -/
theorem yAt_in (c : Dev nD) (b : Fin 32) (R : Fin 3584) (hR : R.val < 3136) (o : Fin 128) (ho : o.val < 40) :
    yAt (E0 m) c b R o = conv (arg0 m c) (arg1 m c) (arg2 m c) (arg3 m c) (arg4 m c) b ⟨R.val, hR⟩ ⟨o.val, ho⟩ := by
  unfold yAt conv
  have e1 : (∑ k : Fin 256, aXs (E0 m) c (ix3 b R k) * wscAt (E0 m) c b k o)
      = ∑ j : Fin (240 + 16), (fun k : ℕ => if h : k < 256 then aXs (E0 m) c (ix3 b R ⟨k, h⟩) * wscAt (E0 m) c b ⟨k, h⟩ o else 0) j.val :=
    Finset.sum_congr rfl fun j _ => by
      show _ = (if h : j.val < 256 then aXs (E0 m) c (ix3 b R ⟨j.val, h⟩) * wscAt (E0 m) c b ⟨j.val, h⟩ o else 0)
      rw [dif_pos j.isLt]
  refine e1.trans ((Cert.ZeroPadSums.sum_zero_tail 240 16 (fun k : ℕ => if h : k < 256 then aXs (E0 m) c (ix3 b R ⟨k, h⟩) * wscAt (E0 m) c b ⟨k, h⟩ o else 0) (fun j h1 h2 => by
    show (if h : j < 256 then aXs (E0 m) c (ix3 b R ⟨j, h⟩) * wscAt (E0 m) c b ⟨j, h⟩ o else 0) = 0
    rw [dif_pos (by omega : j < 256), wscAt_out m c b ⟨j, by omega⟩ o (Or.inl h1), mul_zero])).trans ?_)
  refine Finset.sum_congr rfl fun k _ => ?_
  have hk : k.val < 256 := by have := k.isLt; omega
  show (if h : k.val < 256 then aXs (E0 m) c (ix3 b R ⟨k.val, h⟩) * wscAt (E0 m) c b ⟨k.val, h⟩ o else 0) = _
  rw [dif_pos hk, aXs_in m c b R hR ⟨k.val, hk⟩ k.isLt, wscAt_in m c b ⟨k.val, hk⟩ k.isLt o ho]
theorem yAt_out (c : Dev nD) (b : Fin 32) (R : Fin 3584) (hR : 3136 ≤ R.val) (o : Fin 128) :
    yAt (E0 m) c b R o = 0 := by
  unfold yAt
  refine Finset.sum_eq_zero fun k _ => ?_
  rw [aXs_out m c b R k (Or.inl hR), zero_mul]

/-- The points' tile sums regroup into the images' pixel sums. -/
theorem tiles_regroup (F' : Fin 32 → Fin 3584 → EReal) (Cv : Fin 32 → Fin 3136 → EReal)
    (hin : ∀ b R (hR : R.val < 3136), F' b R = Cv b ⟨R.val, hR⟩) (hout : ∀ b R, 3136 ≤ R.val → F' b R = 0) :
    (∑ s ∈ Finset.range 224, if h : s < cfg0.N then ∑ r : Fin 512, F' (bOf ⟨s, h⟩) (rowOf ⟨s, h⟩ r) else 0)
      = ∑ n : Fin 32, ∑ p : Fin 3136, Cv n p := by
  have e1 : (∑ s ∈ Finset.range 224, if h : s < cfg0.N then ∑ r : Fin 512, F' (bOf ⟨s, h⟩) (rowOf ⟨s, h⟩ r) else 0)
      = ∑ s ∈ Finset.range (32 * 7), ∑ r : Fin 512, (fun b R : ℕ => if h : b < 32 ∧ R < 3584 then F' ⟨b, h.1⟩ ⟨R, h.2⟩ else 0) (s / 7) ((s % 7) * 512 + r.val) := by
    refine Finset.sum_congr rfl fun s hs => ?_
    have hs' : s < 224 := Finset.mem_range.mp hs
    rw [dif_pos (lt_of_lt_of_eq hs' (show 224 = cfg0.N from N_0.symm))]
    refine Finset.sum_congr rfl fun r _ => ?_
    have hr := r.isLt
    show _ = if h : s / 7 < 32 ∧ (s % 7) * 512 + r.val < 3584 then F' ⟨s / 7, h.1⟩ ⟨(s % 7) * 512 + r.val, h.2⟩ else 0
    rw [dif_pos ⟨by omega, by omega⟩]
    rfl
  refine e1.trans ((Cert.ZeroPadSums.sum_range_tiles 32 7 512 (by decide) (fun b R : ℕ => if h : b < 32 ∧ R < 3584 then F' ⟨b, h.1⟩ ⟨R, h.2⟩ else 0)).trans ?_)
  refine Finset.sum_congr rfl fun b _ => ?_
  refine (Cert.ZeroPadSums.sum_zero_tail 3136 448 (fun R : ℕ => if h : b.val < 32 ∧ R < 3584 then F' ⟨b.val, h.1⟩ ⟨R, h.2⟩ else 0) (fun j h1 h2 => by
      show (if h : b.val < 32 ∧ j < 3584 then F' ⟨b.val, h.1⟩ ⟨j, h.2⟩ else 0) = 0
      rw [dif_pos ⟨b.isLt, by omega⟩]; exact hout _ _ h1)).trans ?_
  refine Finset.sum_congr rfl fun p _ => ?_
  have hp := p.isLt
  show (if h : b.val < 32 ∧ p.val < 3584 then F' ⟨b.val, h.1⟩ ⟨p.val, h.2⟩ else 0) = _
  rw [dif_pos ⟨b.isLt, by omega⟩]
  exact hin _ _ hp

theorem G6_apply (c : Dev nD) (z : Fin 1) (o : Fin 128) (ho : o.val < 40) :
    G6 (E0 m) c (ix2 z o) = s1 (arg0 m c) (arg1 m c) (arg2 m c) (arg3 m c) (arg4 m c) ⟨o.val, ho⟩ := by
  unfold G6 s1
  show (∑ s ∈ Finset.range 224, T1 (E0 m) c s o) = _
  unfold T1
  exact tiles_regroup (fun b R => yAt (E0 m) c b R o) (fun n p => conv (arg0 m c) (arg1 m c) (arg2 m c) (arg3 m c) (arg4 m c) n p ⟨o.val, ho⟩)
    (fun b R hR => yAt_in m c b R hR o ho) (fun b R hR => yAt_out m c b R hR o)
theorem G7_apply (c : Dev nD) (z : Fin 1) (o : Fin 128) (ho : o.val < 40) :
    G7 (E0 m) c (ix2 z o) = s2 (arg0 m c) (arg1 m c) (arg2 m c) (arg3 m c) (arg4 m c) ⟨o.val, ho⟩ := by
  unfold G7 s2
  show (∑ s ∈ Finset.range 224, T2 (E0 m) c s o) = _
  unfold T2
  exact tiles_regroup (fun b R => yAt (E0 m) c b R o * yAt (E0 m) c b R o) (fun n p => conv (arg0 m c) (arg1 m c) (arg2 m c) (arg3 m c) (arg4 m c) n p ⟨o.val, ho⟩ * conv (arg0 m c) (arg1 m c) (arg2 m c) (arg3 m c) (arg4 m c) n p ⟨o.val, ho⟩)
    (fun b R hR => by rw [yAt_in m c b R hR o ho]) (fun b R hR => by rw [yAt_out m c b R hR o, zero_mul])

/-! The operands of the normalisation pass, entry by entry. -/
theorem aY2_apply (c : Dev nD) (n : Fin 32) (R : Fin 3584) (o : Fin 128) :
    aY2 (E1 m) c (ix2 (flatRow n R) o) = yAt (E0 m) c n R o :=
  (y2_apply m c n R o).trans (congrFun (W14_y m c) (ix3 n R o))
theorem aSc_apply (c : Dev nD) (z : Fin 1) (o : Fin 128) (ho : o.val < 40) :
    aSc (E1 m) c (ix2 z o) = scaleOf (arg5 m c (ix1 ⟨o.val, ho⟩)) (s1 (arg0 m c) (arg1 m c) (arg2 m c) (arg3 m c) (arg4 m c) ⟨o.val, ho⟩) (s2 (arg0 m c) (arg1 m c) (arg2 m c) (arg3 m c) (arg4 m c) ⟨o.val, ho⟩) := by
  refine (congrFun (sc_eq m c) (ix2 z o)).trans ?_
  show scaleOf _ _ _ = _
  rw [W14_s1, W14_s2, W14_g, G6_apply m c z o ho, G7_apply m c z o ho]
  exact congrArg (fun g => scaleOf g _ _) (g_in m c z o ho)
theorem aSh_apply (c : Dev nD) (z : Fin 1) (o : Fin 128) (ho : o.val < 40) :
    aSh (E1 m) c (ix2 z o) = shiftOf (arg5 m c (ix1 ⟨o.val, ho⟩)) (arg6 m c (ix1 ⟨o.val, ho⟩)) (s1 (arg0 m c) (arg1 m c) (arg2 m c) (arg3 m c) (arg4 m c) ⟨o.val, ho⟩) (s2 (arg0 m c) (arg1 m c) (arg2 m c) (arg3 m c) (arg4 m c) ⟨o.val, ho⟩) := by
  refine (congrFun (sh_eq m c) (ix2 z o)).trans ?_
  show shiftOf _ _ _ _ = _
  rw [W14_s1, W14_s2, W14_g, W14_b, G6_apply m c z o ho, G7_apply m c z o ho]
  exact congrArg₂ (fun g b => shiftOf g b _ _) (g_in m c z o ho) (bt_in m c z o ho)

/-- THE REFERENCE'S RESULT. -/
theorem ref_value (c : Dev nD) :
    (W17 m c (Proc.devRef .tc main_v33) : S32x40x56x56.Idx → EReal) = G (arg0 m c) (arg1 m c) (arg2 m c) (arg3 m c) (arg4 m c) (arg5 m c) (arg6 m c) := by
  funext i
  obtain ⟨n, o, h, w, rfl⟩ : ∃ (n : Fin 32) (o : Fin 40) (h w : Fin 56), i = ix4 n o h w := ⟨i 0, i 1, i 2, i 3, eq_ix4 i⟩
  rw [out_apply, W16_out]
  have ho : (padCol o).val < 40 := o.isLt
  have hR : (padRow h w).val < 3136 := by have := h.isLt; have := w.isLt; show h.val * 56 + w.val < 3136; omega
  show aY2 (E1 m) c (ix2 (flatRow n (padRow h w)) (padCol o)) * aSc (E1 m) c (ix2 (0 : Fin 1) (padCol o)) + aSh (E1 m) c (ix2 (0 : Fin 1) (padCol o)) = _
  rw [aY2_apply, aSc_apply m c 0 (padCol o) ho, aSh_apply m c 0 (padCol o) ho, yAt_in m c n (padRow h w) hR (padCol o) ho]
  rfl

end Cert.ReferenceIdeal.Hand

end
-- ==== Proof.lean ====
/-
  Two programs for one layer — a squeeze-and-excitation gate folded into a 1×1 convolution, then batch normalisation
  with the batch's own statistics — compute one function on the extended reals.

  The kernel forms, per image, the gate `logistic (x63 · W1ᵀ + b1)`, scales the convolution weights by it, multiplies the
  image's pixels by the scaled weights, and accumulates the column sums and column sums of squares of the products over
  the batch, four images per grid point; host arithmetic turns the two sums into a scale and a shift per channel, and a
  second launch applies them. The reference does the same with every operand zero-padded to tile sizes (10 → 10, 240 → 256
  channels, 40 → 128 output channels, 3136 → 3584 pixels), one 512-row tile per grid point, the scaled weights kept in a
  buffer of the kernel's own between the tiles of an image, and cuts the padding off at the end.

  At every index both results are  conv n p o · scale o + shift o  (Proof/Spec.lean). The two sides meet by three facts
  about extended reals, none of which needs a finite operand: zero times anything is zero (the padded rows, channels
  and columns contribute nothing), finite sums may be regrouped and reordered (the tiles' sums against the images'
  sums), and a product of three factors may be bracketed either way (the shift's `mean · γ · inv`).

  The kernel's frame is the generated one; the reference is itself two launches with a buffer carried between grid
  points, and its run is proved in Proof/RefRun.lean from the body's runs case by case.
-/
import proofs.«134701_g2000104339650780_pallasbulk_589_17_alg».proof.Defs
import proofs.«134701_g2000104339650780_pallasbulk_589_17_alg».proof.Proof.Gen.Kernel
import proofs.«134701_g2000104339650780_pallasbulk_589_17_alg».proof.Proof.Gen.Kernel.Frame
import proofs.«134701_g2000104339650780_pallasbulk_589_17_alg».proof.Proof.Gen.KernelIdeal
import proofs.«134701_g2000104339650780_pallasbulk_589_17_alg».proof.Proof.Gen.KernelIdeal.Frame
import proofs.«134701_g2000104339650780_pallasbulk_589_17_alg».proof.Proof.Gen.ReferenceIdeal
import proofs.«134701_g2000104339650780_pallasbulk_589_17_alg».proof.Proof.Gen.Pre_finite_inputs
import proofs.«134701_g2000104339650780_pallasbulk_589_17_alg».proof.Proof.KerFinal
import proofs.«134701_g2000104339650780_pallasbulk_589_17_alg».proof.Proof.RefFinal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote nothing. -/
theorem preserves : Cert.preserves_Kernel_KernelIdeal := trivial

/-- Both runs end with the result at the specified function of the arguments, and the arguments agree. -/
theorem algebraic : Cert.algebraic_KernelIdeal_ReferenceIdeal := by
  intro m ρ m' ρ' _ hagree
  refine ⟨fun c => Cert.SeBn.G (Cert.KernelIdeal.Hand.karg0 m c) (Cert.KernelIdeal.Hand.karg1 m c) (Cert.KernelIdeal.Hand.karg2 m c)
      (Cert.KernelIdeal.Hand.karg3 m c) (Cert.KernelIdeal.Hand.karg4 m c) (Cert.KernelIdeal.Hand.karg5 m c) (Cert.KernelIdeal.Hand.karg6 m c), ?_, ?_⟩
  · exact (θ_run Cert.KernelIdeal.defs _ _).mono (fun _ h c => ⟨(h c).1.trans (Cert.KernelIdeal.Hand.ker_value m ρ c), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.Hand.run (F := Ideal) m' ρ')
    refine (Cert.ReferenceIdeal.Hand.ref_value m' c).trans ?_
    obtain ⟨h0, h1, h2, h3, h4, h5, h6⟩ := hagree c
    have e0 : Cert.ReferenceIdeal.Hand.arg0 m' c = Cert.KernelIdeal.Hand.karg0 m c := h0
    have e1 : Cert.ReferenceIdeal.Hand.arg1 m' c = Cert.KernelIdeal.Hand.karg1 m c := h1
    have e2 : Cert.ReferenceIdeal.Hand.arg2 m' c = Cert.KernelIdeal.Hand.karg2 m c := h2
    have e3 : Cert.ReferenceIdeal.Hand.arg3 m' c = Cert.KernelIdeal.Hand.karg3 m c := h3
    have e4 : Cert.ReferenceIdeal.Hand.arg4 m' c = Cert.KernelIdeal.Hand.karg4 m c := h4
    have e5 : Cert.ReferenceIdeal.Hand.arg5 m' c = Cert.KernelIdeal.Hand.karg5 m c := h5
    have e6 : Cert.ReferenceIdeal.Hand.arg6 m' c = Cert.KernelIdeal.Hand.karg6 m c := h6
    rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
